-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x2048 : Shape := ⟨3, ![2, 2048, 2048]⟩
abbrev S2048x2048 : Shape := ⟨2, ![2048, 2048]⟩
abbrev S_ : Shape := ⟨0, ![]⟩

class Facts : Prop where
  bcast_S_S2x2048x2048 : S_.BroadcastsInDim S2x2048x2048 (![] : Fin 0 → Fin S2x2048x2048.rank)
  reducesTo_S2x2048x2048_S_d0_1_2 : S2x2048x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn_part1 {F : FTy → Type} [FloatOps F] (main_arg4 : FVec F S2048x2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  main_v23

def fn {F : FTy → Type} [FloatOps F] (main_arg0 : FVec F S2x2048x2048 .f32) (main_arg1 : FVec F S2048x2048 .f32) (main_arg2 : FVec F S2048x2048 .f32) (main_arg3 : FVec F S2048x2048 .f32) (main_arg4 : FVec F S2048x2048 .f32) : IVec S_ 1 :=
  let main_v0 : FVec F S2x2048x2048 .f32 := Host.absf main_arg0
  let main_cst : FVec F S_ .f32 := constant S_ .f32 0x7F800000#32
  let main_v1 : FVec F S2x2048x2048 .f32 := broadcastInDim S2x2048x2048 ![] bcast_S_S2x2048x2048 main_cst
  let main_v2 : IVec S2x2048x2048 1 := cmpf .olt main_v0 main_v1
  let main_c : IVec S_ 1 := constantI S_ 1 1#1
  let main_v3 : IVec S_ 1 := (fun x v => Host.reduce IntOp.andi x v reducesTo_S2x2048x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_v13 main_v16
-- ==== Kernel.lean ====
abbrev S2x2048x2048 : Shape := ⟨3, ![2, 2048, 2048]⟩
abbrev S2048x2048 : Shape := ⟨2, ![2048, 2048]⟩
abbrev S2048x6144 : Shape := ⟨2, ![2048, 6144]⟩
abbrev S2x2048x6144 : Shape := ⟨3, ![2, 2048, 6144]⟩
abbrev S1x512x512 : Shape := ⟨3, ![1, 512, 512]⟩
abbrev S512x2048 : Shape := ⟨2, ![512, 2048]⟩
abbrev S1x512x2048 : Shape := ⟨3, ![1, 512, 2048]⟩
abbrev S512x512 : Shape := ⟨2, ![512, 512]⟩
abbrev S1x512x128 : Shape := ⟨3, ![1, 512, 128]⟩
abbrev S1x2048x128 : Shape := ⟨3, ![1, 2048, 128]⟩
abbrev S512x128 : Shape := ⟨2, ![512, 128]⟩
abbrev S2048x128 : Shape := ⟨2, ![2048, 128]⟩
abbrev S128x2048 : Shape := ⟨2, ![128, 2048]⟩
abbrev S512 : Shape := ⟨1, ![512]⟩
abbrev S512x1 : Shape := ⟨2, ![512, 1]⟩

abbrev nBuf : Space → Nat
  | .hbm => 16
  | .vmem => 22
  | .smem => 0
  | _ => 0

abbrev bufTy : (tb : Table) → Fin (tcTables nBuf tb) → BufTy
  | .hbm, ⟨0, _⟩ => ⟨S2x2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2x2048x2048, .bf16⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x6144, .f32⟩
  | .hbm, ⟨10, _⟩ => ⟨S2048x6144, .bf16⟩
  | .hbm, ⟨11, _⟩ => ⟨S2048x2048, .f32⟩
  | .hbm, ⟨12, _⟩ => ⟨S2048x2048, .bf16⟩
  | .hbm, ⟨13, _⟩ => ⟨S2x2048x6144, .bf16⟩
  | .hbm, ⟨14, _⟩ => ⟨S2x2048x2048, .bf16⟩
  | .hbm, ⟨15, _⟩ => ⟨S2x2048x2048, .f32⟩
  | .local _ .vmem, ⟨0, _⟩ => ⟨S1x512x512, .bf16⟩
  | .local _ .vmem, ⟨1, _⟩ => ⟨S1x512x512, .bf16⟩
  | .local _ .vmem, ⟨2, _⟩ => ⟨S512x2048, .bf16⟩
  | .local _ .vmem, ⟨3, _⟩ => ⟨S512x2048, .bf16⟩
  | .local _ .vmem, ⟨4, _⟩ => ⟨S1x512x2048, .bf16⟩
  | .local _ .vmem, ⟨5, _⟩ => ⟨S1x512x2048, .bf16⟩
  | .local _ .vmem, ⟨6, _⟩ => ⟨S512x2048, .f32⟩
  | .local _ .vmem, ⟨7, _⟩ => ⟨S1x512x128, .bf16⟩
  | .local _ .vmem, ⟨8, _⟩ => ⟨S1x512x128, .bf16⟩
  | .local _ .vmem, ⟨9, _⟩ => ⟨S1x2048x128, .bf16⟩
  | .local _ .vmem, ⟨10, _⟩ => ⟨S1x2048x128, .bf16⟩
  | .local _ .vmem, ⟨11, _⟩ => ⟨S1x2048x128, .bf16⟩
  | .local _ .vmem, ⟨12, _⟩ => ⟨S1x2048x128, .bf16⟩
  | .local _ .vmem, ⟨13, _⟩ => ⟨S1x512x128, .bf16⟩
  | .local _ .vmem, ⟨14, _⟩ => ⟨S1x512x128, .bf16⟩
  | .local _ .vmem, ⟨15, _⟩ => ⟨S1x512x512, .bf16⟩
  | .local _ .vmem, ⟨16, _⟩ => ⟨S1x512x512, .bf16⟩
  | .local _ .vmem, ⟨17, _⟩ => ⟨S512x2048, .bf16⟩
  | .local _ .vmem, ⟨18, _⟩ => ⟨S512x2048, .bf16⟩
  | .local _ .vmem, ⟨19, _⟩ => ⟨S1x512x2048, .f32⟩
  | .local _ .vmem, ⟨20, _⟩ => ⟨S1x512x2048, .f32⟩
  | .local _ .vmem, ⟨21, _⟩ => ⟨S512x2048, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19

abbrev nD : Nat := 1
abbrev τ : Topo := Topo.v7x

variable {F : FTy → Type} [FloatOps F]

abbrev grid0 : Pipeline.Grid := ⟨4, ![2, 4, 3, 4], ![false, false, false, false]⟩

def k0_cond2 (i : grid0.Coords) : BitVec 1 :=
  let arg3 : BitVec 32 := BitVec.ofNat 32 (i 3).val
  let c3_i32 : BitVec 32 := 3#32
  let v13 : BitVec 1 := Scalar.cmpi .eq arg3 c3_i32
  let v14 : BitVec 32 := Scalar.extui v13
  let c0_i32_9 : BitVec 32 := 0#32
  let v15 : BitVec 1 := Scalar.cmpi .ne v14 c0_i32_9
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]

abbrev grid1 : Pipeline.Grid := ⟨3, ![2, 16, 4], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg1
  let c0_i32 : BitVec 32 := 0#32
  let c0_i32_0 : BitVec 32 := 0#32
  ![arg0.toNat, c0_i32.toNat, v0.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage1_0 : Fin 2 → Memref sig .tc .vmem S1x512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x512x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev grid2 : Pipeline.Grid := ⟨4, ![2, 4, 1, 4], ![false, false, false, false]⟩

def k2_cond2 (i : grid2.Coords) : BitVec 1 :=
  let arg3 : BitVec 32 := BitVec.ofNat 32 (i 3).val
  let c3_i32 : BitVec 32 := 3#32
  let v13 : BitVec 1 := Scalar.cmpi .eq arg3 c3_i32
  let v14 : BitVec 32 := Scalar.extui v13
  let c0_i32_9 : BitVec 32 := 0#32
  let v15 : BitVec 1 := Scalar.cmpi .ne v14 c0_i32_9
  v15

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg3.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage2_0 : Fin 2 → Memref sig .tc .vmem S1x512x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, false, true]

abbrev stage2_1 : Fin 2 → Memref sig .tc .vmem S512x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, false, true, true]

abbrev stage2_2 : Fin 2 → Memref sig .tc .vmem S1x512x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, true, false]

class Facts₀ : Prop where
  bitsLt_bf16_f32 : FTy.bits .bf16 < FTy.bits .f32
  transposes_S2048x2048_S2048x2048_1_0 : S2048x2048.Transposes [1, 0] S2048x2048
  concatenates_S2048x2048_S2048x2048_S2048x2048_S2048x6144_d1 : Shape.Concatenates [S2048x2048, S2048x2048, S2048x2048] S2048x6144 1
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  packedbf16_S1x512x2048_S1x512x2048_0_0_0 : (Rect.unit (s := S1x512x2048) ![0, 0, 0] S1x512x2048.size inb_S1x512x2048_S1x512x2048_0_0_0).PackedRows (EltTy.packing .bf16)
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  transposes_S2048x128_p1_0_S128x2048 : S2048x128.Transposes [1, 0] S128x2048
  reduces_S512x2048_S512 : S512x2048.Reduces [1] S512
  shapeCasts_S512_S512x1 : S512.ShapeCasts S512x1
  broadcasts_S512x1_S512x2048 : S512x1.Broadcasts S512x2048
  shapeCasts_S512x128_S1x512x128 : S512x128.ShapeCasts S1x512x128
  packedbf16_S1x512x128_S1x512x128_0_0_0 : (Rect.unit (s := S1x512x128) ![0, 0, 0] S1x512x128.size inb_S1x512x128_S1x512x128_0_0_0).PackedRows (EltTy.packing .bf16)
  dot_S512x512_S512x2048_S512x2048_1_0_0_1_n_n_wf : DotDims.WF S512x512 S512x2048 S512x2048 [1] [0] [0] [1] [] []
  dot_S512x128_S128x2048_S512x2048_1_0_0_1_n_n_wf : DotDims.WF S512x128 S128x2048 S512x2048 [1] [0] [0] [1] [] []
  dot_S512x2048_S2048x128_S512x128_1_0_0_1_n_n_wf : DotDims.WF S512x2048 S2048x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S2x2048x2048.size a
  hwx0_0 : ∀ i : grid0.Coords, EltTy.bits .bf16 = 32 ∨ (Rect.block (s := S2x2048x2048) S1x512x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S2048x6144.size a
  hwx0_1 : ∀ i : grid0.Coords, EltTy.bits .bf16 = 32 ∨ (Rect.block (s := S2048x6144) S512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x2048.size a ≤ S2x2048x6144.size a
  hwx0_2 : ∀ i : grid0.Coords, EltTy.bits .bf16 = 32 ∨ (Rect.block (s := S2x2048x6144) S1x512x2048.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x128.size a ≤ S2x2048x6144.size a
  hwx1_0 : ∀ i : grid1.Coords, EltTy.bits .bf16 = 32 ∨ (Rect.block (s := S2x2048x6144) S1x512x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x128.size a ≤ S2x2048x6144.size a
  hwx1_1 : ∀ i : grid1.Coords, EltTy.bits .bf16 = 32 ∨ (Rect.block (s := S2x2048x6144) S1x2048x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x128.size a ≤ S2x2048x6144.size a
  hwx1_2 : ∀ i : grid1.Coords, EltTy.bits .bf16 = 32 ∨ (Rect.block (s := S2x2048x6144) S1x2048x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x128.size a ≤ S2x2048x2048.size a
  hwx1_3 : ∀ i : grid1.Coords, EltTy.bits .bf16 = 32 ∨ (Rect.block (s := S2x2048x2048) S1x512x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x512x512.size a ≤ S2x2048x2048.size a
  hwx2_0 : ∀ i : grid2.Coords, EltTy.bits .bf16 = 32 ∨ (Rect.block (s := S2x2048x2048) S1x512x512.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x2048.size a ≤ S2048x2048.size a
  hwx2_1 : ∀ i : grid2.Coords, EltTy.bits .bf16 = 32 ∨ (Rect.block (s := S2048x2048) S512x2048.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x512x2048.size a ≤ S2x2048x2048.size a
  hwx2_2 : ∀ i : grid2.Coords, EltTy.bits .f32 = 32 ∨ (Rect.block (s := S2x2048x2048) S1x512x2048.size (cc2_transform_2 i) (hinb2_2 i)).WholeWords (EltTy.packing .f32)

variable [Facts₀]

def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf
def dot_S512x128_S128x2048_S512x2048_1_0_0_1_n_n : DotDims S512x128 S128x2048 S512x2048 where
  lhsContracting := [1]
  rhsContracting := [0]
  lhsNonContracting := [0]
  rhsNonContracting := [1]
  lhsBatch := []
  rhsBatch := []
  wf := dot_S512x128_S128x2048_S512x2048_1_0_0_1_n_n_wf
def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf

abbrev win0_0 : Pipeline.Window sig grid0 :=
  Pipeline.Window.ofSpec (Memref.whole main_v0) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x512x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v8) S1x512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S1x2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x2048x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9) S1x512x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v9) S1x512x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S512x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v10) S1x512x2048.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S2x2048x2048 : Shape := ⟨3, ![2, 2048, 2048]⟩
abbrev S2048x2048 : Shape := ⟨2, ![2048, 2048]⟩
abbrev S2x2048x16x128 : Shape := ⟨4, ![2, 2048, 16, 128]⟩
abbrev S2x16x2048x128 : Shape := ⟨4, ![2, 16, 2048, 128]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 36
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2x2048x2048, .f32⟩
  | .hbm, ⟨6, _⟩ => ⟨S2x2048x16x128, .f32⟩
  | .hbm, ⟨7, _⟩ => ⟨S2x16x2048x128, .f32⟩
  | .hbm, ⟨8, _⟩ => ⟨S2x2048x2048, .f32⟩
  | .hbm, ⟨9, _⟩ => ⟨S2x2048x16x128, .f32⟩
  | .hbm, ⟨10, _⟩ => ⟨S2x16x2048x128, .f32⟩
  | .hbm, ⟨11, _⟩ => ⟨S2x2048x2048, .f32⟩
  | .hbm, ⟨12, _⟩ => ⟨S2x2048x16x128, .f32⟩
  | .hbm, ⟨13, _⟩ => ⟨S2x16x2048x128, .f32⟩
  | .hbm, ⟨14, _⟩ => ⟨S2x16x2048x2048, .f32⟩
  | .hbm, ⟨15, _⟩ => ⟨S_, .f32⟩
  | .hbm, ⟨16, _⟩ => ⟨S2x16x2048x2048, .f32⟩
  | .hbm, ⟨17, _⟩ => ⟨S2x16x2048x2048, .f32⟩
  | .hbm, ⟨18, _⟩ => ⟨S_, .f32⟩
  | .hbm, ⟨19, _⟩ => ⟨S2x16x2048, .f32⟩
  | .hbm, ⟨20, _⟩ => ⟨S_, .f32⟩
  | .hbm, ⟨21, _⟩ => ⟨S2x16x2048, .f32⟩
  | .hbm, ⟨22, _⟩ => ⟨S2x16x2048, .f32⟩
  | .hbm, ⟨23, _⟩ => ⟨S2x16x2048x1, .f32⟩
  | .hbm, ⟨24, _⟩ => ⟨S2x16x2048x2048, .f32⟩
  | .hbm, ⟨25, _⟩ => ⟨S2x16x2048x2048, .f32⟩
  | .hbm, ⟨26, _⟩ => ⟨S2x16x2048x2048, .f32⟩
  | .hbm, ⟨27, _⟩ => ⟨S_, .f32⟩
  | .hbm, ⟨28, _⟩ => ⟨S2x16x2048, .f32⟩
  | .hbm, ⟨29, _⟩ => ⟨S2x16x2048x1, .f32⟩
  | .hbm, ⟨30, _⟩ => ⟨S2x16x2048x2048, .f32⟩
  | .hbm, ⟨31, _⟩ => ⟨S2x16x2048x2048, .f32⟩
  | .hbm, ⟨32, _⟩ => ⟨S2x16x2048x128, .f32⟩
  | .hbm, ⟨33, _⟩ => ⟨S2x2048x16x128, .f32⟩
  | .hbm, ⟨34, _⟩ => ⟨S2x2048x2048, .f32⟩
  | .hbm, ⟨35, _⟩ => ⟨S2x2048x2048, .f32⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]

class Facts₀ : Prop where
  shapeCasts_S2x2048x2048_S2x2048x16x128 : S2x2048x2048.ShapeCasts S2x2048x16x128
  transposes_S2x2048x16x128_S2x16x2048x128_0_2_1_3 : S2x2048x16x128.Transposes [0, 2, 1, 3] S2x16x2048x128
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x128_S2x2048x16x128_0_2_1_3 : S2x16x2048x128.Transposes [0, 2, 1, 3] S2x2048x16x128
  shapeCasts_S2x2048x16x128_S2x2048x2048 : S2x2048x16x128.ShapeCasts S2x2048x2048
  dot_S2x2048x2048_S2048x2048_S2x2048x2048_2_1_01_0_n_n_wf : DotDims.WF S2x2048x2048 S2048x2048 S2x2048x2048 [2] [1] [0, 1] [0] [] []
  dot_S2x16x2048x128_S2x16x2048x128_S2x16x2048x2048_3_3_2_2_01_01_wf : DotDims.WF S2x16x2048x128 S2x16x2048x128 S2x16x2048x2048 [3] [3] [2] [2] [0, 1] [0, 1]
  dot_S2x16x2048x2048_S2x16x2048x128_S2x16x2048x128_3_2_2_3_01_01_wf : DotDims.WF S2x16x2048x2048 S2x16x2048x128 S2x16x2048x128 [3] [2] [2] [3] [0, 1] [0, 1]

variable [Facts₀]

def dot_S2x2048x2048_S2048x2048_S2x2048x2048_2_1_01_0_n_n : DotDims S2x2048x2048 S2048x2048 S2x2048x2048 where
  lhsContracting := [2]
  rhsContracting := [1]
  lhsNonContracting := [0, 1]
  rhsNonContracting := [0]
  lhsBatch := []
  rhsBatch := []
  wf := dot_S2x2048x2048_S2048x2048_S2x2048x2048_2_1_01_0_n_n_wf
def dot_S2x16x2048x128_S2x16x2048x128_S2x16x2048x2048_3_3_2_2_01_01 : DotDims S2x16x2048x128 S2x16x2048x128 S2x16x2048x2048 where
  lhsContracting := [3]
  rhsContracting := [3]
  lhsNonContracting := [2]
  rhsNonContracting := [2]
  lhsBatch := [0, 1]
  rhsBatch := [0, 1]
  wf := dot_S2x16x2048x128_S2x16x2048x128_S2x16x2048x2048_3_3_2_2_01_01_wf
def dot_S2x16x2048x2048_S2x16x2048x128_S2x16x2048x128_3_2_2_3_01_01 : DotDims S2x16x2048x2048 S2x16x2048x128 S2x16x2048x128 where
  lhsContracting := [3]
  rhsContracting := [2]
  lhsNonContracting := [2]
  rhsNonContracting := [3]
  lhsBatch := [0, 1]
  rhsBatch := [0, 1]
  wf := dot_S2x16x2048x2048_S2x16x2048x128_S2x16x2048x128_3_2_2_3_01_01_wf

class Facts : Prop extends Facts₀ where

variable [Facts]
-- ==== Proof.KB.Base.lean ====
/-
  The contents of the unscoped buffers when the first kernel region is entered: the launch contents after the
  host's eight layout operations. Three of those buffers are read by the regions: the activations narrowed in
  format (the same numbers), the three transposed weight matrices laid side by side along the columns — column
  j of the side-by-side matrix is column j of the first transposed matrix for j < 2048, column j - 2048 of the
  second for j < 4096, column j - 4096 of the third otherwise —, and the fourth weight matrix transposed.
-/
import proofs.«178252_j78915729097147_2_alg».proof.Proof.Gen.Kernel.Launch
import Idealize.ShloMosaic.Lib.StableHlo.Run
import Idealize.ShloMosaic.Lib.Pipeline.Value
import Idealize.ShloMosaic.Lib.ValueIdx
import Idealize.ShloMosaic.Lib.ValueLayout

noncomputable section

namespace Cert.Kernel.Hand

open Idealize.ShloMosaic Idealize.ShloMosaic.TcCoe Idealize.SL.Sem Idealize.ShloMosaic.ValueIdx
open Cert.Kernel Cert.Kernel.Gen

variable {F : FTy → Type} [FloatOps F]
variable (m : (ℓ : Loc nD τ sig) → Buf (Elt F) ℓ)

/-- Core `c`'s buffers at launch. -/
abbrev W0 (c : Dev nD) : Valuation τ sig (Elt F) := fun b => m (c, b)
/-- After the host's layout operations: what the first region finds. -/
abbrev W1 (c : Dev nD) : Valuation τ sig (Elt F) := StableHlo.after hostOps0 (W0 m c)
/-- The same read at the TensorCore's references. -/
abbrev U1 : (c : Dev nD) → (b : Ref sig .tc) → Buf (Elt F) ((c : Thread nD τ).loc b) := fun c b => W1 m c b

/-- The narrowed activations. -/
theorem U1_v0 (c : Dev nD) :
    U1 m c main_v0 = truncf .bf16 (m ((c : Thread nD τ).loc main_arg0)) bitsLt_bf16_f32 := by
  dsimp only [U1, W1, hostOps0]; after_results

/-- The three transposed weight matrices side by side, narrowed. -/
theorem U1_v5 (c : Dev nD) :
    U1 m c main_v5 = truncf .bf16 (concatenate S2048x6144 1
      [⟨S2048x2048, transpose S2048x2048 [1, 0] (m ((c : Thread nD τ).loc main_arg1)) transposes_S2048x2048_S2048x2048_1_0⟩,
       ⟨S2048x2048, transpose S2048x2048 [1, 0] (m ((c : Thread nD τ).loc main_arg2)) transposes_S2048x2048_S2048x2048_1_0⟩,
       ⟨S2048x2048, transpose S2048x2048 [1, 0] (m ((c : Thread nD τ).loc main_arg3)) transposes_S2048x2048_S2048x2048_1_0⟩]
      concatenates_S2048x2048_S2048x2048_S2048x2048_S2048x6144_d1) bitsLt_bf16_f32 := by
  dsimp only [U1, W1, hostOps0]; after_results; rfl

/-- The fourth weight matrix transposed, narrowed. -/
theorem U1_v7 (c : Dev nD) :
    U1 m c main_v7 = truncf .bf16 (transpose S2048x2048 [1, 0] (m ((c : Thread nD τ).loc main_arg4)) transposes_S2048x2048_S2048x2048_1_0) bitsLt_bf16_f32 := by
  dsimp only [U1, W1, hostOps0]; after_results

end Cert.Kernel.Hand

end
-- ==== Proof.KB.Region0.lean ====
import proofs.«178252_j78915729097147_2_alg».proof.Proof.Gen.Kernel.Launch
import proofs.«178252_j78915729097147_2_alg».proof.Proof.Gen.Kernel.Skeleton
import proofs.«178252_j78915729097147_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! # Region 0: a K-blocked projection with an accumulator carried between grid points

The kernel of this region computes one output block as a sum over four blocks of the contracted axis. The grid's
last coordinate k runs over those blocks; an f32 accumulator buffer lives beside the staged windows and is carried
from point to point: at k = 0 it is first filled with zeros, at every point the product of the point's two input
blocks is added to it, and at k = 3 its contents are rounded to bf16 and stored into the output window, which is
written back there and nowhere else. This module states what the accumulator holds after every point, gives
the region's proof data at a parameter V (the buffers' contents when the region is entered), and proves the body
obligation point by point, by cases on k. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it (V). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The accumulator, point by point -/

/-- What the accumulator holds after the body at position n: at a point with k = 0 the product of the point's
    blocks added to zeros, elsewhere added to what the point before left. -/
def acc0 (c : Dev nD) : (n : ℕ) → n < cfg0.N → Vec F S512x2048 .f32
  | 0, hn => k0_pay2 (iblk0 V c 0 ⟨0, hn⟩) (iblk0 V c 1 ⟨0, hn⟩) (k0_pay1 (F := F))
  | n + 1, hn =>
    if (n + 1) % 4 = 0 then k0_pay2 (iblk0 V c 0 ⟨n + 1, hn⟩) (iblk0 V c 1 ⟨n + 1, hn⟩) (k0_pay1 (F := F))
    else k0_pay2 (iblk0 V c 0 ⟨n + 1, hn⟩) (iblk0 V c 1 ⟨n + 1, hn⟩) (acc0 c n (Nat.lt_of_succ_lt hn))

/-- At a point with k = 0 the accumulator restarts from zeros. -/
theorem acc0_reset (c : Dev nD) (t : Fin cfg0.N) (h : t.val % 4 = 0) :
    acc0 V c t.val t.isLt = k0_pay2 (iblk0 V c 0 t) (iblk0 V c 1 t) (k0_pay1 (F := F)) := by
  obtain ⟨n, hn⟩ := t
  cases n with
  | zero => rfl
  | succ n => exact if_pos h

/-- At any other point it adds to what the point before left. -/
theorem acc0_step (c : Dev nD) (t : Fin cfg0.N) (h : t.val % 4 ≠ 0) :
    acc0 V c t.val t.isLt = k0_pay2 (iblk0 V c 0 t) (iblk0 V c 1 t) (acc0 V c (t.val - 1) (Nat.lt_of_le_of_lt (Nat.sub_le _ _) t.isLt)) := by
  obtain ⟨n, hn⟩ := t
  cases n with
  | zero => exact absurd (Nat.zero_mod _) h
  | succ n => exact if_neg h

/-! ## The region invariant -/

/-- The accumulator as a memref: a whole scoped buffer passed to the body beside the windows. -/
abbrev scM0 : Memref sig .tc .vmem S512x2048 .f32 := Memref.whole cc0_scratch0

/-- The core's scoped buffers other than the accumulator that are no staging buffer of this call, each whole at
    some contents: the body touches none of them. -/
def rest0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg1_1), ((c : Thread nD τ).loc cc2_stg1_1) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg2_1), ((c : Thread nD τ).loc cc2_stg2_1) ↦{fullShare} f)
    ∗ (∃ f : Buf (Elt F) ((c : Thread nD τ).loc cc2_scratch0), ((c : Thread nD τ).loc cc2_scratch0) ↦{fullShare} f))

/-- The invariant before position n: before the first point what the launch hands the region (every scoped
    buffer that is no staging buffer at anything, the generator register at some state); afterwards the same with
    the accumulator at what the point before left in it. -/
def PhiS0 (c : Dev nD) : (n : ℕ) → n ≤ cfg0.N → sProp 𝕄
  | 0, _ => Pipeline.ΦA spec0 c
  | n + 1, hn => iprop((owns (c : Thread nD τ) scM0 fullShare (acc0 V c n hn) ∗ rest0 (F := F) c) ∗ (∃ r, prngReg c r))

/-! ## The proof data -/

/-- The proof data of this region on core c: the arrays as the region finds them; after the body at point t
    each input's buffer at its block and the output's at the accumulator's contents converted; the invariant
    PhiS0; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (acc0 V c t.val t.isLt)
  Φ t := PhiS0 V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay3 (acc0 V c t.val t.isLt) := by dsimp only [dat0]

/-! ## The body's branch conditions, in closed form -/

/-- The condition of the body's first branch (the accumulator is zeroed): the last grid coordinate is 0. -/
abbrev cond0_0 (i : grid0.Coords) : Prop := (Scalar.cmpi .ne (Scalar.extui (Scalar.cmpi .eq (BitVec.ofNat 32 (i 3).val) 0#32)) 0#32) = 1#1
/-- It holds at the points ≡ 0 (mod 4): decided over the grid. -/
theorem hcond0_0 : ∀ t : Fin cfg0.N, cond0_0 (grid0.coords t) ↔ t.val % 4 = 0 :=
  (by decide +kernel : ∀ t : Fin grid0.N, cond0_0 (grid0.coords t) ↔ t.val % 4 = 0)

/-- The condition of the body's second branch (the output block is stored): the last grid coordinate is 3. -/
abbrev cond0_1 (i : grid0.Coords) : Prop := k0_cond2 i = 1#1
/-- It holds at the points ≡ 3 (mod 4): decided over the grid. -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

/-- The input windows are never idle. -/
theorem liveAt0_0 : ∀ t : Fin cfg0.N, cfg0.idle 0 (grid0.coords t) = false := fun _ => rfl
theorem liveAt0_1 : ∀ t : Fin cfg0.N, cfg0.idle 1 (grid0.coords t) = false := fun _ => rfl
/-- Where the second branch is not taken the output window is idle, -/
theorem idleAt0_2 : ∀ t : Fin cfg0.N, ¬cond0_1 (grid0.coords t) → cfg0.idle 2 (grid0.coords t) = true := by decide +kernel
/-- and its block is not written back there; -/
theorem noFlush0_2 : ∀ t : Fin cfg0.N, ¬cond0_1 (grid0.coords t) → (cfg0.win 2).flush t = false := by decide +kernel
/-- where it is taken the window is live. -/
theorem liveAt0_2 : ∀ t : Fin cfg0.N, cond0_1 (grid0.coords t) → cfg0.idle 2 (grid0.coords t) = false := by decide +kernel

/-! ## Whole-buffer accesses -/

/-- The offsets of a whole-buffer access, however many axes, are all zero. -/
theorem off2_zero : (![0, 0] : Fin 2 → ℕ) = fun _ => 0 := by funext a; fin_cases a <;> rfl
theorem off3_zero : (![0, 0, 0] : Fin 3 → ℕ) = fun _ => 0 := by funext a; fin_cases a <;> rfl

set_option maxHeartbeats 1000000 in
/-- The body at a point with k = 0, on whole memrefs: the inputs at their contents, the output's buffer at any
    contents (handed back untouched: nothing is stored there), the accumulator at anything. The accumulator is
    first stored whole with zeros, so the whole-buffer load that follows reads zeros; the body runs to the
    continuation holding the accumulator at the product of the blocks added to zeros. -/
theorem sound_kernel0_A (c : Dev nD) (E : Set ℕ) (i : grid0.Coords)
    (arg4 : Memref sig .tc .vmem S1x512x512 .bf16) (harg4 : arg4.IsWhole) (arg5 : Memref sig .tc .vmem S512x2048 .bf16) (harg5 : arg5.IsWhole)
    (arg6 : Memref sig .tc .vmem S1x512x2048 .bf16) (harg6 : arg6.IsWhole) (arg7 : Memref sig .tc .vmem S512x2048 .f32) (harg7 : arg7.IsWhole)
    (hc0 : cond0_0 i) (hc1 : ¬cond0_1 i)
    (x0 : Vec F S1x512x512 .bf16) (x1 : Vec F S512x2048 .bf16) (xi2 : Vec F S1x512x2048 .bf16) (K : PUnit → sProp 𝕄) :
    iprop(owns (c : Thread nD τ) arg4 fullShare x0 ∗ owns (c : Thread nD τ) arg5 fullShare x1 ∗ owns (c : Thread nD τ) arg6 fullShare xi2
        ∗ (∃ d, owns (c : Thread nD τ) arg7 fullShare d)
        ∗ (iprop(owns (c : Thread nD τ) arg4 fullShare x0 ∗ owns (c : Thread nD τ) arg5 fullShare x1 ∗ owns (c : Thread nD τ) arg6 fullShare xi2
            ∗ owns (c : Thread nD τ) arg7 fullShare (k0_pay2 x0 x1 (k0_pay1 (F := F)))) -∗ K ⟨⟩))
      ⊢ wp frame (wpE (defs₀ (F := F)) Variants.none c none) E (cc0_kernel i arg4 harg4 arg5 harg5 arg6 harg6 arg7 harg7) K := by
  simp only [cc0_kernel_eq_skeleton]; unfold cc0_kernel_skel
  unfold owns
  iintro ⟨⟨%f0, %hf0, H0⟩, ⟨%f1, %hf1, H1⟩, ⟨%f2, %hf2, H2⟩, ⟨%ds, %fs, -, HS⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; exact hf2
    iexact H2
  iexists _; isplitr
  swap; · iexact HS
  ipureintro
  sl_unfold_run_names
  rw [View.read_writes_eq_canon _ _ _ (fun y => ⟨_, List.mem_cons.mpr (Or.inl rfl), View.mem_set_unit_zero off2_zero inb_S512x2048_S512x2048_0_0 y⟩),
    View.canon_cons_unit_zero off2_zero, View.readCov_unit_zero _ off2_zero]
  simp only [View.readAt_eq_ld]
  rw [View.ld_unit_zero off3_zero, View.ld_unit_zero off2_zero]

set_option maxHeartbeats 1000000 in
/-- The body at a point with 0 < k < 3, on whole memrefs: the inputs at their contents, the output's buffer at any
    contents (handed back untouched: nothing is stored there), the accumulator at the contents xs the point before
    left. It runs to the continuation holding the accumulator at the product of the blocks added to xs. -/
theorem sound_kernel0_B (c : Dev nD) (E : Set ℕ) (i : grid0.Coords)
    (arg4 : Memref sig .tc .vmem S1x512x512 .bf16) (harg4 : arg4.IsWhole) (arg5 : Memref sig .tc .vmem S512x2048 .bf16) (harg5 : arg5.IsWhole)
    (arg6 : Memref sig .tc .vmem S1x512x2048 .bf16) (harg6 : arg6.IsWhole) (arg7 : Memref sig .tc .vmem S512x2048 .f32) (harg7 : arg7.IsWhole)
    (hc0 : ¬cond0_0 i) (hc1 : ¬cond0_1 i)
    (x0 : Vec F S1x512x512 .bf16) (x1 : Vec F S512x2048 .bf16) (xi2 : Vec F S1x512x2048 .bf16) (xs : Vec F S512x2048 .f32) (K : PUnit → sProp 𝕄) :
    iprop(owns (c : Thread nD τ) arg4 fullShare x0 ∗ owns (c : Thread nD τ) arg5 fullShare x1 ∗ owns (c : Thread nD τ) arg6 fullShare xi2
        ∗ owns (c : Thread nD τ) arg7 fullShare xs
        ∗ (iprop(owns (c : Thread nD τ) arg4 fullShare x0 ∗ owns (c : Thread nD τ) arg5 fullShare x1 ∗ owns (c : Thread nD τ) arg6 fullShare xi2
            ∗ owns (c : Thread nD τ) arg7 fullShare (k0_pay2 x0 x1 xs)) -∗ K ⟨⟩))
      ⊢ wp frame (wpE (defs₀ (F := F)) Variants.none c none) E (cc0_kernel i arg4 harg4 arg5 harg5 arg6 harg6 arg7 harg7) K := by
  simp only [cc0_kernel_eq_skeleton]; unfold cc0_kernel_skel
  unfold owns
  iintro ⟨⟨%f0, %hf0, H0⟩, ⟨%f1, %hf1, H1⟩, ⟨%f2, %hf2, H2⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; exact hf2
    iexact H2
  iexists _; isplitr
  swap; · iexact HS
  ipureintro
  rw [View.read_writes_eq_canon _ _ _ (fun y => ⟨_, List.mem_singleton_self _, View.mem_set_unit_zero off2_zero inb_S512x2048_S512x2048_0_0 y⟩),
    View.canon_unit_zero off2_zero]
  simp only [View.readAt_eq_ld]
  rw [View.ld_unit_zero off3_zero, View.ld_unit_zero off2_zero, View.ld_unit_zero off2_zero]

set_option maxHeartbeats 1000000 in
/-- The body at a point with k = 3, on whole memrefs: the inputs at their contents, the output's buffer at
    anything, the accumulator at the contents xs the point before left. After the accumulation the accumulator is
    loaded whole (it reads what was just stored) and its contents, rounded, are stored over the whole output buffer. -/
theorem sound_kernel0_C (c : Dev nD) (E : Set ℕ) (i : grid0.Coords)
    (arg4 : Memref sig .tc .vmem S1x512x512 .bf16) (harg4 : arg4.IsWhole) (arg5 : Memref sig .tc .vmem S512x2048 .bf16) (harg5 : arg5.IsWhole)
    (arg6 : Memref sig .tc .vmem S1x512x2048 .bf16) (harg6 : arg6.IsWhole) (arg7 : Memref sig .tc .vmem S512x2048 .f32) (harg7 : arg7.IsWhole)
    (hc0 : ¬cond0_0 i) (hc1 : cond0_1 i)
    (x0 : Vec F S1x512x512 .bf16) (x1 : Vec F S512x2048 .bf16) (xs : Vec F S512x2048 .f32) (K : PUnit → sProp 𝕄) :
    iprop(owns (c : Thread nD τ) arg4 fullShare x0 ∗ owns (c : Thread nD τ) arg5 fullShare x1 ∗ (∃ d, owns (c : Thread nD τ) arg6 fullShare d)
        ∗ owns (c : Thread nD τ) arg7 fullShare xs
        ∗ (iprop(owns (c : Thread nD τ) arg4 fullShare x0 ∗ owns (c : Thread nD τ) arg5 fullShare x1
            ∗ owns (c : Thread nD τ) arg6 fullShare (k0_pay3 (k0_pay2 x0 x1 xs))
            ∗ owns (c : Thread nD τ) arg7 fullShare (k0_pay2 x0 x1 xs)) -∗ K ⟨⟩))
      ⊢ wp frame (wpE (defs₀ (F := F)) Variants.none c none) E (cc0_kernel i arg4 harg4 arg5 harg5 arg6 harg6 arg7 harg7) K := by
  simp only [cc0_kernel_eq_skeleton]; unfold cc0_kernel_skel
  unfold owns
  iintro ⟨⟨%f0, %hf0, H0⟩, ⟨%f1, %hf1, H1⟩, ⟨%d2, %f2, -, H2⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [View.read_writes_eq_canon _ _ _ (fun y => ⟨_, List.mem_singleton_self _, View.mem_set_unit_zero off3_zero inb_S1x512x2048_S1x512x2048_0_0_0 y⟩),
      View.canon_unit_zero off3_zero, View.readCov_unit_zero _ off2_zero]
    simp only [View.readAt_eq_ld]
    rw [View.ld_unit_zero off3_zero, View.ld_unit_zero off2_zero, View.ld_unit_zero off2_zero]
  iexists _; isplitr
  swap; · iexact HS
  ipureintro
  sl_unfold_run_names
  rw [View.read_writes_eq_canon _ _ _ (fun y => ⟨_, List.mem_singleton_self _, View.mem_set_unit_zero off2_zero inb_S512x2048_S512x2048_0_0 y⟩),
    View.canon_unit_zero off2_zero]
  simp only [View.readAt_eq_ld]
  rw [View.ld_unit_zero off3_zero, View.ld_unit_zero off2_zero, View.ld_unit_zero off2_zero]

/-! ## The invariant, restated -/

/-- What the launch hands the region, with the accumulator split off as a memref owned at some contents. -/
theorem PhiA0_eq (c : Dev nD) :
    (Pipeline.ΦA spec0 c : sProp 𝕄)
      = iprop(((∃ d, owns (c : Thread nD τ) scM0 fullShare d) ∗ rest0 (F := F) c) ∗ (∃ r, prngReg c r)) := by
  unfold Pipeline.ΦA rest0; rw [scopedRest0_eq]; simp only [scM0, owns_whole]; try rfl

theorem PhiS0_zero (c : Dev nD) (n : ℕ) (h : n ≤ cfg0.N) (hz : n = 0) : PhiS0 V c n h = Pipeline.ΦA spec0 c := by
  subst hz; rfl

/-- After point n (before point n + 1): the accumulator at that point's contents. -/
theorem PhiS0_succ (c : Dev nD) (n : ℕ) (hn : n < cfg0.N) :
    PhiS0 V c (n + 1) hn = iprop((owns (c : Thread nD τ) scM0 fullShare (acc0 V c n hn) ∗ rest0 (F := F) c) ∗ (∃ r, prngReg c r)) := rfl

/-- Before a point that is not the first: the accumulator at what the point before left. -/
theorem PhiS0_pos (c : Dev nD) (n : ℕ) (h : n ≤ cfg0.N) (hz : n ≠ 0) :
    PhiS0 V c n h = iprop((owns (c : Thread nD τ) scM0 fullShare (acc0 V c (n - 1) (by omega)) ∗ rest0 (F := F) c) ∗ (∃ r, prngReg c r)) := by
  cases n with
  | zero => exact absurd rfl hz
  | succ n => rfl

/-- The invariant at a point's start, restated at the point's position. -/
theorem PhiS0_castSucc (c : Dev nD) (t : Fin cfg0.N) :
    (dat0 V c).Φ t.castSucc = PhiS0 V c t.val (Nat.le_of_lt t.isLt) := by
  dsimp only [dat0]; simp only [Fin.coe_castSucc]

/-! ## What the body finds in the input windows' buffers -/

/-- An input window's current staging buffer holds its block at every point, fetched there or not (an unfetched
    input's block index has not moved), for any proof data whose array is V's and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- Each window's current staging memref at point t, spelled as the pipeline passes it, and its wholeness. -/
abbrev ms0_0 (t : Fin cfg0.N) : Memref sig .tc .vmem S1x512x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x2048 .bf16 := win0_2.stage (cfg0.slots t 2)
abbrev hs0_2 (t : Fin cfg0.N) : (ms0_2 t).IsWhole := hstage0_2 ((cfg0.slots t 2).cast nbuf0_2)

/-- What the body is called with at point t (the obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The inputs' memrefs hold their blocks; the closed forms say which case the point is in.
    The invariant hands the body the accumulator at what the point before left (at anything at the first point, and
    then k = 0: it is zeroed before it is read), and takes it back at this point's contents; the other scoped buffers,
    the generator register and what the core owes pass through untouched. Where k < 3 the output's buffer is idle and
    handed back as found; at k = 3 it is left at the accumulator's contents converted. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 96 := lt_of_lt_of_eq t.isLt (show cfg0.N = 96 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 4 = 0
  · have h1 : ¬t.val % 4 = 3 := by omega
    rw [Dat.leavesExact_idle (dat0 V c) 2 t (idleAt0_2 t (fun h => h1 ((hcond0_1 t).mp h))) (noFlush0_2 t (fun h => h1 ((hcond0_1 t).mp h)))]
    rw [acc0_reset V c t h0]
    by_cases hz : t.val = 0
    · rw [PhiS0_castSucc V c t, PhiS0_zero V c _ _ hz, PhiA0_eq]
      iintro ⟨⟨⟨HS, Hrest⟩, Hg⟩, Ho, ⟨%d0, H0⟩, ⟨%d1, H1⟩, ⟨%d2, H2⟩⟩
      iapply (sound_kernel0_A c Set.univ (grid0.coords t) _ _ _ _ _ _ _ _ ((hcond0_0 t).mpr h0) (fun h => h1 ((hcond0_1 t).mp h)) (iblk0 V c 0 t) (iblk0 V c 1 t) _ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2
    · rw [PhiS0_castSucc V c t, PhiS0_pos V c _ _ hz]
      iintro ⟨⟨⟨HS, Hrest⟩, Hg⟩, Ho, ⟨%d0, H0⟩, ⟨%d1, H1⟩, ⟨%d2, H2⟩⟩
      iapply (sound_kernel0_A c Set.univ (grid0.coords t) _ _ _ _ _ _ _ _ ((hcond0_0 t).mpr h0) (fun h => h1 ((hcond0_1 t).mp h)) (iblk0 V c 0 t) (iblk0 V c 1 t) _ _)
      isplitl [H0]; · iexact H0
      isplitl [H1]; · iexact H1
      isplitl [H2]; · iexact H2
      isplitl [HS]; · iexists _; iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2
  · have hz : t.val ≠ 0 := fun h => h0 (by rw [h])
    rw [acc0_step V c t h0]
    rw [PhiS0_castSucc V c t, PhiS0_pos V c _ _ hz]
    by_cases h1 : t.val % 4 = 3
    · rw [show (dat0 V c).leavesExact 2 t = owns (c : Thread nD τ) (ms0_2 t) fullShare ((dat0 V c).after 2 t) from by
        unfold Dat.leavesExact; rw [liveAt0_2 t ((hcond0_1 t).mpr h1)], after0_2]
      rw [acc0_step V c t h0]
      iintro ⟨⟨⟨HS, Hrest⟩, Hg⟩, Ho, ⟨%d0, H0⟩, ⟨%d1, H1⟩, ⟨%d2, H2⟩⟩
      iapply (sound_kernel0_C c Set.univ (grid0.coords t) _ _ _ _ _ _ _ _ (fun h => h0 ((hcond0_0 t).mp h)) ((hcond0_1 t).mpr h1) (iblk0 V c 0 t) (iblk0 V c 1 t) _ _)
      isplitl [H0]; · iexact H0
      isplitl [H1]; · iexact H1
      isplitl [H2]; · iexists _; iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexact H2
    · rw [Dat.leavesExact_idle (dat0 V c) 2 t (idleAt0_2 t (fun h => h1 ((hcond0_1 t).mp h))) (noFlush0_2 t (fun h => h1 ((hcond0_1 t).mp h)))]
      iintro ⟨⟨⟨HS, Hrest⟩, Hg⟩, Ho, ⟨%d0, H0⟩, ⟨%d1, H1⟩, ⟨%d2, H2⟩⟩
      iapply (sound_kernel0_B c Set.univ (grid0.coords t) _ _ _ _ _ _ _ _ (fun h => h0 ((hcond0_0 t).mp h)) (fun h => h1 ((hcond0_1 t).mp h)) (iblk0 V c 0 t) (iblk0 V c 1 t) _ _ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives it back: the accumulator's contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS, Hrest⟩, Hg⟩
  isplitl [HS Hrest]
  · isplitl [HS]
    · iexists _; iexact HS
    iexact Hrest
  iexact Hg

/-- The same after the last point. -/
theorem hout0 (c : Dev nD) : (dat0 V c).Φ (Fin.last cfg0.N) ⊢ Pipeline.ΦA spec0 c :=
  Phi_out0 V c _ (by rw [Fin.val_last]; have : cfg0.N = 96 := N_0; omega)

end Cert.Kernel.Hand

end
-- ==== Proof.KB.Region1.lean ====
import proofs.«178252_j78915729097147_2_alg».proof.Proof.Gen.Kernel.Launch
import proofs.«178252_j78915729097147_2_alg».proof.Proof.Gen.Kernel.Skeleton
import proofs.«178252_j78915729097147_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! # Region 1: the attention kernel's pipeline, at the buffer contents `V` the region is entered with

One control case: three whole-block loads (the query tile, the key block, the value block), a load of the
output buffer whose value is not used, and one whole-block store of the attention payload. The three input
windows all stage blocks of ONE array; each holds a third of that array's full share, and the three shares
join back to the full share when the region is left. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The shares of the one input array -/

/-- The query window's share of the input array: the left half of the full share. -/
abbrev q1_0 : PosShare TreeShare := fullShare.left
/-- The key window's share: the left half of the right half. -/
abbrev q1_1 : PosShare TreeShare := fullShare.right.left
/-- The value window's share: the right half of the right half. The three add up to the full share. -/
abbrev q1_2 : PosShare TreeShare := fullShare.right.right

/-! ## The pipeline's proof data -/

/-- The proof data of pipeline 1 on core `c`: the arrays as the region finds them (`V`); after the body at point `t`
    each input's buffer at its block and the output's at the attention payload of the three input blocks; the
    invariant the scoped rest and the generator register, untouched; nothing owed; the input array's full share
    dealt in three among the input windows. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay1 (iblk1 V c 0 t) (iblk1 V c 1 t) (iblk1 V c 2 t)
  Φ _ := Pipeline.ΦA spec1 c
  q w := match w with
    | ⟨0, _⟩ => q1_0
    | ⟨1, _⟩ => q1_1
    | ⟨2, _⟩ => q1_2
    | ⟨3, _⟩ => fullShare
  owed _ := 0

/-- The proof data's arrays are the region-entry contents. -/
theorem A_eq1 (c : Dev nD) (w : Fin cfg1.W) : (dat1 V c).A w = V c (Pipeline.arrRef spec1 w) := by
  dsimp only [dat1]

/-- What the body leaves in the output window's buffer: the attention payload of the three input blocks. -/
theorem after1_3 (c : Dev nD) (t : Fin cfg1.N) : (dat1 V c).after 3 t = k1_pay1 (iblk1 V c 0 t) (iblk1 V c 1 t) (iblk1 V c 2 t) := by
  dsimp only [dat1]

/-- The zero offsets of a rank-3 whole-buffer rectangle, as the constant function. -/
theorem zeros3 : (![0, 0, 0] : Fin 3 → Nat) = fun _ => 0 := funext fun a => by fin_cases a <;> rfl

/-! ## What the body finds in each input window's buffer

An input window's current staging buffer holds its block at every point, fetched there or not: where the window is
not fetched its block index has not moved since the point before, the body leaves the block in place, and the
previous point's block is this point's. The windows are uncut and never idle. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole-buffer rectangle of the query tile's and the output's staging buffers. -/
abbrev r1_q : Rect S1x512x128 := Rect.unit (s := S1x512x128) ![0, 0, 0] S1x512x128.size inb_S1x512x128_S1x512x128_0_0_0
/-- The whole-buffer rectangle of the key block's and the value block's staging buffers. -/
abbrev r1_kv : Rect S1x2048x128 := Rect.unit (s := S1x2048x128) ![0, 0, 0] S1x2048x128.size inb_S1x2048x128_S1x2048x128_0_0_0

/-- The body's one store covers the output buffer. -/
theorem cover1_3 (p0 : Vec F S1x512x128 .bf16) (y : S1x512x128.Idx) :
    ∃ pc ∈ ([⟨r1_q, p0⟩] : List (View.Piece (Elt F) S1x512x128 .bf16)), y ∈ pc.1.set :=
  ⟨_, List.mem_singleton_self _, View.mem_set_unit_zero (S := S1x512x128) zeros3 inb_S1x512x128_S1x512x128_0_0_0 y⟩

/-! ## The body's triple -/

set_option maxHeartbeats 1000000 in
/-- The kernel body on whole staging memrefs, the three inputs' at read contents `x0`, `x1`, `x2` and the output's at
    anything, runs to the continuation holding the inputs' as they were and the output's at the attention payload of
    the three: each load through the whole-buffer rectangle reads the buffer's contents, the load of the output
    buffer is not used, and the one store through the whole-buffer rectangle leaves its payload. -/
theorem sound_kernel1 (c : Dev nD) (E : Set ℕ) (i : grid1.Coords)
    (arg3 : Memref sig .tc .vmem S1x512x128 .bf16) (harg3 : arg3.IsWhole)
    (arg4 : Memref sig .tc .vmem S1x2048x128 .bf16) (harg4 : arg4.IsWhole)
    (arg5 : Memref sig .tc .vmem S1x2048x128 .bf16) (harg5 : arg5.IsWhole)
    (arg6 : Memref sig .tc .vmem S1x512x128 .bf16) (harg6 : arg6.IsWhole)
    (x0 : Vec F S1x512x128 .bf16) (x1 : Vec F S1x2048x128 .bf16) (x2 : Vec F S1x2048x128 .bf16) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d)
        ∗ (iprop(owns (c : Thread nD τ) arg3 fullShare x0 ∗ owns (c : Thread nD τ) arg4 fullShare x1 ∗ owns (c : Thread nD τ) arg5 fullShare x2
            ∗ owns (c : Thread nD τ) arg6 fullShare (k1_pay1 x0 x1 x2)) -∗ K ⟨⟩))
      ⊢ wp frame (wpE (defs₀ (F := F)) Variants.none c none) E (cc1_kernel i arg3 harg3 arg4 harg4 arg5 harg5 arg6 harg6) K := by
  simp only [cc1_kernel_eq_skeleton]; unfold cc1_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  refine (View.read_writes_eq_canon _ _ _ (cover1_3 _)).trans ?_
  rw [View.canon_unit_zero (S := S1x512x128) zeros3 inb_S1x512x128_S1x512x128_0_0_0]
  simp only [View.readAt_eq_ld]
  rw [View.ld_unit_zero (S := S1x512x128) zeros3 inb_S1x512x128_S1x512x128_0_0_0,
    View.ld_unit_zero (S := S1x2048x128) zeros3 inb_S1x2048x128_S1x2048x128_0_0_0,
    View.ld_unit_zero (S := S1x2048x128) zeros3 inb_S1x2048x128_S1x2048x128_0_0_0]

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- What the body leaves in each input window's buffer: the block it found. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## Entry and exit: the one input array's full share dealt in three, and joined back -/

/-- The distinct buffers behind the four windows' arrays: the shared input array and the output array. -/
theorem img1 : Finset.univ.image (Pipeline.arrRef spec1) = {main_v8, main_v9} := by decide

/-- Every window's array is a whole buffer: its view places every element. -/
theorem set1 (w : Fin cfg1.W) : (cfg1.win w).arr.view.set = Finset.univ := (arr_whole1 w).set_eq_univ

/-- The two buffers behind the arrays, each whole at the full share at the entry contents, make the pipeline's arrays
    at entry: the input array's full share splits into its left half and the two halves of its right half, one per
    input window; the output array is held outright. -/
theorem split1 (c : Dev nD) :
    (Pipeline.arrBufs (Ix := Unit) (Name := ℕ) (U := UR sig nD τ) (Lvl := ℕ) spec1 c (V c) : sProp 𝕄)
      ⊢ (dat1 V c).arrays ((dat1 V c).arrAt · 0) := by
  unfold Pipeline.arrBufs Dat.arrays
  rw [img1, bigSep_insert (by decide), bigSep_singleton, bigSep_W1, set1 0, set1 3]
  show (iprop((c.tc.loc main_v8 ↦{fullShare} V c main_v8) ∗ (c.tc.loc main_v9 ↦{fullShare} V c main_v9)) : sProp 𝕄) ⊢
    iprop((c.tc.loc main_v8 ↦{q1_0} V c main_v8) ∗ (c.tc.loc main_v8 ↦{q1_1} V c main_v8) ∗ (c.tc.loc main_v8 ↦{q1_2} V c main_v8)
      ∗ (c.tc.loc main_v9 ↦{fullShare} V c main_v9))
  iintro ⟨H8, H9⟩
  ihave H8' := (pointsTo_share (PosShare.mem_left_op_right fullShare)).1 $$ H8
  icases H8' with ⟨Hl, Hr⟩
  ihave Hr' := (pointsTo_share (PosShare.mem_left_op_right fullShare.right)).1 $$ Hr
  icases Hr' with ⟨Hrl, Hrr⟩
  isplitl [Hl]; · iexact Hl
  isplitl [Hrl]; · iexact Hrl
  isplitl [Hrr]; · iexact Hrr
  iexact H9

/-- ENTRY: every unscoped buffer held at the entry valuation gives the pipeline's arrays at entry beside the
    unscoped rest. -/
theorem entry1 (c : Dev nD) (W : Valuation τ sig (Elt F)) (hW : ∀ b : Ref sig .tc, V c b = W b) :
    StableHlo.held (c : Thread nD τ) (Pipeline.ucRefs τ sig) W
      ⊢ (iprop((dat1 V c).arrays ((dat1 V c).arrAt · 0)
          ∗ Pipeline.unscopedRest (Ix := Unit) (Name := ℕ) (U := UR sig nD τ) (Lvl := ℕ) spec1 c (V c)) : sProp 𝕄) := by
  rw [← Pipeline.unscopedBufs_held (Ix := Unit) (Name := ℕ) (U := UR sig nD τ) (Lvl := ℕ) c W]
  rw [show (fun b : Ref sig .tc => W b) = V c from funext fun b => (hW b).symm]
  rw [Pipeline.PerCore.unscopedBufs_split₀ (fun _ : Dev nD => cfgs) 1 c winFacts₀1.arr_unscoped (V c)]
  exact sep_mono (split1 V c) .rfl

/-- An input window's array is never written: at exit it holds what it held at entry. -/
theorem arrN_in (c : Dev nD) (w : Fin cfg1.W) (hw : (cfg1.win w).isOut = false) : (dat1 V c).arrAt w cfg1.N = V c (Pipeline.arrRef spec1 w) :=
  ((dat1 V c).arrAt_in w hw _).trans (A_eq1 V c w)

/-- The pipeline's arrays at exit make the two buffers behind them whole at the full share again, at any contents that
    has the input array as entered and the output array at what the write-backs left: the three input windows end
    holding the same contents, and their shares join back to the full share. -/
theorem join1 (c : Dev nD) (V' : (b : Ref sig .tc) → Buf (Elt F) ((c : Thread nD τ).loc b))
    (h8 : V' main_v8 = V c main_v8) (h9 : V' main_v9 = (dat1 V c).arrAt 3 cfg1.N) :
    (dat1 V c).arrays ((dat1 V c).arrAt · cfg1.N)
      ⊢ (Pipeline.arrBufs (Ix := Unit) (Name := ℕ) (U := UR sig nD τ) (Lvl := ℕ) spec1 c V' : sProp 𝕄) := by
  unfold Pipeline.arrBufs Dat.arrays
  rw [img1, bigSep_insert (by decide), bigSep_singleton, bigSep_W1, set1 0, set1 3, h8, h9]
  dsimp only
  rw [arrN_in V c 0 rfl, arrN_in V c 1 rfl, arrN_in V c 2 rfl]
  show (iprop((c.tc.loc main_v8 ↦{q1_0} V c main_v8) ∗ (c.tc.loc main_v8 ↦{q1_1} V c main_v8) ∗ (c.tc.loc main_v8 ↦{q1_2} V c main_v8)
      ∗ (c.tc.loc main_v9 ↦{fullShare} (dat1 V c).arrAt 3 cfg1.N)) : sProp 𝕄) ⊢
    iprop((c.tc.loc main_v8 ↦{fullShare} V c main_v8) ∗ (c.tc.loc main_v9 ↦{fullShare} (dat1 V c).arrAt 3 cfg1.N))
  iintro ⟨Hl, Hrl, Hrr, H9⟩
  isplitr [H9]
  · iapply (pointsTo_share (PosShare.mem_left_op_right fullShare)).2
    isplitl [Hl]; · iexact Hl
    iapply (pointsTo_share (PosShare.mem_left_op_right fullShare.right)).2
    isplitl [Hrl] <;> iassumption
  iexact H9

/-- EXIT: the pipeline's arrays at exit beside the unscoped rest are every unscoped buffer held at the entry valuation
    updated at the output array; off the two arrays' buffers the update changes nothing. -/
theorem exit1 (c : Dev nD) (W : Valuation τ sig (Elt F)) (hW : ∀ b : Ref sig .tc, V c b = W b) :
    (iprop((dat1 V c).arrays ((dat1 V c).arrAt · cfg1.N)
        ∗ Pipeline.unscopedRest (Ix := Unit) (Name := ℕ) (U := UR sig nD τ) (Lvl := ℕ) spec1 c (V c)) : sProp 𝕄)
      ⊢ StableHlo.held (c : Thread nD τ) (Pipeline.ucRefs τ sig)
          (Function.update W (Proc.devRef .tc main_v9) ((dat1 V c).arrAt 3 cfg1.N)) := by
  rw [← Pipeline.unscopedBufs_held (Ix := Unit) (Name := ℕ) (U := UR sig nD τ) (Lvl := ℕ) c
    (Function.update W (Proc.devRef .tc main_v9) ((dat1 V c).arrAt 3 cfg1.N))]
  rw [Pipeline.PerCore.unscopedBufs_split₀ (fun _ : Dev nD => cfgs) 1 c winFacts₀1.arr_unscoped
    (fun b : Ref sig .tc => Function.update W (Proc.devRef .tc main_v9) ((dat1 V c).arrAt 3 cfg1.N) b)]
  refine sep_mono (join1 V c _ ?_ ?_) (Entails.of_eq ?_)
  · exact (Function.update_of_ne (StableHlo.devRef_ne_of_ne (by decide)) _ _).trans (hW main_v8).symm
  · exact Function.update_self _ _ _
  · unfold Pipeline.unscopedRest
    refine bigSep_congr fun b hb => ?_
    have hb' : b ∉ Finset.univ.image (Pipeline.arrRef spec1) := (Finset.mem_sdiff.mp hb).2
    have hne : b ≠ main_v9 := fun e => hb' (by rw [e, img1]; decide)
    have e : Function.update W (Proc.devRef .tc main_v9) ((dat1 V c).arrAt 3 cfg1.N) b = V c b :=
      (Function.update_of_ne (StableHlo.devRef_ne_of_ne hne) _ _).trans (hW b).symm
    beta_reduce
    rw [e]

end Cert.Kernel.Hand

end
-- ==== Proof.KB.Region2.lean ====
import proofs.«178252_j78915729097147_2_alg».proof.Proof.Gen.Kernel.Launch
import proofs.«178252_j78915729097147_2_alg».proof.Proof.Gen.Kernel.Skeleton
import proofs.«178252_j78915729097147_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! # Region 2: a K-blocked projection with an accumulator carried between grid points

The kernel of this region computes one output block as a sum over four blocks of the contracted axis. The grid's
last coordinate k runs over those blocks; an f32 accumulator buffer lives beside the staged windows and is carried
from point to point: at k = 0 it is first filled with zeros, at every point the product of the point's two input
blocks is added to it, and at k = 3 its contents are stored into the output window, which is
written back there and nowhere else. This module states what the accumulator holds after every point, gives
the region's proof data at a parameter V (the buffers' contents when the region is entered), and proves the body
obligation point by point, by cases on k. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it (V). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The accumulator, point by point -/

/-- What the accumulator holds after the body at position n: at a point with k = 0 the product of the point's
    blocks added to zeros, elsewhere added to what the point before left. -/
def acc2 (c : Dev nD) : (n : ℕ) → n < cfg2.N → Vec F S512x2048 .f32
  | 0, hn => k2_pay2 (iblk2 V c 0 ⟨0, hn⟩) (iblk2 V c 1 ⟨0, hn⟩) (k2_pay1 (F := F))
  | n + 1, hn =>
    if (n + 1) % 4 = 0 then k2_pay2 (iblk2 V c 0 ⟨n + 1, hn⟩) (iblk2 V c 1 ⟨n + 1, hn⟩) (k2_pay1 (F := F))
    else k2_pay2 (iblk2 V c 0 ⟨n + 1, hn⟩) (iblk2 V c 1 ⟨n + 1, hn⟩) (acc2 c n (Nat.lt_of_succ_lt hn))

/-- At a point with k = 0 the accumulator restarts from zeros. -/
theorem acc2_reset (c : Dev nD) (t : Fin cfg2.N) (h : t.val % 4 = 0) :
    acc2 V c t.val t.isLt = k2_pay2 (iblk2 V c 0 t) (iblk2 V c 1 t) (k2_pay1 (F := F)) := by
  obtain ⟨n, hn⟩ := t
  cases n with
  | zero => rfl
  | succ n => exact if_pos h

/-- At any other point it adds to what the point before left. -/
theorem acc2_step (c : Dev nD) (t : Fin cfg2.N) (h : t.val % 4 ≠ 0) :
    acc2 V c t.val t.isLt = k2_pay2 (iblk2 V c 0 t) (iblk2 V c 1 t) (acc2 V c (t.val - 1) (Nat.lt_of_le_of_lt (Nat.sub_le _ _) t.isLt)) := by
  obtain ⟨n, hn⟩ := t
  cases n with
  | zero => exact absurd (Nat.zero_mod _) h
  | succ n => exact if_neg h

/-! ## The region invariant -/

/-- The accumulator as a memref: a whole scoped buffer passed to the body beside the windows. -/
abbrev scM2 : Memref sig .tc .vmem S512x2048 .f32 := Memref.whole cc2_scratch0

/-- The core's scoped buffers other than the accumulator that are no staging buffer of this call, each whole at
    some contents: the body touches none of them. -/
def rest2 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_scratch0), ((c : Thread nD τ).loc cc0_scratch0) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f))

/-- The invariant before position n: before the first point what the launch hands the region (every scoped
    buffer that is no staging buffer at anything, the generator register at some state); afterwards the same with
    the accumulator at what the point before left in it. -/
def PhiS2 (c : Dev nD) : (n : ℕ) → n ≤ cfg2.N → sProp 𝕄
  | 0, _ => Pipeline.ΦA spec2 c
  | n + 1, hn => iprop((owns (c : Thread nD τ) scM2 fullShare (acc2 V c n hn) ∗ rest2 (F := F) c) ∗ (∃ r, prngReg c r))

/-! ## The proof data -/

/-- The proof data of this region on core c: the arrays as the region finds them; after the body at point t
    each input's buffer at its block and the output's at the accumulator's contents converted; the invariant
    PhiS2; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => k2_pay3 (acc2 V c t.val t.isLt)
  Φ t := PhiS2 V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = k2_pay3 (acc2 V c t.val t.isLt) := by dsimp only [dat2]

/-! ## The body's branch conditions, in closed form -/

/-- The condition of the body's first branch (the accumulator is zeroed): the last grid coordinate is 0. -/
abbrev cond2_0 (i : grid2.Coords) : Prop := (Scalar.cmpi .ne (Scalar.extui (Scalar.cmpi .eq (BitVec.ofNat 32 (i 3).val) 0#32)) 0#32) = 1#1
/-- It holds at the points ≡ 0 (mod 4): decided over the grid. -/
theorem hcond2_0 : ∀ t : Fin cfg2.N, cond2_0 (grid2.coords t) ↔ t.val % 4 = 0 :=
  (by decide +kernel : ∀ t : Fin grid2.N, cond2_0 (grid2.coords t) ↔ t.val % 4 = 0)

/-- The condition of the body's second branch (the output block is stored): the last grid coordinate is 3. -/
abbrev cond2_1 (i : grid2.Coords) : Prop := k2_cond2 i = 1#1
/-- It holds at the points ≡ 3 (mod 4): decided over the grid. -/
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle -/

/-- The input windows are never idle. -/
theorem liveAt2_0 : ∀ t : Fin cfg2.N, cfg2.idle 0 (grid2.coords t) = false := fun _ => rfl
theorem liveAt2_1 : ∀ t : Fin cfg2.N, cfg2.idle 1 (grid2.coords t) = false := fun _ => rfl
/-- Where the second branch is not taken the output window is idle, -/
theorem idleAt2_2 : ∀ t : Fin cfg2.N, ¬cond2_1 (grid2.coords t) → cfg2.idle 2 (grid2.coords t) = true := by decide +kernel
/-- and its block is not written back there; -/
theorem noFlush2_2 : ∀ t : Fin cfg2.N, ¬cond2_1 (grid2.coords t) → (cfg2.win 2).flush t = false := by decide +kernel
/-- where it is taken the window is live. -/
theorem liveAt2_2 : ∀ t : Fin cfg2.N, cond2_1 (grid2.coords t) → cfg2.idle 2 (grid2.coords t) = false := by decide +kernel

/-! ## Whole-buffer accesses -/

/-- The offsets of a whole-buffer access, however many axes, are all zero. -/
theorem off2_zero_r2 : (![0, 0] : Fin 2 → ℕ) = fun _ => 0 := by funext a; fin_cases a <;> rfl
theorem off3_zero_r2 : (![0, 0, 0] : Fin 3 → ℕ) = fun _ => 0 := by funext a; fin_cases a <;> rfl

set_option maxHeartbeats 1000000 in
/-- The body at a point with k = 0, on whole memrefs: the inputs at their contents, the output's buffer at any
    contents (handed back untouched: nothing is stored there), the accumulator at anything. The accumulator is
    first stored whole with zeros, so the whole-buffer load that follows reads zeros; the body runs to the
    continuation holding the accumulator at the product of the blocks added to zeros. -/
theorem sound_kernel2_A (c : Dev nD) (E : Set ℕ) (i : grid2.Coords)
    (arg4 : Memref sig .tc .vmem S1x512x512 .bf16) (harg4 : arg4.IsWhole) (arg5 : Memref sig .tc .vmem S512x2048 .bf16) (harg5 : arg5.IsWhole)
    (arg6 : Memref sig .tc .vmem S1x512x2048 .f32) (harg6 : arg6.IsWhole) (arg7 : Memref sig .tc .vmem S512x2048 .f32) (harg7 : arg7.IsWhole)
    (hc0 : cond2_0 i) (hc1 : ¬cond2_1 i)
    (x0 : Vec F S1x512x512 .bf16) (x1 : Vec F S512x2048 .bf16) (xi2 : Vec F S1x512x2048 .f32) (K : PUnit → sProp 𝕄) :
    iprop(owns (c : Thread nD τ) arg4 fullShare x0 ∗ owns (c : Thread nD τ) arg5 fullShare x1 ∗ owns (c : Thread nD τ) arg6 fullShare xi2
        ∗ (∃ d, owns (c : Thread nD τ) arg7 fullShare d)
        ∗ (iprop(owns (c : Thread nD τ) arg4 fullShare x0 ∗ owns (c : Thread nD τ) arg5 fullShare x1 ∗ owns (c : Thread nD τ) arg6 fullShare xi2
            ∗ owns (c : Thread nD τ) arg7 fullShare (k2_pay2 x0 x1 (k2_pay1 (F := F)))) -∗ K ⟨⟩))
      ⊢ wp frame (wpE (defs₀ (F := F)) Variants.none c none) E (cc2_kernel i arg4 harg4 arg5 harg5 arg6 harg6 arg7 harg7) K := by
  simp only [cc2_kernel_eq_skeleton]; unfold cc2_kernel_skel
  unfold owns
  iintro ⟨⟨%f0, %hf0, H0⟩, ⟨%f1, %hf1, H1⟩, ⟨%f2, %hf2, H2⟩, ⟨%ds, %fs, -, HS⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; exact hf2
    iexact H2
  iexists _; isplitr
  swap; · iexact HS
  ipureintro
  sl_unfold_run_names
  rw [View.read_writes_eq_canon _ _ _ (fun y => ⟨_, List.mem_cons.mpr (Or.inl rfl), View.mem_set_unit_zero off2_zero_r2 inb_S512x2048_S512x2048_0_0 y⟩),
    View.canon_cons_unit_zero off2_zero_r2, View.readCov_unit_zero _ off2_zero_r2]
  simp only [View.readAt_eq_ld]
  rw [View.ld_unit_zero off3_zero_r2, View.ld_unit_zero off2_zero_r2]

set_option maxHeartbeats 1000000 in
/-- The body at a point with 0 < k < 3, on whole memrefs: the inputs at their contents, the output's buffer at any
    contents (handed back untouched: nothing is stored there), the accumulator at the contents xs the point before
    left. It runs to the continuation holding the accumulator at the product of the blocks added to xs. -/
theorem sound_kernel2_B (c : Dev nD) (E : Set ℕ) (i : grid2.Coords)
    (arg4 : Memref sig .tc .vmem S1x512x512 .bf16) (harg4 : arg4.IsWhole) (arg5 : Memref sig .tc .vmem S512x2048 .bf16) (harg5 : arg5.IsWhole)
    (arg6 : Memref sig .tc .vmem S1x512x2048 .f32) (harg6 : arg6.IsWhole) (arg7 : Memref sig .tc .vmem S512x2048 .f32) (harg7 : arg7.IsWhole)
    (hc0 : ¬cond2_0 i) (hc1 : ¬cond2_1 i)
    (x0 : Vec F S1x512x512 .bf16) (x1 : Vec F S512x2048 .bf16) (xi2 : Vec F S1x512x2048 .f32) (xs : Vec F S512x2048 .f32) (K : PUnit → sProp 𝕄) :
    iprop(owns (c : Thread nD τ) arg4 fullShare x0 ∗ owns (c : Thread nD τ) arg5 fullShare x1 ∗ owns (c : Thread nD τ) arg6 fullShare xi2
        ∗ owns (c : Thread nD τ) arg7 fullShare xs
        ∗ (iprop(owns (c : Thread nD τ) arg4 fullShare x0 ∗ owns (c : Thread nD τ) arg5 fullShare x1 ∗ owns (c : Thread nD τ) arg6 fullShare xi2
            ∗ owns (c : Thread nD τ) arg7 fullShare (k2_pay2 x0 x1 xs)) -∗ K ⟨⟩))
      ⊢ wp frame (wpE (defs₀ (F := F)) Variants.none c none) E (cc2_kernel i arg4 harg4 arg5 harg5 arg6 harg6 arg7 harg7) K := by
  simp only [cc2_kernel_eq_skeleton]; unfold cc2_kernel_skel
  unfold owns
  iintro ⟨⟨%f0, %hf0, H0⟩, ⟨%f1, %hf1, H1⟩, ⟨%f2, %hf2, H2⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; exact hf2
    iexact H2
  iexists _; isplitr
  swap; · iexact HS
  ipureintro
  rw [View.read_writes_eq_canon _ _ _ (fun y => ⟨_, List.mem_singleton_self _, View.mem_set_unit_zero off2_zero_r2 inb_S512x2048_S512x2048_0_0 y⟩),
    View.canon_unit_zero off2_zero_r2]
  simp only [View.readAt_eq_ld]
  rw [View.ld_unit_zero off3_zero_r2, View.ld_unit_zero off2_zero_r2, View.ld_unit_zero off2_zero_r2]

set_option maxHeartbeats 1000000 in
/-- The body at a point with k = 3, on whole memrefs: the inputs at their contents, the output's buffer at
    anything, the accumulator at the contents xs the point before left. After the accumulation the accumulator is
    loaded whole (it reads what was just stored) and its contents are stored over the whole output buffer. -/
theorem sound_kernel2_C (c : Dev nD) (E : Set ℕ) (i : grid2.Coords)
    (arg4 : Memref sig .tc .vmem S1x512x512 .bf16) (harg4 : arg4.IsWhole) (arg5 : Memref sig .tc .vmem S512x2048 .bf16) (harg5 : arg5.IsWhole)
    (arg6 : Memref sig .tc .vmem S1x512x2048 .f32) (harg6 : arg6.IsWhole) (arg7 : Memref sig .tc .vmem S512x2048 .f32) (harg7 : arg7.IsWhole)
    (hc0 : ¬cond2_0 i) (hc1 : cond2_1 i)
    (x0 : Vec F S1x512x512 .bf16) (x1 : Vec F S512x2048 .bf16) (xs : Vec F S512x2048 .f32) (K : PUnit → sProp 𝕄) :
    iprop(owns (c : Thread nD τ) arg4 fullShare x0 ∗ owns (c : Thread nD τ) arg5 fullShare x1 ∗ (∃ d, owns (c : Thread nD τ) arg6 fullShare d)
        ∗ owns (c : Thread nD τ) arg7 fullShare xs
        ∗ (iprop(owns (c : Thread nD τ) arg4 fullShare x0 ∗ owns (c : Thread nD τ) arg5 fullShare x1
            ∗ owns (c : Thread nD τ) arg6 fullShare (k2_pay3 (k2_pay2 x0 x1 xs))
            ∗ owns (c : Thread nD τ) arg7 fullShare (k2_pay2 x0 x1 xs)) -∗ K ⟨⟩))
      ⊢ wp frame (wpE (defs₀ (F := F)) Variants.none c none) E (cc2_kernel i arg4 harg4 arg5 harg5 arg6 harg6 arg7 harg7) K := by
  simp only [cc2_kernel_eq_skeleton]; unfold cc2_kernel_skel
  unfold owns
  iintro ⟨⟨%f0, %hf0, H0⟩, ⟨%f1, %hf1, H1⟩, ⟨%d2, %f2, -, H2⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [View.read_writes_eq_canon _ _ _ (fun y => ⟨_, List.mem_singleton_self _, View.mem_set_unit_zero off3_zero_r2 inb_S1x512x2048_S1x512x2048_0_0_0 y⟩),
      View.canon_unit_zero off3_zero_r2, View.readCov_unit_zero _ off2_zero_r2]
    simp only [View.readAt_eq_ld]
    rw [View.ld_unit_zero off3_zero_r2, View.ld_unit_zero off2_zero_r2, View.ld_unit_zero off2_zero_r2]
  iexists _; isplitr
  swap; · iexact HS
  ipureintro
  sl_unfold_run_names
  rw [View.read_writes_eq_canon _ _ _ (fun y => ⟨_, List.mem_singleton_self _, View.mem_set_unit_zero off2_zero_r2 inb_S512x2048_S512x2048_0_0 y⟩),
    View.canon_unit_zero off2_zero_r2]
  simp only [View.readAt_eq_ld]
  rw [View.ld_unit_zero off3_zero_r2, View.ld_unit_zero off2_zero_r2, View.ld_unit_zero off2_zero_r2]

/-! ## The invariant, restated -/

/-- What the launch hands the region, with the accumulator split off as a memref owned at some contents (the
    launch lists the accumulator last among the scoped buffers: the conjuncts are reordered). -/
theorem PhiA2_eq (c : Dev nD) :
    (Pipeline.ΦA spec2 c : sProp 𝕄)
      = iprop(((∃ d, owns (c : Thread nD τ) scM2 fullShare d) ∗ rest2 (F := F) c) ∗ (∃ r, prngReg c r)) := by
  unfold Pipeline.ΦA rest2; rw [scopedRest2_eq]; simp only [scM2, owns_whole]
  refine BI.equiv_iff.mp ⟨?_, ?_⟩
  · show (_ : sProp 𝕄) ⊢ (_ : sProp 𝕄)
    iintro ⟨⟨R1, R2, R3, R4, R5, R6, R7, R8, R9, R10, R11, R12, R13, R14, R15, HS⟩, Hg⟩
    isplitl [HS R1 R2 R3 R4 R5 R6 R7 R8 R9 R10 R11 R12 R13 R14 R15]
    · isplitl [HS]; · iexact HS
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R10]; · iexact R10
      isplitl [R11]; · iexact R11
      isplitl [R12]; · iexact R12
      isplitl [R13]; · iexact R13
      isplitl [R14]; · iexact R14
      iexact R15
    iexact Hg
  · show (_ : sProp 𝕄) ⊢ (_ : sProp 𝕄)
    iintro ⟨⟨HS, R1, R2, R3, R4, R5, R6, R7, R8, R9, R10, R11, R12, R13, R14, R15⟩, Hg⟩
    isplitl [HS R1 R2 R3 R4 R5 R6 R7 R8 R9 R10 R11 R12 R13 R14 R15]
    · isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R10]; · iexact R10
      isplitl [R11]; · iexact R11
      isplitl [R12]; · iexact R12
      isplitl [R13]; · iexact R13
      isplitl [R14]; · iexact R14
      isplitl [R15]; · iexact R15
      iexact HS
    iexact Hg

theorem PhiS2_zero (c : Dev nD) (n : ℕ) (h : n ≤ cfg2.N) (hz : n = 0) : PhiS2 V c n h = Pipeline.ΦA spec2 c := by
  subst hz; rfl

/-- After point n (before point n + 1): the accumulator at that point's contents. -/
theorem PhiS2_succ (c : Dev nD) (n : ℕ) (hn : n < cfg2.N) :
    PhiS2 V c (n + 1) hn = iprop((owns (c : Thread nD τ) scM2 fullShare (acc2 V c n hn) ∗ rest2 (F := F) c) ∗ (∃ r, prngReg c r)) := rfl

/-- Before a point that is not the first: the accumulator at what the point before left. -/
theorem PhiS2_pos (c : Dev nD) (n : ℕ) (h : n ≤ cfg2.N) (hz : n ≠ 0) :
    PhiS2 V c n h = iprop((owns (c : Thread nD τ) scM2 fullShare (acc2 V c (n - 1) (by omega)) ∗ rest2 (F := F) c) ∗ (∃ r, prngReg c r)) := by
  cases n with
  | zero => exact absurd rfl hz
  | succ n => rfl

/-- The invariant at a point's start, restated at the point's position. -/
theorem PhiS2_castSucc (c : Dev nD) (t : Fin cfg2.N) :
    (dat2 V c).Φ t.castSucc = PhiS2 V c t.val (Nat.le_of_lt t.isLt) := by
  dsimp only [dat2]; simp only [Fin.coe_castSucc]

/-! ## What the body finds in the input windows' buffers -/

/-- An input window's current staging buffer holds its block at every point, fetched there or not (an unfetched
    input's block index has not moved), for any proof data whose array is V's and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- Each window's current staging memref at point t, spelled as the pipeline passes it, and its wholeness. -/
abbrev ms2_0 (t : Fin cfg2.N) : Memref sig .tc .vmem S1x512x512 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x2048 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x512x2048 .f32 := win2_2.stage (cfg2.slots t 2)
abbrev hs2_2 (t : Fin cfg2.N) : (ms2_2 t).IsWhole := hstage2_2 ((cfg2.slots t 2).cast nbuf2_2)

/-- What the body is called with at point t (the obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point. The inputs' memrefs hold their blocks; the closed forms say which case the point is in.
    The invariant hands the body the accumulator at what the point before left (at anything at the first point, and
    then k = 0: it is zeroed before it is read), and takes it back at this point's contents; the other scoped buffers,
    the generator register and what the core owes pass through untouched. Where k < 3 the output's buffer is idle and
    handed back as found; at k = 3 it is left at the accumulator's contents converted. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  have hN : t.val < 32 := lt_of_lt_of_eq t.isLt (show cfg2.N = 32 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  by_cases h0 : t.val % 4 = 0
  · have h1 : ¬t.val % 4 = 3 := by omega
    rw [Dat.leavesExact_idle (dat2 V c) 2 t (idleAt2_2 t (fun h => h1 ((hcond2_1 t).mp h))) (noFlush2_2 t (fun h => h1 ((hcond2_1 t).mp h)))]
    rw [acc2_reset V c t h0]
    by_cases hz : t.val = 0
    · rw [PhiS2_castSucc V c t, PhiS2_zero V c _ _ hz, PhiA2_eq]
      iintro ⟨⟨⟨HS, Hrest⟩, Hg⟩, Ho, ⟨%d0, H0⟩, ⟨%d1, H1⟩, ⟨%d2, H2⟩⟩
      iapply (sound_kernel2_A c Set.univ (grid2.coords t) _ _ _ _ _ _ _ _ ((hcond2_0 t).mpr h0) (fun h => h1 ((hcond2_1 t).mp h)) (iblk2 V c 0 t) (iblk2 V c 1 t) _ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2
    · rw [PhiS2_castSucc V c t, PhiS2_pos V c _ _ hz]
      iintro ⟨⟨⟨HS, Hrest⟩, Hg⟩, Ho, ⟨%d0, H0⟩, ⟨%d1, H1⟩, ⟨%d2, H2⟩⟩
      iapply (sound_kernel2_A c Set.univ (grid2.coords t) _ _ _ _ _ _ _ _ ((hcond2_0 t).mpr h0) (fun h => h1 ((hcond2_1 t).mp h)) (iblk2 V c 0 t) (iblk2 V c 1 t) _ _)
      isplitl [H0]; · iexact H0
      isplitl [H1]; · iexact H1
      isplitl [H2]; · iexact H2
      isplitl [HS]; · iexists _; iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2
  · have hz : t.val ≠ 0 := fun h => h0 (by rw [h])
    rw [acc2_step V c t h0]
    rw [PhiS2_castSucc V c t, PhiS2_pos V c _ _ hz]
    by_cases h1 : t.val % 4 = 3
    · rw [show (dat2 V c).leavesExact 2 t = owns (c : Thread nD τ) (ms2_2 t) fullShare ((dat2 V c).after 2 t) from by
        unfold Dat.leavesExact; rw [liveAt2_2 t ((hcond2_1 t).mpr h1)], after2_2]
      rw [acc2_step V c t h0]
      iintro ⟨⟨⟨HS, Hrest⟩, Hg⟩, Ho, ⟨%d0, H0⟩, ⟨%d1, H1⟩, ⟨%d2, H2⟩⟩
      iapply (sound_kernel2_C c Set.univ (grid2.coords t) _ _ _ _ _ _ _ _ (fun h => h0 ((hcond2_0 t).mp h)) ((hcond2_1 t).mpr h1) (iblk2 V c 0 t) (iblk2 V c 1 t) _ _)
      isplitl [H0]; · iexact H0
      isplitl [H1]; · iexact H1
      isplitl [H2]; · iexists _; iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexact H2
    · rw [Dat.leavesExact_idle (dat2 V c) 2 t (idleAt2_2 t (fun h => h1 ((hcond2_1 t).mp h))) (noFlush2_2 t (fun h => h1 ((hcond2_1 t).mp h)))]
      iintro ⟨⟨⟨HS, Hrest⟩, Hg⟩, Ho, ⟨%d0, H0⟩, ⟨%d1, H1⟩, ⟨%d2, H2⟩⟩
      iapply (sound_kernel2_B c Set.univ (grid2.coords t) _ _ _ _ _ _ _ _ (fun h => h0 ((hcond2_0 t).mp h)) (fun h => h1 ((hcond2_1 t).mp h)) (iblk2 V c 0 t) (iblk2 V c 1 t) _ _ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point the invariant gives it back: the accumulator's contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS, Hrest⟩, Hg⟩
  isplitl [HS Hrest]
  · isplitl [HS]
    · iexists _; iexact HS
    iexact Hrest
  iexact Hg

/-- The same after the last point. -/
theorem hout2 (c : Dev nD) : (dat2 V c).Φ (Fin.last cfg2.N) ⊢ Pipeline.ΦA spec2 c :=
  Phi_out2 V c _ (by rw [Fin.val_last]; have : cfg2.N = 32 := N_2; omega)

end Cert.Kernel.Hand

end
-- ==== Proof.KB.Assembly.lean ====
/-
  The three kernel regions run one after the other.

  Between two items of the program every unscoped buffer of a core is held whole at a named valuation: the launch
  contents, then those after the host's layout operations, then — region by region — the same with the region's
  result array replaced by what its write-backs leave (the fold of the flushed blocks over the array as entered).
  Each region's proof data are stated at the valuation the region is entered from, so the last result array is a
  function of the launch contents alone, and every argument array is never written: it ends as launched.
-/
import proofs.«178252_j78915729097147_2_alg».proof.Proof.KB.Base
import proofs.«178252_j78915729097147_2_alg».proof.Proof.KB.Region0
import proofs.«178252_j78915729097147_2_alg».proof.Proof.KB.Region1
import proofs.«178252_j78915729097147_2_alg».proof.Proof.KB.Region2
import proofs.«178252_j78915729097147_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items -/

/-- What region 0 leaves in its result array: the fold of its write-backs. -/
def o2 (c : Dev nD) : Buf (Elt F) ((c : Thread nD τ).loc main_v8) := (dat0 (U1 m) c).arrAt 2 cfg0.N
/-- After region 0. -/
def W2 (c : Dev nD) : Valuation τ sig (Elt F) := Function.update (W1 m c) main_v8 (o2 m c)
abbrev U2 : (c : Dev nD) → (b : Ref sig .tc) → Buf (Elt F) ((c : Thread nD τ).loc b) := fun c b => W2 m c b
/-- What region 1 leaves in its result array. -/
def o3 (c : Dev nD) : Buf (Elt F) ((c : Thread nD τ).loc main_v9) := (dat1 (U2 m) c).arrAt 3 cfg1.N
/-- After region 1. -/
def W3 (c : Dev nD) : Valuation τ sig (Elt F) := Function.update (W2 m c) main_v9 (o3 m c)
abbrev U3 : (c : Dev nD) → (b : Ref sig .tc) → Buf (Elt F) ((c : Thread nD τ).loc b) := fun c b => W3 m c b
/-- What region 2 leaves in its result array. -/
def o4 (c : Dev nD) : Buf (Elt F) ((c : Thread nD τ).loc main_v10) := (dat2 (U3 m) c).arrAt 2 cfg2.N
/-- After region 2. -/
def W4 (c : Dev nD) : Valuation τ sig (Elt F) := Function.update (W3 m c) main_v10 (o4 m c)
abbrev U4 : (c : Dev nD) → (b : Ref sig .tc) → Buf (Elt F) ((c : Thread nD τ).loc b) := fun c b => W4 m c b

theorem W2_v8 (c : Dev nD) : U2 m c main_v8 = o2 m c := by unfold U2 W2; exact Function.update_self ..
theorem W2_of_ne (c : Dev nD) (b : Ref sig .tc) (h : b ≠ main_v8) : U2 m c b = U1 m c b := by
  unfold U2 U1 W2; exact Function.update_of_ne (StableHlo.devRef_ne_of_ne h) ..
theorem W3_v9 (c : Dev nD) : U3 m c main_v9 = o3 m c := by unfold U3 W3; exact Function.update_self ..
theorem W3_of_ne (c : Dev nD) (b : Ref sig .tc) (h : b ≠ main_v9) : U3 m c b = U2 m c b := by
  unfold U3 U2 W3; exact Function.update_of_ne (StableHlo.devRef_ne_of_ne h) ..
theorem W4_v10 (c : Dev nD) : U4 m c main_v10 = o4 m c := by unfold U4 W4; exact Function.update_self ..
theorem W4_of_ne (c : Dev nD) (b : Ref sig .tc) (h : b ≠ main_v10) : U4 m c b = U3 m c b := by
  unfold U4 U3 W4; exact Function.update_of_ne (StableHlo.devRef_ne_of_ne h) ..

/-- An argument array is written by no item. -/
theorem W4_arg (c : Dev nD) (r : Ref sig .tc) (h10 : r ≠ main_v10) (h9 : r ≠ main_v9) (h8 : r ≠ main_v8) (hh : r ∉ hostOps0_W) :
    U4 m c r = m ((c : Thread nD τ).loc r) :=
  (W4_of_ne m c r h10).trans <| (W3_of_ne m c r h9).trans <| (W2_of_ne m c r h8).trans <| (V1_of m c r hh).trans rfl

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U2 m) c
  | ⟨2, _⟩ => fun c => dat2 (U3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core's debts, none. -/
abbrev R (c : Dev nD) : sProp 𝕄 := iprop((∃ r, prngReg c r) ∗ ∃ W, owes (c : Thread nD τ) (0 : CellTallies nD τ sig Unit) W)
/-- The host's layout operations as one item. -/
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts. -/
abbrev Tₙ (c : Dev nD) : sProp 𝕄 := iprop(StableHlo.held (c : Thread nD τ) (Pipeline.ucRefs τ sig) (W4 m c) ∗ ∃ r, prngReg c r)

/-! ## What each region's arrays hold at its exit -/

theorem hF0 (c : Dev nD) (w : Fin cfg0.W) : (dat0 (U1 m) c).arrAt w cfg0.N = U2 m c (Pipeline.arrRef spec0 w) :=
  match w with
  | ⟨0, _⟩ => ((dat0 (U1 m) c).arrAt_in 0 rfl _).trans ((A_eq0 (U1 m) c 0).trans (W2_of_ne m c main_v0 (by decide)).symm)
  | ⟨1, _⟩ => ((dat0 (U1 m) c).arrAt_in 1 rfl _).trans ((A_eq0 (U1 m) c 1).trans (W2_of_ne m c main_v5 (by decide)).symm)
  | ⟨2, _⟩ => (W2_v8 m c).symm
theorem hrest0 (c : Dev nD) : ∀ b, b ∉ Finset.univ.image (Pipeline.arrRef spec0) → U2 m c b = U1 m c b :=
  fun b hb => W2_of_ne m c b fun e => hb (Finset.mem_image.mpr ⟨2, Finset.mem_univ _, e.symm⟩)
theorem hF2 (c : Dev nD) (w : Fin cfg2.W) : (dat2 (U3 m) c).arrAt w cfg2.N = U4 m c (Pipeline.arrRef spec2 w) :=
  match w with
  | ⟨0, _⟩ => ((dat2 (U3 m) c).arrAt_in 0 rfl _).trans ((A_eq2 (U3 m) c 0).trans (W4_of_ne m c main_v9 (by decide)).symm)
  | ⟨1, _⟩ => ((dat2 (U3 m) c).arrAt_in 1 rfl _).trans ((A_eq2 (U3 m) c 1).trans (W4_of_ne m c main_v7 (by decide)).symm)
  | ⟨2, _⟩ => (W4_v10 m c).symm
theorem hrest2 (c : Dev nD) : ∀ b, b ∉ Finset.univ.image (Pipeline.arrRef spec2) → U4 m c b = U3 m c b :=
  fun b hb => W4_of_ne m c b fun e => hb (Finset.mem_image.mpr ⟨2, Finset.mem_univ _, e.symm⟩)

/-- Region 1's invariant is the same before every point: what the launch hands the region. -/
theorem hin1 (V : (c : Dev nD) → (b : Ref sig .tc) → Buf (Elt F) ((c : Thread nD τ).loc b)) (c : Dev nD) :
    (Pipeline.ΦA spec1 c : sProp 𝕄) ⊢ (dat1 V c).Φ 0 := by
  rw [show (dat1 V c).Φ 0 = Pipeline.ΦA spec1 c from by dsimp only [dat1]]
theorem hout1 (V : (c : Dev nD) → (b : Ref sig .tc) → Buf (Elt F) ((c : Thread nD τ).loc b)) (c : Dev nD) :
    (dat1 V c).Φ (Fin.last cfg1.N) ⊢ (Pipeline.ΦA spec1 c : sProp 𝕄) := by
  rw [show (dat1 V c).Φ (Fin.last cfg1.N) = Pipeline.ΦA spec1 c from by dsimp only [dat1]]

/-! ## The regions as items -/

set_option backward.isDefEq.respectTransparency.types false in
/-- Region 0 over the thread state: entered from every unscoped buffer at the valuation before it, left at the
    valuation after it; its arrays split out of the unscoped buffers and put back at their final contents; the
    generator register into the invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) (fun w => A_eq0 (U1 m) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans ?_ (hin0 (U1 m) c)
    show (_ : sProp 𝕄) ⊢ _
    unfold Pipeline.ΦA
    iintro ⟨Hp, -, Hr⟩
    isplitl [Hr]; · iexact Hr
    iexact Hp
  hout c := by
    rw [Pipeline.ownSems0_none]
    refine BI.Entails.trans (hout0 (U1 m) c) ?_
    show (_ : sProp 𝕄) ⊢ _
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the valuation before it, left at the
    valuation after it; its arrays split out of the unscoped buffers and put back at their final contents; the
    generator register into the invariant and out; nothing owed; no semaphore of the kernel's own. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (U2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (U2 m c)
  hentry c := by
    rw [Pipeline.ownSems0_none]
    have hsplit := entry1 (U2 m) c (W2 m c) (fun _ => rfl)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans ?_ (hin1 (U2 m) c)
    show (_ : sProp 𝕄) ⊢ _
    unfold Pipeline.ΦA
    iintro ⟨Hp, -, Hr⟩
    isplitl [Hr]; · iexact Hr
    iexact Hp
  hout c := by
    rw [Pipeline.ownSems0_none]
    refine BI.Entails.trans (hout1 (U2 m) c) ?_
    show (_ : sProp 𝕄) ⊢ _
    unfold Pipeline.ΦA
    iintro ⟨Hr, Hp⟩
    isplitl [Hp]; · iexact Hp
    isplitr; · iempintro
    iexact Hr
  hexit c := by
    have hjoin := exit1 (U2 m) c (W2 m c) (fun _ => rfl)
    iintro ⟨Ha, HO, HY, Hrest⟩
    imodintro
    isplitl [Ha Hrest]
    · iapply hjoin
      isplitl [Ha]
      · iexact Ha
      iexact Hrest
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the valuation before it, left at the
    valuation after it; its arrays split out of the unscoped buffers and put back at their final contents; the
    generator register into the invariant and out; nothing owed; no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (U3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (U3 m c) (fun w => A_eq2 (U3 m) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans ?_ (hin2 (U3 m) c)
    show (_ : sProp 𝕄) ⊢ _
    unfold Pipeline.ΦA
    iintro ⟨Hp, -, Hr⟩
    isplitl [Hr]; · iexact Hr
    iexact Hp
  hout c := by
    rw [Pipeline.ownSems0_none]
    refine BI.Entails.trans (hout2 (U3 m) c) ?_
    show (_ : sProp 𝕄) ⊢ _
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (U3 m c) (U4 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as items, and the launch -/

abbrev segs : List (Pipeline.Seg (pcfgs (F := F)) adm (pdats m) () defs₀ 𝒱₀ L lv) :=
  [ .host (hseg0 m), .region (reg0 m), .region (reg1 m), .region (reg2 m) ]

theorem main_run (c : Dev nD) : main (F := F) c = Pipeline.Seg.run (segs m) := (main_chain c).trans (by chain_rfl)

set_option backward.isDefEq.respectTransparency.types false in
/-- From any memory with zero counters every weakly fair execution of the program terminates, nothing faulting, and
    ends with the result array at what the third region's write-backs leave and every argument array as launched. -/
theorem run_main : θ_run defs (onTc (τ := τ) (main (F := F))) ⟨m, fun _ => 0, ρ⟩ (fun r => ∀ c : Dev nD,
      r.2.mem ((c.tc : Thread nD τ).loc main_v10) = o4 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨(h c _ (mem_uc main_v10 (by decide))).trans (W4_v10 m c),
       (h c _ (mem_uc main_arg0 (by decide))).trans (W4_arg m c main_arg0 (by decide) (by decide) (by decide) (by decide)),
       (h c _ (mem_uc main_arg1 (by decide))).trans (W4_arg m c main_arg1 (by decide) (by decide) (by decide) (by decide)),
       (h c _ (mem_uc main_arg2 (by decide))).trans (W4_arg m c main_arg2 (by decide) (by decide) (by decide) (by decide)),
       (h c _ (mem_uc main_arg3 (by decide))).trans (W4_arg m c main_arg3 (by decide) (by decide) (by decide) (by decide)),
       (h c _ (mem_uc main_arg4 (by decide))).trans (W4_arg m c main_arg4 (by decide) (by decide) (by decide) (by decide))⟩)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_main m ρ)

end Cert.Kernel.Hand

end
-- ==== Proof.KI.Base.lean ====
/-
  The contents of the unscoped buffers when the first kernel region is entered: the launch contents after the
  host's eight layout operations. Three of those buffers are read by the regions: the activations narrowed in
  format (the same numbers), the three transposed weight matrices laid side by side along the columns — column
  j of the side-by-side matrix is column j of the first transposed matrix for j < 2048, column j - 2048 of the
  second for j < 4096, column j - 4096 of the third otherwise —, and the fourth weight matrix transposed.
-/
import proofs.«178252_j78915729097147_2_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Hand

open Idealize.ShloMosaic Idealize.ShloMosaic.TcCoe Idealize.SL.Sem Idealize.ShloMosaic.ValueIdx
open Cert.KernelIdeal Cert.KernelIdeal.Gen

variable {F : FTy → Type} [FloatOps F]
variable (m : (ℓ : Loc nD τ sig) → Buf (Elt F) ℓ)

/-- Core `c`'s buffers at launch. -/
abbrev W0 (c : Dev nD) : Valuation τ sig (Elt F) := fun b => m (c, b)
/-- After the host's layout operations: what the first region finds. -/
abbrev W1 (c : Dev nD) : Valuation τ sig (Elt F) := StableHlo.after hostOps0 (W0 m c)
/-- The same read at the TensorCore's references. -/
abbrev U1 : (c : Dev nD) → (b : Ref sig .tc) → Buf (Elt F) ((c : Thread nD τ).loc b) := fun c b => W1 m c b

/-- The narrowed activations. -/
theorem U1_v0 (c : Dev nD) :
    U1 m c main_v0 = truncf .bf16 (m ((c : Thread nD τ).loc main_arg0)) bitsLt_bf16_f32 := by
  dsimp only [U1, W1, hostOps0]; after_results

/-- The three transposed weight matrices side by side, narrowed. -/
theorem U1_v5 (c : Dev nD) :
    U1 m c main_v5 = truncf .bf16 (concatenate S2048x6144 1
      [⟨S2048x2048, transpose S2048x2048 [1, 0] (m ((c : Thread nD τ).loc main_arg1)) transposes_S2048x2048_S2048x2048_1_0⟩,
       ⟨S2048x2048, transpose S2048x2048 [1, 0] (m ((c : Thread nD τ).loc main_arg2)) transposes_S2048x2048_S2048x2048_1_0⟩,
       ⟨S2048x2048, transpose S2048x2048 [1, 0] (m ((c : Thread nD τ).loc main_arg3)) transposes_S2048x2048_S2048x2048_1_0⟩]
      concatenates_S2048x2048_S2048x2048_S2048x2048_S2048x6144_d1) bitsLt_bf16_f32 := by
  dsimp only [U1, W1, hostOps0]; after_results; rfl

/-- The fourth weight matrix transposed, narrowed. -/
theorem U1_v7 (c : Dev nD) :
    U1 m c main_v7 = truncf .bf16 (transpose S2048x2048 [1, 0] (m ((c : Thread nD τ).loc main_arg4)) transposes_S2048x2048_S2048x2048_1_0) bitsLt_bf16_f32 := by
  dsimp only [U1, W1, hostOps0]; after_results

end Cert.KernelIdeal.Hand

end
-- ==== Proof.KI.Region0.lean ====
import proofs.«178252_j78915729097147_2_alg».proof.Proof.Gen.KernelIdeal.Launch
import proofs.«178252_j78915729097147_2_alg».proof.Proof.Gen.KernelIdeal.Skeleton
import proofs.«178252_j78915729097147_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! # Region 0: a K-blocked projection with an accumulator carried between grid points

The kernel of this region computes one output block as a sum over four blocks of the contracted axis. The grid's
last coordinate k runs over those blocks; an f32 accumulator buffer lives beside the staged windows and is carried
from point to point: at k = 0 it is first filled with zeros, at every point the product of the point's two input
blocks is added to it, and at k = 3 its contents are rounded to bf16 and stored into the output window, which is
written back there and nowhere else. This module states what the accumulator holds after every point, gives
the region's proof data at a parameter V (the buffers' contents when the region is entered), and proves the body
obligation point by point, by cases on k. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it (V). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The accumulator, point by point -/

/-- What the accumulator holds after the body at position n: at a point with k = 0 the product of the point's
    blocks added to zeros, elsewhere added to what the point before left. -/
def acc0 (c : Dev nD) : (n : ℕ) → n < cfg0.N → Vec F S512x2048 .f32
  | 0, hn => k0_pay2 (iblk0 V c 0 ⟨0, hn⟩) (iblk0 V c 1 ⟨0, hn⟩) (k0_pay1 (F := F))
  | n + 1, hn =>
    if (n + 1) % 4 = 0 then k0_pay2 (iblk0 V c 0 ⟨n + 1, hn⟩) (iblk0 V c 1 ⟨n + 1, hn⟩) (k0_pay1 (F := F))
    else k0_pay2 (iblk0 V c 0 ⟨n + 1, hn⟩) (iblk0 V c 1 ⟨n + 1, hn⟩) (acc0 c n (Nat.lt_of_succ_lt hn))

/-- At a point with k = 0 the accumulator restarts from zeros. -/
theorem acc0_reset (c : Dev nD) (t : Fin cfg0.N) (h : t.val % 4 = 0) :
    acc0 V c t.val t.isLt = k0_pay2 (iblk0 V c 0 t) (iblk0 V c 1 t) (k0_pay1 (F := F)) := by
  obtain ⟨n, hn⟩ := t
  cases n with
  | zero => rfl
  | succ n => exact if_pos h

/-- At any other point it adds to what the point before left. -/
theorem acc0_step (c : Dev nD) (t : Fin cfg0.N) (h : t.val % 4 ≠ 0) :
    acc0 V c t.val t.isLt = k0_pay2 (iblk0 V c 0 t) (iblk0 V c 1 t) (acc0 V c (t.val - 1) (Nat.lt_of_le_of_lt (Nat.sub_le _ _) t.isLt)) := by
  obtain ⟨n, hn⟩ := t
  cases n with
  | zero => exact absurd (Nat.zero_mod _) h
  | succ n => exact if_neg h

/-! ## The region invariant -/

/-- The accumulator as a memref: a whole scoped buffer passed to the body beside the windows. -/
abbrev scM0 : Memref sig .tc .vmem S512x2048 .f32 := Memref.whole cc0_scratch0

/-- The core's scoped buffers other than the accumulator that are no staging buffer of this call, each whole at
    some contents: the body touches none of them. -/
def rest0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg1_1), ((c : Thread nD τ).loc cc2_stg1_1) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg2_1), ((c : Thread nD τ).loc cc2_stg2_1) ↦{fullShare} f)
    ∗ (∃ f : Buf (Elt F) ((c : Thread nD τ).loc cc2_scratch0), ((c : Thread nD τ).loc cc2_scratch0) ↦{fullShare} f))

/-- The invariant before position n: before the first point what the launch hands the region (every scoped
    buffer that is no staging buffer at anything, the generator register at some state); afterwards the same with
    the accumulator at what the point before left in it. -/
def PhiS0 (c : Dev nD) : (n : ℕ) → n ≤ cfg0.N → sProp 𝕄
  | 0, _ => Pipeline.ΦA spec0 c
  | n + 1, hn => iprop((owns (c : Thread nD τ) scM0 fullShare (acc0 V c n hn) ∗ rest0 (F := F) c) ∗ (∃ r, prngReg c r))

/-! ## The proof data -/

/-- The proof data of this region on core c: the arrays as the region finds them; after the body at point t
    each input's buffer at its block and the output's at the accumulator's contents converted; the invariant
    PhiS0; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (acc0 V c t.val t.isLt)
  Φ t := PhiS0 V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay3 (acc0 V c t.val t.isLt) := by dsimp only [dat0]

/-! ## The body's branch conditions, in closed form -/

/-- The condition of the body's first branch (the accumulator is zeroed): the last grid coordinate is 0. -/
abbrev cond0_0 (i : grid0.Coords) : Prop := (Scalar.cmpi .ne (Scalar.extui (Scalar.cmpi .eq (BitVec.ofNat 32 (i 3).val) 0#32)) 0#32) = 1#1
/-- It holds at the points ≡ 0 (mod 4): decided over the grid. -/
theorem hcond0_0 : ∀ t : Fin cfg0.N, cond0_0 (grid0.coords t) ↔ t.val % 4 = 0 :=
  (by decide +kernel : ∀ t : Fin grid0.N, cond0_0 (grid0.coords t) ↔ t.val % 4 = 0)

/-- The condition of the body's second branch (the output block is stored): the last grid coordinate is 3. -/
abbrev cond0_1 (i : grid0.Coords) : Prop := k0_cond2 i = 1#1
/-- It holds at the points ≡ 3 (mod 4): decided over the grid. -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

/-- The input windows are never idle. -/
theorem liveAt0_0 : ∀ t : Fin cfg0.N, cfg0.idle 0 (grid0.coords t) = false := fun _ => rfl
theorem liveAt0_1 : ∀ t : Fin cfg0.N, cfg0.idle 1 (grid0.coords t) = false := fun _ => rfl
/-- Where the second branch is not taken the output window is idle, -/
theorem idleAt0_2 : ∀ t : Fin cfg0.N, ¬cond0_1 (grid0.coords t) → cfg0.idle 2 (grid0.coords t) = true := by decide +kernel
/-- and its block is not written back there; -/
theorem noFlush0_2 : ∀ t : Fin cfg0.N, ¬cond0_1 (grid0.coords t) → (cfg0.win 2).flush t = false := by decide +kernel
/-- where it is taken the window is live. -/
theorem liveAt0_2 : ∀ t : Fin cfg0.N, cond0_1 (grid0.coords t) → cfg0.idle 2 (grid0.coords t) = false := by decide +kernel

/-! ## Whole-buffer accesses -/

/-- The offsets of a whole-buffer access, however many axes, are all zero. -/
theorem off2_zero : (![0, 0] : Fin 2 → ℕ) = fun _ => 0 := by funext a; fin_cases a <;> rfl
theorem off3_zero : (![0, 0, 0] : Fin 3 → ℕ) = fun _ => 0 := by funext a; fin_cases a <;> rfl

set_option maxHeartbeats 1000000 in
/-- The body at a point with k = 0, on whole memrefs: the inputs at their contents, the output's buffer at any
    contents (handed back untouched: nothing is stored there), the accumulator at anything. The accumulator is
    first stored whole with zeros, so the whole-buffer load that follows reads zeros; the body runs to the
    continuation holding the accumulator at the product of the blocks added to zeros. -/
theorem sound_kernel0_A (c : Dev nD) (E : Set ℕ) (i : grid0.Coords)
    (arg4 : Memref sig .tc .vmem S1x512x512 .bf16) (harg4 : arg4.IsWhole) (arg5 : Memref sig .tc .vmem S512x2048 .bf16) (harg5 : arg5.IsWhole)
    (arg6 : Memref sig .tc .vmem S1x512x2048 .bf16) (harg6 : arg6.IsWhole) (arg7 : Memref sig .tc .vmem S512x2048 .f32) (harg7 : arg7.IsWhole)
    (hc0 : cond0_0 i) (hc1 : ¬cond0_1 i)
    (x0 : Vec F S1x512x512 .bf16) (x1 : Vec F S512x2048 .bf16) (xi2 : Vec F S1x512x2048 .bf16) (K : PUnit → sProp 𝕄) :
    iprop(owns (c : Thread nD τ) arg4 fullShare x0 ∗ owns (c : Thread nD τ) arg5 fullShare x1 ∗ owns (c : Thread nD τ) arg6 fullShare xi2
        ∗ (∃ d, owns (c : Thread nD τ) arg7 fullShare d)
        ∗ (iprop(owns (c : Thread nD τ) arg4 fullShare x0 ∗ owns (c : Thread nD τ) arg5 fullShare x1 ∗ owns (c : Thread nD τ) arg6 fullShare xi2
            ∗ owns (c : Thread nD τ) arg7 fullShare (k0_pay2 x0 x1 (k0_pay1 (F := F)))) -∗ K ⟨⟩))
      ⊢ wp frame (wpE (defs₀ (F := F)) Variants.none c none) E (cc0_kernel i arg4 harg4 arg5 harg5 arg6 harg6 arg7 harg7) K := by
  simp only [cc0_kernel_eq_skeleton]; unfold cc0_kernel_skel
  unfold owns
  iintro ⟨⟨%f0, %hf0, H0⟩, ⟨%f1, %hf1, H1⟩, ⟨%f2, %hf2, H2⟩, ⟨%ds, %fs, -, HS⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; exact hf2
    iexact H2
  iexists _; isplitr
  swap; · iexact HS
  ipureintro
  sl_unfold_run_names
  rw [View.read_writes_eq_canon _ _ _ (fun y => ⟨_, List.mem_cons.mpr (Or.inl rfl), View.mem_set_unit_zero off2_zero inb_S512x2048_S512x2048_0_0 y⟩),
    View.canon_cons_unit_zero off2_zero, View.readCov_unit_zero _ off2_zero]
  simp only [View.readAt_eq_ld]
  rw [View.ld_unit_zero off3_zero, View.ld_unit_zero off2_zero]

set_option maxHeartbeats 1000000 in
/-- The body at a point with 0 < k < 3, on whole memrefs: the inputs at their contents, the output's buffer at any
    contents (handed back untouched: nothing is stored there), the accumulator at the contents xs the point before
    left. It runs to the continuation holding the accumulator at the product of the blocks added to xs. -/
theorem sound_kernel0_B (c : Dev nD) (E : Set ℕ) (i : grid0.Coords)
    (arg4 : Memref sig .tc .vmem S1x512x512 .bf16) (harg4 : arg4.IsWhole) (arg5 : Memref sig .tc .vmem S512x2048 .bf16) (harg5 : arg5.IsWhole)
    (arg6 : Memref sig .tc .vmem S1x512x2048 .bf16) (harg6 : arg6.IsWhole) (arg7 : Memref sig .tc .vmem S512x2048 .f32) (harg7 : arg7.IsWhole)
    (hc0 : ¬cond0_0 i) (hc1 : ¬cond0_1 i)
    (x0 : Vec F S1x512x512 .bf16) (x1 : Vec F S512x2048 .bf16) (xi2 : Vec F S1x512x2048 .bf16) (xs : Vec F S512x2048 .f32) (K : PUnit → sProp 𝕄) :
    iprop(owns (c : Thread nD τ) arg4 fullShare x0 ∗ owns (c : Thread nD τ) arg5 fullShare x1 ∗ owns (c : Thread nD τ) arg6 fullShare xi2
        ∗ owns (c : Thread nD τ) arg7 fullShare xs
        ∗ (iprop(owns (c : Thread nD τ) arg4 fullShare x0 ∗ owns (c : Thread nD τ) arg5 fullShare x1 ∗ owns (c : Thread nD τ) arg6 fullShare xi2
            ∗ owns (c : Thread nD τ) arg7 fullShare (k0_pay2 x0 x1 xs)) -∗ K ⟨⟩))
      ⊢ wp frame (wpE (defs₀ (F := F)) Variants.none c none) E (cc0_kernel i arg4 harg4 arg5 harg5 arg6 harg6 arg7 harg7) K := by
  simp only [cc0_kernel_eq_skeleton]; unfold cc0_kernel_skel
  unfold owns
  iintro ⟨⟨%f0, %hf0, H0⟩, ⟨%f1, %hf1, H1⟩, ⟨%f2, %hf2, H2⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; exact hf2
    iexact H2
  iexists _; isplitr
  swap; · iexact HS
  ipureintro
  rw [View.read_writes_eq_canon _ _ _ (fun y => ⟨_, List.mem_singleton_self _, View.mem_set_unit_zero off2_zero inb_S512x2048_S512x2048_0_0 y⟩),
    View.canon_unit_zero off2_zero]
  simp only [View.readAt_eq_ld]
  rw [View.ld_unit_zero off3_zero, View.ld_unit_zero off2_zero, View.ld_unit_zero off2_zero]

set_option maxHeartbeats 1000000 in
/-- The body at a point with k = 3, on whole memrefs: the inputs at their contents, the output's buffer at
    anything, the accumulator at the contents xs the point before left. After the accumulation the accumulator is
    loaded whole (it reads what was just stored) and its contents, rounded, are stored over the whole output buffer. -/
theorem sound_kernel0_C (c : Dev nD) (E : Set ℕ) (i : grid0.Coords)
    (arg4 : Memref sig .tc .vmem S1x512x512 .bf16) (harg4 : arg4.IsWhole) (arg5 : Memref sig .tc .vmem S512x2048 .bf16) (harg5 : arg5.IsWhole)
    (arg6 : Memref sig .tc .vmem S1x512x2048 .bf16) (harg6 : arg6.IsWhole) (arg7 : Memref sig .tc .vmem S512x2048 .f32) (harg7 : arg7.IsWhole)
    (hc0 : ¬cond0_0 i) (hc1 : cond0_1 i)
    (x0 : Vec F S1x512x512 .bf16) (x1 : Vec F S512x2048 .bf16) (xs : Vec F S512x2048 .f32) (K : PUnit → sProp 𝕄) :
    iprop(owns (c : Thread nD τ) arg4 fullShare x0 ∗ owns (c : Thread nD τ) arg5 fullShare x1 ∗ (∃ d, owns (c : Thread nD τ) arg6 fullShare d)
        ∗ owns (c : Thread nD τ) arg7 fullShare xs
        ∗ (iprop(owns (c : Thread nD τ) arg4 fullShare x0 ∗ owns (c : Thread nD τ) arg5 fullShare x1
            ∗ owns (c : Thread nD τ) arg6 fullShare (k0_pay3 (k0_pay2 x0 x1 xs))
            ∗ owns (c : Thread nD τ) arg7 fullShare (k0_pay2 x0 x1 xs)) -∗ K ⟨⟩))
      ⊢ wp frame (wpE (defs₀ (F := F)) Variants.none c none) E (cc0_kernel i arg4 harg4 arg5 harg5 arg6 harg6 arg7 harg7) K := by
  simp only [cc0_kernel_eq_skeleton]; unfold cc0_kernel_skel
  unfold owns
  iintro ⟨⟨%f0, %hf0, H0⟩, ⟨%f1, %hf1, H1⟩, ⟨%d2, %f2, -, H2⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [View.read_writes_eq_canon _ _ _ (fun y => ⟨_, List.mem_singleton_self _, View.mem_set_unit_zero off3_zero inb_S1x512x2048_S1x512x2048_0_0_0 y⟩),
      View.canon_unit_zero off3_zero, View.readCov_unit_zero _ off2_zero]
    simp only [View.readAt_eq_ld]
    rw [View.ld_unit_zero off3_zero, View.ld_unit_zero off2_zero, View.ld_unit_zero off2_zero]
  iexists _; isplitr
  swap; · iexact HS
  ipureintro
  sl_unfold_run_names
  rw [View.read_writes_eq_canon _ _ _ (fun y => ⟨_, List.mem_singleton_self _, View.mem_set_unit_zero off2_zero inb_S512x2048_S512x2048_0_0 y⟩),
    View.canon_unit_zero off2_zero]
  simp only [View.readAt_eq_ld]
  rw [View.ld_unit_zero off3_zero, View.ld_unit_zero off2_zero, View.ld_unit_zero off2_zero]

/-! ## The invariant, restated -/

/-- What the launch hands the region, with the accumulator split off as a memref owned at some contents. -/
theorem PhiA0_eq (c : Dev nD) :
    (Pipeline.ΦA spec0 c : sProp 𝕄)
      = iprop(((∃ d, owns (c : Thread nD τ) scM0 fullShare d) ∗ rest0 (F := F) c) ∗ (∃ r, prngReg c r)) := by
  unfold Pipeline.ΦA rest0; rw [scopedRest0_eq]; simp only [scM0, owns_whole]; try rfl

theorem PhiS0_zero (c : Dev nD) (n : ℕ) (h : n ≤ cfg0.N) (hz : n = 0) : PhiS0 V c n h = Pipeline.ΦA spec0 c := by
  subst hz; rfl

/-- After point n (before point n + 1): the accumulator at that point's contents. -/
theorem PhiS0_succ (c : Dev nD) (n : ℕ) (hn : n < cfg0.N) :
    PhiS0 V c (n + 1) hn = iprop((owns (c : Thread nD τ) scM0 fullShare (acc0 V c n hn) ∗ rest0 (F := F) c) ∗ (∃ r, prngReg c r)) := rfl

/-- Before a point that is not the first: the accumulator at what the point before left. -/
theorem PhiS0_pos (c : Dev nD) (n : ℕ) (h : n ≤ cfg0.N) (hz : n ≠ 0) :
    PhiS0 V c n h = iprop((owns (c : Thread nD τ) scM0 fullShare (acc0 V c (n - 1) (by omega)) ∗ rest0 (F := F) c) ∗ (∃ r, prngReg c r)) := by
  cases n with
  | zero => exact absurd rfl hz
  | succ n => rfl

/-- The invariant at a point's start, restated at the point's position. -/
theorem PhiS0_castSucc (c : Dev nD) (t : Fin cfg0.N) :
    (dat0 V c).Φ t.castSucc = PhiS0 V c t.val (Nat.le_of_lt t.isLt) := by
  dsimp only [dat0]; simp only [Fin.coe_castSucc]

/-! ## What the body finds in the input windows' buffers -/

/-- An input window's current staging buffer holds its block at every point, fetched there or not (an unfetched
    input's block index has not moved), for any proof data whose array is V's and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- Each window's current staging memref at point t, spelled as the pipeline passes it, and its wholeness. -/
abbrev ms0_0 (t : Fin cfg0.N) : Memref sig .tc .vmem S1x512x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x2048 .bf16 := win0_2.stage (cfg0.slots t 2)
abbrev hs0_2 (t : Fin cfg0.N) : (ms0_2 t).IsWhole := hstage0_2 ((cfg0.slots t 2).cast nbuf0_2)

/-- What the body is called with at point t (the obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The inputs' memrefs hold their blocks; the closed forms say which case the point is in.
    The invariant hands the body the accumulator at what the point before left (at anything at the first point, and
    then k = 0: it is zeroed before it is read), and takes it back at this point's contents; the other scoped buffers,
    the generator register and what the core owes pass through untouched. Where k < 3 the output's buffer is idle and
    handed back as found; at k = 3 it is left at the accumulator's contents converted. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 96 := lt_of_lt_of_eq t.isLt (show cfg0.N = 96 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 4 = 0
  · have h1 : ¬t.val % 4 = 3 := by omega
    rw [Dat.leavesExact_idle (dat0 V c) 2 t (idleAt0_2 t (fun h => h1 ((hcond0_1 t).mp h))) (noFlush0_2 t (fun h => h1 ((hcond0_1 t).mp h)))]
    rw [acc0_reset V c t h0]
    by_cases hz : t.val = 0
    · rw [PhiS0_castSucc V c t, PhiS0_zero V c _ _ hz, PhiA0_eq]
      iintro ⟨⟨⟨HS, Hrest⟩, Hg⟩, Ho, ⟨%d0, H0⟩, ⟨%d1, H1⟩, ⟨%d2, H2⟩⟩
      iapply (sound_kernel0_A c Set.univ (grid0.coords t) _ _ _ _ _ _ _ _ ((hcond0_0 t).mpr h0) (fun h => h1 ((hcond0_1 t).mp h)) (iblk0 V c 0 t) (iblk0 V c 1 t) _ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2
    · rw [PhiS0_castSucc V c t, PhiS0_pos V c _ _ hz]
      iintro ⟨⟨⟨HS, Hrest⟩, Hg⟩, Ho, ⟨%d0, H0⟩, ⟨%d1, H1⟩, ⟨%d2, H2⟩⟩
      iapply (sound_kernel0_A c Set.univ (grid0.coords t) _ _ _ _ _ _ _ _ ((hcond0_0 t).mpr h0) (fun h => h1 ((hcond0_1 t).mp h)) (iblk0 V c 0 t) (iblk0 V c 1 t) _ _)
      isplitl [H0]; · iexact H0
      isplitl [H1]; · iexact H1
      isplitl [H2]; · iexact H2
      isplitl [HS]; · iexists _; iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2
  · have hz : t.val ≠ 0 := fun h => h0 (by rw [h])
    rw [acc0_step V c t h0]
    rw [PhiS0_castSucc V c t, PhiS0_pos V c _ _ hz]
    by_cases h1 : t.val % 4 = 3
    · rw [show (dat0 V c).leavesExact 2 t = owns (c : Thread nD τ) (ms0_2 t) fullShare ((dat0 V c).after 2 t) from by
        unfold Dat.leavesExact; rw [liveAt0_2 t ((hcond0_1 t).mpr h1)], after0_2]
      rw [acc0_step V c t h0]
      iintro ⟨⟨⟨HS, Hrest⟩, Hg⟩, Ho, ⟨%d0, H0⟩, ⟨%d1, H1⟩, ⟨%d2, H2⟩⟩
      iapply (sound_kernel0_C c Set.univ (grid0.coords t) _ _ _ _ _ _ _ _ (fun h => h0 ((hcond0_0 t).mp h)) ((hcond0_1 t).mpr h1) (iblk0 V c 0 t) (iblk0 V c 1 t) _ _)
      isplitl [H0]; · iexact H0
      isplitl [H1]; · iexact H1
      isplitl [H2]; · iexists _; iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexact H2
    · rw [Dat.leavesExact_idle (dat0 V c) 2 t (idleAt0_2 t (fun h => h1 ((hcond0_1 t).mp h))) (noFlush0_2 t (fun h => h1 ((hcond0_1 t).mp h)))]
      iintro ⟨⟨⟨HS, Hrest⟩, Hg⟩, Ho, ⟨%d0, H0⟩, ⟨%d1, H1⟩, ⟨%d2, H2⟩⟩
      iapply (sound_kernel0_B c Set.univ (grid0.coords t) _ _ _ _ _ _ _ _ (fun h => h0 ((hcond0_0 t).mp h)) (fun h => h1 ((hcond0_1 t).mp h)) (iblk0 V c 0 t) (iblk0 V c 1 t) _ _ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives it back: the accumulator's contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS, Hrest⟩, Hg⟩
  isplitl [HS Hrest]
  · isplitl [HS]
    · iexists _; iexact HS
    iexact Hrest
  iexact Hg

/-- The same after the last point. -/
theorem hout0 (c : Dev nD) : (dat0 V c).Φ (Fin.last cfg0.N) ⊢ Pipeline.ΦA spec0 c :=
  Phi_out0 V c _ (by rw [Fin.val_last]; have : cfg0.N = 96 := N_0; omega)

end Cert.KernelIdeal.Hand

end
-- ==== Proof.KI.Region1.lean ====
import proofs.«178252_j78915729097147_2_alg».proof.Proof.Gen.KernelIdeal.Launch
import proofs.«178252_j78915729097147_2_alg».proof.Proof.Gen.KernelIdeal.Skeleton
import proofs.«178252_j78915729097147_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! # Region 1: the attention kernel's pipeline, at the buffer contents `V` the region is entered with

One control case: three whole-block loads (the query tile, the key block, the value block), a load of the
output buffer whose value is not used, and one whole-block store of the attention payload. The three input
windows all stage blocks of ONE array; each holds a third of that array's full share, and the three shares
join back to the full share when the region is left. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The shares of the one input array -/

/-- The query window's share of the input array: the left half of the full share. -/
abbrev q1_0 : PosShare TreeShare := fullShare.left
/-- The key window's share: the left half of the right half. -/
abbrev q1_1 : PosShare TreeShare := fullShare.right.left
/-- The value window's share: the right half of the right half. The three add up to the full share. -/
abbrev q1_2 : PosShare TreeShare := fullShare.right.right

/-! ## The pipeline's proof data -/

/-- The proof data of pipeline 1 on core `c`: the arrays as the region finds them (`V`); after the body at point `t`
    each input's buffer at its block and the output's at the attention payload of the three input blocks; the
    invariant the scoped rest and the generator register, untouched; nothing owed; the input array's full share
    dealt in three among the input windows. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay1 (iblk1 V c 0 t) (iblk1 V c 1 t) (iblk1 V c 2 t)
  Φ _ := Pipeline.ΦA spec1 c
  q w := match w with
    | ⟨0, _⟩ => q1_0
    | ⟨1, _⟩ => q1_1
    | ⟨2, _⟩ => q1_2
    | ⟨3, _⟩ => fullShare
  owed _ := 0

/-- The proof data's arrays are the region-entry contents. -/
theorem A_eq1 (c : Dev nD) (w : Fin cfg1.W) : (dat1 V c).A w = V c (Pipeline.arrRef spec1 w) := by
  dsimp only [dat1]

/-- What the body leaves in the output window's buffer: the attention payload of the three input blocks. -/
theorem after1_3 (c : Dev nD) (t : Fin cfg1.N) : (dat1 V c).after 3 t = k1_pay1 (iblk1 V c 0 t) (iblk1 V c 1 t) (iblk1 V c 2 t) := by
  dsimp only [dat1]

/-- The zero offsets of a rank-3 whole-buffer rectangle, as the constant function. -/
theorem zeros3 : (![0, 0, 0] : Fin 3 → Nat) = fun _ => 0 := funext fun a => by fin_cases a <;> rfl

/-! ## What the body finds in each input window's buffer

An input window's current staging buffer holds its block at every point, fetched there or not: where the window is
not fetched its block index has not moved since the point before, the body leaves the block in place, and the
previous point's block is this point's. The windows are uncut and never idle. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole-buffer rectangle of the query tile's and the output's staging buffers. -/
abbrev r1_q : Rect S1x512x128 := Rect.unit (s := S1x512x128) ![0, 0, 0] S1x512x128.size inb_S1x512x128_S1x512x128_0_0_0
/-- The whole-buffer rectangle of the key block's and the value block's staging buffers. -/
abbrev r1_kv : Rect S1x2048x128 := Rect.unit (s := S1x2048x128) ![0, 0, 0] S1x2048x128.size inb_S1x2048x128_S1x2048x128_0_0_0

/-- The body's one store covers the output buffer. -/
theorem cover1_3 (p0 : Vec F S1x512x128 .bf16) (y : S1x512x128.Idx) :
    ∃ pc ∈ ([⟨r1_q, p0⟩] : List (View.Piece (Elt F) S1x512x128 .bf16)), y ∈ pc.1.set :=
  ⟨_, List.mem_singleton_self _, View.mem_set_unit_zero (S := S1x512x128) zeros3 inb_S1x512x128_S1x512x128_0_0_0 y⟩

/-! ## The body's triple -/

set_option maxHeartbeats 1000000 in
/-- The kernel body on whole staging memrefs, the three inputs' at read contents `x0`, `x1`, `x2` and the output's at
    anything, runs to the continuation holding the inputs' as they were and the output's at the attention payload of
    the three: each load through the whole-buffer rectangle reads the buffer's contents, the load of the output
    buffer is not used, and the one store through the whole-buffer rectangle leaves its payload. -/
theorem sound_kernel1 (c : Dev nD) (E : Set ℕ) (i : grid1.Coords)
    (arg3 : Memref sig .tc .vmem S1x512x128 .bf16) (harg3 : arg3.IsWhole)
    (arg4 : Memref sig .tc .vmem S1x2048x128 .bf16) (harg4 : arg4.IsWhole)
    (arg5 : Memref sig .tc .vmem S1x2048x128 .bf16) (harg5 : arg5.IsWhole)
    (arg6 : Memref sig .tc .vmem S1x512x128 .bf16) (harg6 : arg6.IsWhole)
    (x0 : Vec F S1x512x128 .bf16) (x1 : Vec F S1x2048x128 .bf16) (x2 : Vec F S1x2048x128 .bf16) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d)
        ∗ (iprop(owns (c : Thread nD τ) arg3 fullShare x0 ∗ owns (c : Thread nD τ) arg4 fullShare x1 ∗ owns (c : Thread nD τ) arg5 fullShare x2
            ∗ owns (c : Thread nD τ) arg6 fullShare (k1_pay1 x0 x1 x2)) -∗ K ⟨⟩))
      ⊢ wp frame (wpE (defs₀ (F := F)) Variants.none c none) E (cc1_kernel i arg3 harg3 arg4 harg4 arg5 harg5 arg6 harg6) K := by
  simp only [cc1_kernel_eq_skeleton]; unfold cc1_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  refine (View.read_writes_eq_canon _ _ _ (cover1_3 _)).trans ?_
  rw [View.canon_unit_zero (S := S1x512x128) zeros3 inb_S1x512x128_S1x512x128_0_0_0]
  simp only [View.readAt_eq_ld]
  rw [View.ld_unit_zero (S := S1x512x128) zeros3 inb_S1x512x128_S1x512x128_0_0_0,
    View.ld_unit_zero (S := S1x2048x128) zeros3 inb_S1x2048x128_S1x2048x128_0_0_0,
    View.ld_unit_zero (S := S1x2048x128) zeros3 inb_S1x2048x128_S1x2048x128_0_0_0]

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- What the body leaves in each input window's buffer: the block it found. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## Entry and exit: the one input array's full share dealt in three, and joined back -/

/-- The distinct buffers behind the four windows' arrays: the shared input array and the output array. -/
theorem img1 : Finset.univ.image (Pipeline.arrRef spec1) = {main_v8, main_v9} := by decide

/-- Every window's array is a whole buffer: its view places every element. -/
theorem set1 (w : Fin cfg1.W) : (cfg1.win w).arr.view.set = Finset.univ := (arr_whole1 w).set_eq_univ

/-- The two buffers behind the arrays, each whole at the full share at the entry contents, make the pipeline's arrays
    at entry: the input array's full share splits into its left half and the two halves of its right half, one per
    input window; the output array is held outright. -/
theorem split1 (c : Dev nD) :
    (Pipeline.arrBufs (Ix := Unit) (Name := ℕ) (U := UR sig nD τ) (Lvl := ℕ) spec1 c (V c) : sProp 𝕄)
      ⊢ (dat1 V c).arrays ((dat1 V c).arrAt · 0) := by
  unfold Pipeline.arrBufs Dat.arrays
  rw [img1, bigSep_insert (by decide), bigSep_singleton, bigSep_W1, set1 0, set1 3]
  show (iprop((c.tc.loc main_v8 ↦{fullShare} V c main_v8) ∗ (c.tc.loc main_v9 ↦{fullShare} V c main_v9)) : sProp 𝕄) ⊢
    iprop((c.tc.loc main_v8 ↦{q1_0} V c main_v8) ∗ (c.tc.loc main_v8 ↦{q1_1} V c main_v8) ∗ (c.tc.loc main_v8 ↦{q1_2} V c main_v8)
      ∗ (c.tc.loc main_v9 ↦{fullShare} V c main_v9))
  iintro ⟨H8, H9⟩
  ihave H8' := (pointsTo_share (PosShare.mem_left_op_right fullShare)).1 $$ H8
  icases H8' with ⟨Hl, Hr⟩
  ihave Hr' := (pointsTo_share (PosShare.mem_left_op_right fullShare.right)).1 $$ Hr
  icases Hr' with ⟨Hrl, Hrr⟩
  isplitl [Hl]; · iexact Hl
  isplitl [Hrl]; · iexact Hrl
  isplitl [Hrr]; · iexact Hrr
  iexact H9

/-- ENTRY: every unscoped buffer held at the entry valuation gives the pipeline's arrays at entry beside the
    unscoped rest. -/
theorem entry1 (c : Dev nD) (W : Valuation τ sig (Elt F)) (hW : ∀ b : Ref sig .tc, V c b = W b) :
    StableHlo.held (c : Thread nD τ) (Pipeline.ucRefs τ sig) W
      ⊢ (iprop((dat1 V c).arrays ((dat1 V c).arrAt · 0)
          ∗ Pipeline.unscopedRest (Ix := Unit) (Name := ℕ) (U := UR sig nD τ) (Lvl := ℕ) spec1 c (V c)) : sProp 𝕄) := by
  rw [← Pipeline.unscopedBufs_held (Ix := Unit) (Name := ℕ) (U := UR sig nD τ) (Lvl := ℕ) c W]
  rw [show (fun b : Ref sig .tc => W b) = V c from funext fun b => (hW b).symm]
  rw [Pipeline.PerCore.unscopedBufs_split₀ (fun _ : Dev nD => cfgs) 1 c winFacts₀1.arr_unscoped (V c)]
  exact sep_mono (split1 V c) .rfl

/-- An input window's array is never written: at exit it holds what it held at entry. -/
theorem arrN_in (c : Dev nD) (w : Fin cfg1.W) (hw : (cfg1.win w).isOut = false) : (dat1 V c).arrAt w cfg1.N = V c (Pipeline.arrRef spec1 w) :=
  ((dat1 V c).arrAt_in w hw _).trans (A_eq1 V c w)

/-- The pipeline's arrays at exit make the two buffers behind them whole at the full share again, at any contents that
    has the input array as entered and the output array at what the write-backs left: the three input windows end
    holding the same contents, and their shares join back to the full share. -/
theorem join1 (c : Dev nD) (V' : (b : Ref sig .tc) → Buf (Elt F) ((c : Thread nD τ).loc b))
    (h8 : V' main_v8 = V c main_v8) (h9 : V' main_v9 = (dat1 V c).arrAt 3 cfg1.N) :
    (dat1 V c).arrays ((dat1 V c).arrAt · cfg1.N)
      ⊢ (Pipeline.arrBufs (Ix := Unit) (Name := ℕ) (U := UR sig nD τ) (Lvl := ℕ) spec1 c V' : sProp 𝕄) := by
  unfold Pipeline.arrBufs Dat.arrays
  rw [img1, bigSep_insert (by decide), bigSep_singleton, bigSep_W1, set1 0, set1 3, h8, h9]
  dsimp only
  rw [arrN_in V c 0 rfl, arrN_in V c 1 rfl, arrN_in V c 2 rfl]
  show (iprop((c.tc.loc main_v8 ↦{q1_0} V c main_v8) ∗ (c.tc.loc main_v8 ↦{q1_1} V c main_v8) ∗ (c.tc.loc main_v8 ↦{q1_2} V c main_v8)
      ∗ (c.tc.loc main_v9 ↦{fullShare} (dat1 V c).arrAt 3 cfg1.N)) : sProp 𝕄) ⊢
    iprop((c.tc.loc main_v8 ↦{fullShare} V c main_v8) ∗ (c.tc.loc main_v9 ↦{fullShare} (dat1 V c).arrAt 3 cfg1.N))
  iintro ⟨Hl, Hrl, Hrr, H9⟩
  isplitr [H9]
  · iapply (pointsTo_share (PosShare.mem_left_op_right fullShare)).2
    isplitl [Hl]; · iexact Hl
    iapply (pointsTo_share (PosShare.mem_left_op_right fullShare.right)).2
    isplitl [Hrl] <;> iassumption
  iexact H9

/-- EXIT: the pipeline's arrays at exit beside the unscoped rest are every unscoped buffer held at the entry valuation
    updated at the output array; off the two arrays' buffers the update changes nothing. -/
theorem exit1 (c : Dev nD) (W : Valuation τ sig (Elt F)) (hW : ∀ b : Ref sig .tc, V c b = W b) :
    (iprop((dat1 V c).arrays ((dat1 V c).arrAt · cfg1.N)
        ∗ Pipeline.unscopedRest (Ix := Unit) (Name := ℕ) (U := UR sig nD τ) (Lvl := ℕ) spec1 c (V c)) : sProp 𝕄)
      ⊢ StableHlo.held (c : Thread nD τ) (Pipeline.ucRefs τ sig)
          (Function.update W (Proc.devRef .tc main_v9) ((dat1 V c).arrAt 3 cfg1.N)) := by
  rw [← Pipeline.unscopedBufs_held (Ix := Unit) (Name := ℕ) (U := UR sig nD τ) (Lvl := ℕ) c
    (Function.update W (Proc.devRef .tc main_v9) ((dat1 V c).arrAt 3 cfg1.N))]
  rw [Pipeline.PerCore.unscopedBufs_split₀ (fun _ : Dev nD => cfgs) 1 c winFacts₀1.arr_unscoped
    (fun b : Ref sig .tc => Function.update W (Proc.devRef .tc main_v9) ((dat1 V c).arrAt 3 cfg1.N) b)]
  refine sep_mono (join1 V c _ ?_ ?_) (Entails.of_eq ?_)
  · exact (Function.update_of_ne (StableHlo.devRef_ne_of_ne (by decide)) _ _).trans (hW main_v8).symm
  · exact Function.update_self _ _ _
  · unfold Pipeline.unscopedRest
    refine bigSep_congr fun b hb => ?_
    have hb' : b ∉ Finset.univ.image (Pipeline.arrRef spec1) := (Finset.mem_sdiff.mp hb).2
    have hne : b ≠ main_v9 := fun e => hb' (by rw [e, img1]; decide)
    have e : Function.update W (Proc.devRef .tc main_v9) ((dat1 V c).arrAt 3 cfg1.N) b = V c b :=
      (Function.update_of_ne (StableHlo.devRef_ne_of_ne hne) _ _).trans (hW b).symm
    beta_reduce
    rw [e]

end Cert.KernelIdeal.Hand

end
-- ==== Proof.KI.Region2.lean ====
import proofs.«178252_j78915729097147_2_alg».proof.Proof.Gen.KernelIdeal.Launch
import proofs.«178252_j78915729097147_2_alg».proof.Proof.Gen.KernelIdeal.Skeleton
import proofs.«178252_j78915729097147_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! # Region 2: a K-blocked projection with an accumulator carried between grid points

The kernel of this region computes one output block as a sum over four blocks of the contracted axis. The grid's
last coordinate k runs over those blocks; an f32 accumulator buffer lives beside the staged windows and is carried
from point to point: at k = 0 it is first filled with zeros, at every point the product of the point's two input
blocks is added to it, and at k = 3 its contents are stored into the output window, which is
written back there and nowhere else. This module states what the accumulator holds after every point, gives
the region's proof data at a parameter V (the buffers' contents when the region is entered), and proves the body
obligation point by point, by cases on k. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it (V). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The accumulator, point by point -/

/-- What the accumulator holds after the body at position n: at a point with k = 0 the product of the point's
    blocks added to zeros, elsewhere added to what the point before left. -/
def acc2 (c : Dev nD) : (n : ℕ) → n < cfg2.N → Vec F S512x2048 .f32
  | 0, hn => k2_pay2 (iblk2 V c 0 ⟨0, hn⟩) (iblk2 V c 1 ⟨0, hn⟩) (k2_pay1 (F := F))
  | n + 1, hn =>
    if (n + 1) % 4 = 0 then k2_pay2 (iblk2 V c 0 ⟨n + 1, hn⟩) (iblk2 V c 1 ⟨n + 1, hn⟩) (k2_pay1 (F := F))
    else k2_pay2 (iblk2 V c 0 ⟨n + 1, hn⟩) (iblk2 V c 1 ⟨n + 1, hn⟩) (acc2 c n (Nat.lt_of_succ_lt hn))

/-- At a point with k = 0 the accumulator restarts from zeros. -/
theorem acc2_reset (c : Dev nD) (t : Fin cfg2.N) (h : t.val % 4 = 0) :
    acc2 V c t.val t.isLt = k2_pay2 (iblk2 V c 0 t) (iblk2 V c 1 t) (k2_pay1 (F := F)) := by
  obtain ⟨n, hn⟩ := t
  cases n with
  | zero => rfl
  | succ n => exact if_pos h

/-- At any other point it adds to what the point before left. -/
theorem acc2_step (c : Dev nD) (t : Fin cfg2.N) (h : t.val % 4 ≠ 0) :
    acc2 V c t.val t.isLt = k2_pay2 (iblk2 V c 0 t) (iblk2 V c 1 t) (acc2 V c (t.val - 1) (Nat.lt_of_le_of_lt (Nat.sub_le _ _) t.isLt)) := by
  obtain ⟨n, hn⟩ := t
  cases n with
  | zero => exact absurd (Nat.zero_mod _) h
  | succ n => exact if_neg h

/-! ## The region invariant -/

/-- The accumulator as a memref: a whole scoped buffer passed to the body beside the windows. -/
abbrev scM2 : Memref sig .tc .vmem S512x2048 .f32 := Memref.whole cc2_scratch0

/-- The core's scoped buffers other than the accumulator that are no staging buffer of this call, each whole at
    some contents: the body touches none of them. -/
def rest2 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_scratch0), ((c : Thread nD τ).loc cc0_scratch0) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f))

/-- The invariant before position n: before the first point what the launch hands the region (every scoped
    buffer that is no staging buffer at anything, the generator register at some state); afterwards the same with
    the accumulator at what the point before left in it. -/
def PhiS2 (c : Dev nD) : (n : ℕ) → n ≤ cfg2.N → sProp 𝕄
  | 0, _ => Pipeline.ΦA spec2 c
  | n + 1, hn => iprop((owns (c : Thread nD τ) scM2 fullShare (acc2 V c n hn) ∗ rest2 (F := F) c) ∗ (∃ r, prngReg c r))

/-! ## The proof data -/

/-- The proof data of this region on core c: the arrays as the region finds them; after the body at point t
    each input's buffer at its block and the output's at the accumulator's contents converted; the invariant
    PhiS2; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => k2_pay3 (acc2 V c t.val t.isLt)
  Φ t := PhiS2 V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = k2_pay3 (acc2 V c t.val t.isLt) := by dsimp only [dat2]

/-! ## The body's branch conditions, in closed form -/

/-- The condition of the body's first branch (the accumulator is zeroed): the last grid coordinate is 0. -/
abbrev cond2_0 (i : grid2.Coords) : Prop := (Scalar.cmpi .ne (Scalar.extui (Scalar.cmpi .eq (BitVec.ofNat 32 (i 3).val) 0#32)) 0#32) = 1#1
/-- It holds at the points ≡ 0 (mod 4): decided over the grid. -/
theorem hcond2_0 : ∀ t : Fin cfg2.N, cond2_0 (grid2.coords t) ↔ t.val % 4 = 0 :=
  (by decide +kernel : ∀ t : Fin grid2.N, cond2_0 (grid2.coords t) ↔ t.val % 4 = 0)

/-- The condition of the body's second branch (the output block is stored): the last grid coordinate is 3. -/
abbrev cond2_1 (i : grid2.Coords) : Prop := k2_cond2 i = 1#1
/-- It holds at the points ≡ 3 (mod 4): decided over the grid. -/
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle -/

/-- The input windows are never idle. -/
theorem liveAt2_0 : ∀ t : Fin cfg2.N, cfg2.idle 0 (grid2.coords t) = false := fun _ => rfl
theorem liveAt2_1 : ∀ t : Fin cfg2.N, cfg2.idle 1 (grid2.coords t) = false := fun _ => rfl
/-- Where the second branch is not taken the output window is idle, -/
theorem idleAt2_2 : ∀ t : Fin cfg2.N, ¬cond2_1 (grid2.coords t) → cfg2.idle 2 (grid2.coords t) = true := by decide +kernel
/-- and its block is not written back there; -/
theorem noFlush2_2 : ∀ t : Fin cfg2.N, ¬cond2_1 (grid2.coords t) → (cfg2.win 2).flush t = false := by decide +kernel
/-- where it is taken the window is live. -/
theorem liveAt2_2 : ∀ t : Fin cfg2.N, cond2_1 (grid2.coords t) → cfg2.idle 2 (grid2.coords t) = false := by decide +kernel

/-! ## Whole-buffer accesses -/

/-- The offsets of a whole-buffer access, however many axes, are all zero. -/
theorem off2_zero_r2 : (![0, 0] : Fin 2 → ℕ) = fun _ => 0 := by funext a; fin_cases a <;> rfl
theorem off3_zero_r2 : (![0, 0, 0] : Fin 3 → ℕ) = fun _ => 0 := by funext a; fin_cases a <;> rfl

set_option maxHeartbeats 1000000 in
/-- The body at a point with k = 0, on whole memrefs: the inputs at their contents, the output's buffer at any
    contents (handed back untouched: nothing is stored there), the accumulator at anything. The accumulator is
    first stored whole with zeros, so the whole-buffer load that follows reads zeros; the body runs to the
    continuation holding the accumulator at the product of the blocks added to zeros. -/
theorem sound_kernel2_A (c : Dev nD) (E : Set ℕ) (i : grid2.Coords)
    (arg4 : Memref sig .tc .vmem S1x512x512 .bf16) (harg4 : arg4.IsWhole) (arg5 : Memref sig .tc .vmem S512x2048 .bf16) (harg5 : arg5.IsWhole)
    (arg6 : Memref sig .tc .vmem S1x512x2048 .f32) (harg6 : arg6.IsWhole) (arg7 : Memref sig .tc .vmem S512x2048 .f32) (harg7 : arg7.IsWhole)
    (hc0 : cond2_0 i) (hc1 : ¬cond2_1 i)
    (x0 : Vec F S1x512x512 .bf16) (x1 : Vec F S512x2048 .bf16) (xi2 : Vec F S1x512x2048 .f32) (K : PUnit → sProp 𝕄) :
    iprop(owns (c : Thread nD τ) arg4 fullShare x0 ∗ owns (c : Thread nD τ) arg5 fullShare x1 ∗ owns (c : Thread nD τ) arg6 fullShare xi2
        ∗ (∃ d, owns (c : Thread nD τ) arg7 fullShare d)
        ∗ (iprop(owns (c : Thread nD τ) arg4 fullShare x0 ∗ owns (c : Thread nD τ) arg5 fullShare x1 ∗ owns (c : Thread nD τ) arg6 fullShare xi2
            ∗ owns (c : Thread nD τ) arg7 fullShare (k2_pay2 x0 x1 (k2_pay1 (F := F)))) -∗ K ⟨⟩))
      ⊢ wp frame (wpE (defs₀ (F := F)) Variants.none c none) E (cc2_kernel i arg4 harg4 arg5 harg5 arg6 harg6 arg7 harg7) K := by
  simp only [cc2_kernel_eq_skeleton]; unfold cc2_kernel_skel
  unfold owns
  iintro ⟨⟨%f0, %hf0, H0⟩, ⟨%f1, %hf1, H1⟩, ⟨%f2, %hf2, H2⟩, ⟨%ds, %fs, -, HS⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; exact hf2
    iexact H2
  iexists _; isplitr
  swap; · iexact HS
  ipureintro
  sl_unfold_run_names
  rw [View.read_writes_eq_canon _ _ _ (fun y => ⟨_, List.mem_cons.mpr (Or.inl rfl), View.mem_set_unit_zero off2_zero_r2 inb_S512x2048_S512x2048_0_0 y⟩),
    View.canon_cons_unit_zero off2_zero_r2, View.readCov_unit_zero _ off2_zero_r2]
  simp only [View.readAt_eq_ld]
  rw [View.ld_unit_zero off3_zero_r2, View.ld_unit_zero off2_zero_r2]

set_option maxHeartbeats 1000000 in
/-- The body at a point with 0 < k < 3, on whole memrefs: the inputs at their contents, the output's buffer at any
    contents (handed back untouched: nothing is stored there), the accumulator at the contents xs the point before
    left. It runs to the continuation holding the accumulator at the product of the blocks added to xs. -/
theorem sound_kernel2_B (c : Dev nD) (E : Set ℕ) (i : grid2.Coords)
    (arg4 : Memref sig .tc .vmem S1x512x512 .bf16) (harg4 : arg4.IsWhole) (arg5 : Memref sig .tc .vmem S512x2048 .bf16) (harg5 : arg5.IsWhole)
    (arg6 : Memref sig .tc .vmem S1x512x2048 .f32) (harg6 : arg6.IsWhole) (arg7 : Memref sig .tc .vmem S512x2048 .f32) (harg7 : arg7.IsWhole)
    (hc0 : ¬cond2_0 i) (hc1 : ¬cond2_1 i)
    (x0 : Vec F S1x512x512 .bf16) (x1 : Vec F S512x2048 .bf16) (xi2 : Vec F S1x512x2048 .f32) (xs : Vec F S512x2048 .f32) (K : PUnit → sProp 𝕄) :
    iprop(owns (c : Thread nD τ) arg4 fullShare x0 ∗ owns (c : Thread nD τ) arg5 fullShare x1 ∗ owns (c : Thread nD τ) arg6 fullShare xi2
        ∗ owns (c : Thread nD τ) arg7 fullShare xs
        ∗ (iprop(owns (c : Thread nD τ) arg4 fullShare x0 ∗ owns (c : Thread nD τ) arg5 fullShare x1 ∗ owns (c : Thread nD τ) arg6 fullShare xi2
            ∗ owns (c : Thread nD τ) arg7 fullShare (k2_pay2 x0 x1 xs)) -∗ K ⟨⟩))
      ⊢ wp frame (wpE (defs₀ (F := F)) Variants.none c none) E (cc2_kernel i arg4 harg4 arg5 harg5 arg6 harg6 arg7 harg7) K := by
  simp only [cc2_kernel_eq_skeleton]; unfold cc2_kernel_skel
  unfold owns
  iintro ⟨⟨%f0, %hf0, H0⟩, ⟨%f1, %hf1, H1⟩, ⟨%f2, %hf2, H2⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; exact hf2
    iexact H2
  iexists _; isplitr
  swap; · iexact HS
  ipureintro
  rw [View.read_writes_eq_canon _ _ _ (fun y => ⟨_, List.mem_singleton_self _, View.mem_set_unit_zero off2_zero_r2 inb_S512x2048_S512x2048_0_0 y⟩),
    View.canon_unit_zero off2_zero_r2]
  simp only [View.readAt_eq_ld]
  rw [View.ld_unit_zero off3_zero_r2, View.ld_unit_zero off2_zero_r2, View.ld_unit_zero off2_zero_r2]

set_option maxHeartbeats 1000000 in
/-- The body at a point with k = 3, on whole memrefs: the inputs at their contents, the output's buffer at
    anything, the accumulator at the contents xs the point before left. After the accumulation the accumulator is
    loaded whole (it reads what was just stored) and its contents are stored over the whole output buffer. -/
theorem sound_kernel2_C (c : Dev nD) (E : Set ℕ) (i : grid2.Coords)
    (arg4 : Memref sig .tc .vmem S1x512x512 .bf16) (harg4 : arg4.IsWhole) (arg5 : Memref sig .tc .vmem S512x2048 .bf16) (harg5 : arg5.IsWhole)
    (arg6 : Memref sig .tc .vmem S1x512x2048 .f32) (harg6 : arg6.IsWhole) (arg7 : Memref sig .tc .vmem S512x2048 .f32) (harg7 : arg7.IsWhole)
    (hc0 : ¬cond2_0 i) (hc1 : cond2_1 i)
    (x0 : Vec F S1x512x512 .bf16) (x1 : Vec F S512x2048 .bf16) (xs : Vec F S512x2048 .f32) (K : PUnit → sProp 𝕄) :
    iprop(owns (c : Thread nD τ) arg4 fullShare x0 ∗ owns (c : Thread nD τ) arg5 fullShare x1 ∗ (∃ d, owns (c : Thread nD τ) arg6 fullShare d)
        ∗ owns (c : Thread nD τ) arg7 fullShare xs
        ∗ (iprop(owns (c : Thread nD τ) arg4 fullShare x0 ∗ owns (c : Thread nD τ) arg5 fullShare x1
            ∗ owns (c : Thread nD τ) arg6 fullShare (k2_pay3 (k2_pay2 x0 x1 xs))
            ∗ owns (c : Thread nD τ) arg7 fullShare (k2_pay2 x0 x1 xs)) -∗ K ⟨⟩))
      ⊢ wp frame (wpE (defs₀ (F := F)) Variants.none c none) E (cc2_kernel i arg4 harg4 arg5 harg5 arg6 harg6 arg7 harg7) K := by
  simp only [cc2_kernel_eq_skeleton]; unfold cc2_kernel_skel
  unfold owns
  iintro ⟨⟨%f0, %hf0, H0⟩, ⟨%f1, %hf1, H1⟩, ⟨%d2, %f2, -, H2⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [View.read_writes_eq_canon _ _ _ (fun y => ⟨_, List.mem_singleton_self _, View.mem_set_unit_zero off3_zero_r2 inb_S1x512x2048_S1x512x2048_0_0_0 y⟩),
      View.canon_unit_zero off3_zero_r2, View.readCov_unit_zero _ off2_zero_r2]
    simp only [View.readAt_eq_ld]
    rw [View.ld_unit_zero off3_zero_r2, View.ld_unit_zero off2_zero_r2, View.ld_unit_zero off2_zero_r2]
  iexists _; isplitr
  swap; · iexact HS
  ipureintro
  sl_unfold_run_names
  rw [View.read_writes_eq_canon _ _ _ (fun y => ⟨_, List.mem_singleton_self _, View.mem_set_unit_zero off2_zero_r2 inb_S512x2048_S512x2048_0_0 y⟩),
    View.canon_unit_zero off2_zero_r2]
  simp only [View.readAt_eq_ld]
  rw [View.ld_unit_zero off3_zero_r2, View.ld_unit_zero off2_zero_r2, View.ld_unit_zero off2_zero_r2]

/-! ## The invariant, restated -/

/-- What the launch hands the region, with the accumulator split off as a memref owned at some contents (the
    launch lists the accumulator last among the scoped buffers: the conjuncts are reordered). -/
theorem PhiA2_eq (c : Dev nD) :
    (Pipeline.ΦA spec2 c : sProp 𝕄)
      = iprop(((∃ d, owns (c : Thread nD τ) scM2 fullShare d) ∗ rest2 (F := F) c) ∗ (∃ r, prngReg c r)) := by
  unfold Pipeline.ΦA rest2; rw [scopedRest2_eq]; simp only [scM2, owns_whole]
  refine BI.equiv_iff.mp ⟨?_, ?_⟩
  · show (_ : sProp 𝕄) ⊢ (_ : sProp 𝕄)
    iintro ⟨⟨R1, R2, R3, R4, R5, R6, R7, R8, R9, R10, R11, R12, R13, R14, R15, HS⟩, Hg⟩
    isplitl [HS R1 R2 R3 R4 R5 R6 R7 R8 R9 R10 R11 R12 R13 R14 R15]
    · isplitl [HS]; · iexact HS
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R10]; · iexact R10
      isplitl [R11]; · iexact R11
      isplitl [R12]; · iexact R12
      isplitl [R13]; · iexact R13
      isplitl [R14]; · iexact R14
      iexact R15
    iexact Hg
  · show (_ : sProp 𝕄) ⊢ (_ : sProp 𝕄)
    iintro ⟨⟨HS, R1, R2, R3, R4, R5, R6, R7, R8, R9, R10, R11, R12, R13, R14, R15⟩, Hg⟩
    isplitl [HS R1 R2 R3 R4 R5 R6 R7 R8 R9 R10 R11 R12 R13 R14 R15]
    · isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R10]; · iexact R10
      isplitl [R11]; · iexact R11
      isplitl [R12]; · iexact R12
      isplitl [R13]; · iexact R13
      isplitl [R14]; · iexact R14
      isplitl [R15]; · iexact R15
      iexact HS
    iexact Hg

theorem PhiS2_zero (c : Dev nD) (n : ℕ) (h : n ≤ cfg2.N) (hz : n = 0) : PhiS2 V c n h = Pipeline.ΦA spec2 c := by
  subst hz; rfl

/-- After point n (before point n + 1): the accumulator at that point's contents. -/
theorem PhiS2_succ (c : Dev nD) (n : ℕ) (hn : n < cfg2.N) :
    PhiS2 V c (n + 1) hn = iprop((owns (c : Thread nD τ) scM2 fullShare (acc2 V c n hn) ∗ rest2 (F := F) c) ∗ (∃ r, prngReg c r)) := rfl

/-- Before a point that is not the first: the accumulator at what the point before left. -/
theorem PhiS2_pos (c : Dev nD) (n : ℕ) (h : n ≤ cfg2.N) (hz : n ≠ 0) :
    PhiS2 V c n h = iprop((owns (c : Thread nD τ) scM2 fullShare (acc2 V c (n - 1) (by omega)) ∗ rest2 (F := F) c) ∗ (∃ r, prngReg c r)) := by
  cases n with
  | zero => exact absurd rfl hz
  | succ n => rfl

/-- The invariant at a point's start, restated at the point's position. -/
theorem PhiS2_castSucc (c : Dev nD) (t : Fin cfg2.N) :
    (dat2 V c).Φ t.castSucc = PhiS2 V c t.val (Nat.le_of_lt t.isLt) := by
  dsimp only [dat2]; simp only [Fin.coe_castSucc]

/-! ## What the body finds in the input windows' buffers -/

/-- An input window's current staging buffer holds its block at every point, fetched there or not (an unfetched
    input's block index has not moved), for any proof data whose array is V's and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- Each window's current staging memref at point t, spelled as the pipeline passes it, and its wholeness. -/
abbrev ms2_0 (t : Fin cfg2.N) : Memref sig .tc .vmem S1x512x512 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x2048 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x512x2048 .f32 := win2_2.stage (cfg2.slots t 2)
abbrev hs2_2 (t : Fin cfg2.N) : (ms2_2 t).IsWhole := hstage2_2 ((cfg2.slots t 2).cast nbuf2_2)

/-- What the body is called with at point t (the obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point. The inputs' memrefs hold their blocks; the closed forms say which case the point is in.
    The invariant hands the body the accumulator at what the point before left (at anything at the first point, and
    then k = 0: it is zeroed before it is read), and takes it back at this point's contents; the other scoped buffers,
    the generator register and what the core owes pass through untouched. Where k < 3 the output's buffer is idle and
    handed back as found; at k = 3 it is left at the accumulator's contents converted. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  have hN : t.val < 32 := lt_of_lt_of_eq t.isLt (show cfg2.N = 32 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  by_cases h0 : t.val % 4 = 0
  · have h1 : ¬t.val % 4 = 3 := by omega
    rw [Dat.leavesExact_idle (dat2 V c) 2 t (idleAt2_2 t (fun h => h1 ((hcond2_1 t).mp h))) (noFlush2_2 t (fun h => h1 ((hcond2_1 t).mp h)))]
    rw [acc2_reset V c t h0]
    by_cases hz : t.val = 0
    · rw [PhiS2_castSucc V c t, PhiS2_zero V c _ _ hz, PhiA2_eq]
      iintro ⟨⟨⟨HS, Hrest⟩, Hg⟩, Ho, ⟨%d0, H0⟩, ⟨%d1, H1⟩, ⟨%d2, H2⟩⟩
      iapply (sound_kernel2_A c Set.univ (grid2.coords t) _ _ _ _ _ _ _ _ ((hcond2_0 t).mpr h0) (fun h => h1 ((hcond2_1 t).mp h)) (iblk2 V c 0 t) (iblk2 V c 1 t) _ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2
    · rw [PhiS2_castSucc V c t, PhiS2_pos V c _ _ hz]
      iintro ⟨⟨⟨HS, Hrest⟩, Hg⟩, Ho, ⟨%d0, H0⟩, ⟨%d1, H1⟩, ⟨%d2, H2⟩⟩
      iapply (sound_kernel2_A c Set.univ (grid2.coords t) _ _ _ _ _ _ _ _ ((hcond2_0 t).mpr h0) (fun h => h1 ((hcond2_1 t).mp h)) (iblk2 V c 0 t) (iblk2 V c 1 t) _ _)
      isplitl [H0]; · iexact H0
      isplitl [H1]; · iexact H1
      isplitl [H2]; · iexact H2
      isplitl [HS]; · iexists _; iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2
  · have hz : t.val ≠ 0 := fun h => h0 (by rw [h])
    rw [acc2_step V c t h0]
    rw [PhiS2_castSucc V c t, PhiS2_pos V c _ _ hz]
    by_cases h1 : t.val % 4 = 3
    · rw [show (dat2 V c).leavesExact 2 t = owns (c : Thread nD τ) (ms2_2 t) fullShare ((dat2 V c).after 2 t) from by
        unfold Dat.leavesExact; rw [liveAt2_2 t ((hcond2_1 t).mpr h1)], after2_2]
      rw [acc2_step V c t h0]
      iintro ⟨⟨⟨HS, Hrest⟩, Hg⟩, Ho, ⟨%d0, H0⟩, ⟨%d1, H1⟩, ⟨%d2, H2⟩⟩
      iapply (sound_kernel2_C c Set.univ (grid2.coords t) _ _ _ _ _ _ _ _ (fun h => h0 ((hcond2_0 t).mp h)) ((hcond2_1 t).mpr h1) (iblk2 V c 0 t) (iblk2 V c 1 t) _ _)
      isplitl [H0]; · iexact H0
      isplitl [H1]; · iexact H1
      isplitl [H2]; · iexists _; iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexact H2
    · rw [Dat.leavesExact_idle (dat2 V c) 2 t (idleAt2_2 t (fun h => h1 ((hcond2_1 t).mp h))) (noFlush2_2 t (fun h => h1 ((hcond2_1 t).mp h)))]
      iintro ⟨⟨⟨HS, Hrest⟩, Hg⟩, Ho, ⟨%d0, H0⟩, ⟨%d1, H1⟩, ⟨%d2, H2⟩⟩
      iapply (sound_kernel2_B c Set.univ (grid2.coords t) _ _ _ _ _ _ _ _ (fun h => h0 ((hcond2_0 t).mp h)) (fun h => h1 ((hcond2_1 t).mp h)) (iblk2 V c 0 t) (iblk2 V c 1 t) _ _ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point the invariant gives it back: the accumulator's contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS, Hrest⟩, Hg⟩
  isplitl [HS Hrest]
  · isplitl [HS]
    · iexists _; iexact HS
    iexact Hrest
  iexact Hg

/-- The same after the last point. -/
theorem hout2 (c : Dev nD) : (dat2 V c).Φ (Fin.last cfg2.N) ⊢ Pipeline.ΦA spec2 c :=
  Phi_out2 V c _ (by rw [Fin.val_last]; have : cfg2.N = 32 := N_2; omega)

end Cert.KernelIdeal.Hand

end
-- ==== Proof.KI.Assembly.lean ====
/-
  The three kernel regions run one after the other.

  Between two items of the program every unscoped buffer of a core is held whole at a named valuation: the launch
  contents, then those after the host's layout operations, then — region by region — the same with the region's
  result array replaced by what its write-backs leave (the fold of the flushed blocks over the array as entered).
  Each region's proof data are stated at the valuation the region is entered from, so the last result array is a
  function of the launch contents alone, and every argument array is never written: it ends as launched.
-/
import proofs.«178252_j78915729097147_2_alg».proof.Proof.KI.Base
import proofs.«178252_j78915729097147_2_alg».proof.Proof.KI.Region0
import proofs.«178252_j78915729097147_2_alg».proof.Proof.KI.Region1
import proofs.«178252_j78915729097147_2_alg».proof.Proof.KI.Region2
import proofs.«178252_j78915729097147_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items -/

/-- What region 0 leaves in its result array: the fold of its write-backs. -/
def o2 (c : Dev nD) : Buf (Elt F) ((c : Thread nD τ).loc main_v8) := (dat0 (U1 m) c).arrAt 2 cfg0.N
/-- After region 0. -/
def W2 (c : Dev nD) : Valuation τ sig (Elt F) := Function.update (W1 m c) main_v8 (o2 m c)
abbrev U2 : (c : Dev nD) → (b : Ref sig .tc) → Buf (Elt F) ((c : Thread nD τ).loc b) := fun c b => W2 m c b
/-- What region 1 leaves in its result array. -/
def o3 (c : Dev nD) : Buf (Elt F) ((c : Thread nD τ).loc main_v9) := (dat1 (U2 m) c).arrAt 3 cfg1.N
/-- After region 1. -/
def W3 (c : Dev nD) : Valuation τ sig (Elt F) := Function.update (W2 m c) main_v9 (o3 m c)
abbrev U3 : (c : Dev nD) → (b : Ref sig .tc) → Buf (Elt F) ((c : Thread nD τ).loc b) := fun c b => W3 m c b
/-- What region 2 leaves in its result array. -/
def o4 (c : Dev nD) : Buf (Elt F) ((c : Thread nD τ).loc main_v10) := (dat2 (U3 m) c).arrAt 2 cfg2.N
/-- After region 2. -/
def W4 (c : Dev nD) : Valuation τ sig (Elt F) := Function.update (W3 m c) main_v10 (o4 m c)
abbrev U4 : (c : Dev nD) → (b : Ref sig .tc) → Buf (Elt F) ((c : Thread nD τ).loc b) := fun c b => W4 m c b

theorem W2_v8 (c : Dev nD) : U2 m c main_v8 = o2 m c := by unfold U2 W2; exact Function.update_self ..
theorem W2_of_ne (c : Dev nD) (b : Ref sig .tc) (h : b ≠ main_v8) : U2 m c b = U1 m c b := by
  unfold U2 U1 W2; exact Function.update_of_ne (StableHlo.devRef_ne_of_ne h) ..
theorem W3_v9 (c : Dev nD) : U3 m c main_v9 = o3 m c := by unfold U3 W3; exact Function.update_self ..
theorem W3_of_ne (c : Dev nD) (b : Ref sig .tc) (h : b ≠ main_v9) : U3 m c b = U2 m c b := by
  unfold U3 U2 W3; exact Function.update_of_ne (StableHlo.devRef_ne_of_ne h) ..
theorem W4_v10 (c : Dev nD) : U4 m c main_v10 = o4 m c := by unfold U4 W4; exact Function.update_self ..
theorem W4_of_ne (c : Dev nD) (b : Ref sig .tc) (h : b ≠ main_v10) : U4 m c b = U3 m c b := by
  unfold U4 U3 W4; exact Function.update_of_ne (StableHlo.devRef_ne_of_ne h) ..

/-- An argument array is written by no item. -/
theorem W4_arg (c : Dev nD) (r : Ref sig .tc) (h10 : r ≠ main_v10) (h9 : r ≠ main_v9) (h8 : r ≠ main_v8) (hh : r ∉ hostOps0_W) :
    U4 m c r = m ((c : Thread nD τ).loc r) :=
  (W4_of_ne m c r h10).trans <| (W3_of_ne m c r h9).trans <| (W2_of_ne m c r h8).trans <| (V1_of m c r hh).trans rfl

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U2 m) c
  | ⟨2, _⟩ => fun c => dat2 (U3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core's debts, none. -/
abbrev R (c : Dev nD) : sProp 𝕄 := iprop((∃ r, prngReg c r) ∗ ∃ W, owes (c : Thread nD τ) (0 : CellTallies nD τ sig Unit) W)
/-- The host's layout operations as one item. -/
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts. -/
abbrev Tₙ (c : Dev nD) : sProp 𝕄 := iprop(StableHlo.held (c : Thread nD τ) (Pipeline.ucRefs τ sig) (W4 m c) ∗ ∃ r, prngReg c r)

/-! ## What each region's arrays hold at its exit -/

theorem hF0 (c : Dev nD) (w : Fin cfg0.W) : (dat0 (U1 m) c).arrAt w cfg0.N = U2 m c (Pipeline.arrRef spec0 w) :=
  match w with
  | ⟨0, _⟩ => ((dat0 (U1 m) c).arrAt_in 0 rfl _).trans ((A_eq0 (U1 m) c 0).trans (W2_of_ne m c main_v0 (by decide)).symm)
  | ⟨1, _⟩ => ((dat0 (U1 m) c).arrAt_in 1 rfl _).trans ((A_eq0 (U1 m) c 1).trans (W2_of_ne m c main_v5 (by decide)).symm)
  | ⟨2, _⟩ => (W2_v8 m c).symm
theorem hrest0 (c : Dev nD) : ∀ b, b ∉ Finset.univ.image (Pipeline.arrRef spec0) → U2 m c b = U1 m c b :=
  fun b hb => W2_of_ne m c b fun e => hb (Finset.mem_image.mpr ⟨2, Finset.mem_univ _, e.symm⟩)
theorem hF2 (c : Dev nD) (w : Fin cfg2.W) : (dat2 (U3 m) c).arrAt w cfg2.N = U4 m c (Pipeline.arrRef spec2 w) :=
  match w with
  | ⟨0, _⟩ => ((dat2 (U3 m) c).arrAt_in 0 rfl _).trans ((A_eq2 (U3 m) c 0).trans (W4_of_ne m c main_v9 (by decide)).symm)
  | ⟨1, _⟩ => ((dat2 (U3 m) c).arrAt_in 1 rfl _).trans ((A_eq2 (U3 m) c 1).trans (W4_of_ne m c main_v7 (by decide)).symm)
  | ⟨2, _⟩ => (W4_v10 m c).symm
theorem hrest2 (c : Dev nD) : ∀ b, b ∉ Finset.univ.image (Pipeline.arrRef spec2) → U4 m c b = U3 m c b :=
  fun b hb => W4_of_ne m c b fun e => hb (Finset.mem_image.mpr ⟨2, Finset.mem_univ _, e.symm⟩)

/-- Region 1's invariant is the same before every point: what the launch hands the region. -/
theorem hin1 (V : (c : Dev nD) → (b : Ref sig .tc) → Buf (Elt F) ((c : Thread nD τ).loc b)) (c : Dev nD) :
    (Pipeline.ΦA spec1 c : sProp 𝕄) ⊢ (dat1 V c).Φ 0 := by
  rw [show (dat1 V c).Φ 0 = Pipeline.ΦA spec1 c from by dsimp only [dat1]]
theorem hout1 (V : (c : Dev nD) → (b : Ref sig .tc) → Buf (Elt F) ((c : Thread nD τ).loc b)) (c : Dev nD) :
    (dat1 V c).Φ (Fin.last cfg1.N) ⊢ (Pipeline.ΦA spec1 c : sProp 𝕄) := by
  rw [show (dat1 V c).Φ (Fin.last cfg1.N) = Pipeline.ΦA spec1 c from by dsimp only [dat1]]

/-! ## The regions as items -/

set_option backward.isDefEq.respectTransparency.types false in
/-- Region 0 over the thread state: entered from every unscoped buffer at the valuation before it, left at the
    valuation after it; its arrays split out of the unscoped buffers and put back at their final contents; the
    generator register into the invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) (fun w => A_eq0 (U1 m) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans ?_ (hin0 (U1 m) c)
    show (_ : sProp 𝕄) ⊢ _
    unfold Pipeline.ΦA
    iintro ⟨Hp, -, Hr⟩
    isplitl [Hr]; · iexact Hr
    iexact Hp
  hout c := by
    rw [Pipeline.ownSems0_none]
    refine BI.Entails.trans (hout0 (U1 m) c) ?_
    show (_ : sProp 𝕄) ⊢ _
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the valuation before it, left at the
    valuation after it; its arrays split out of the unscoped buffers and put back at their final contents; the
    generator register into the invariant and out; nothing owed; no semaphore of the kernel's own. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (U2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (U2 m c)
  hentry c := by
    rw [Pipeline.ownSems0_none]
    have hsplit := entry1 (U2 m) c (W2 m c) (fun _ => rfl)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans ?_ (hin1 (U2 m) c)
    show (_ : sProp 𝕄) ⊢ _
    unfold Pipeline.ΦA
    iintro ⟨Hp, -, Hr⟩
    isplitl [Hr]; · iexact Hr
    iexact Hp
  hout c := by
    rw [Pipeline.ownSems0_none]
    refine BI.Entails.trans (hout1 (U2 m) c) ?_
    show (_ : sProp 𝕄) ⊢ _
    unfold Pipeline.ΦA
    iintro ⟨Hr, Hp⟩
    isplitl [Hp]; · iexact Hp
    isplitr; · iempintro
    iexact Hr
  hexit c := by
    have hjoin := exit1 (U2 m) c (W2 m c) (fun _ => rfl)
    iintro ⟨Ha, HO, HY, Hrest⟩
    imodintro
    isplitl [Ha Hrest]
    · iapply hjoin
      isplitl [Ha]
      · iexact Ha
      iexact Hrest
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the valuation before it, left at the
    valuation after it; its arrays split out of the unscoped buffers and put back at their final contents; the
    generator register into the invariant and out; nothing owed; no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (U3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (U3 m c) (fun w => A_eq2 (U3 m) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans ?_ (hin2 (U3 m) c)
    show (_ : sProp 𝕄) ⊢ _
    unfold Pipeline.ΦA
    iintro ⟨Hp, -, Hr⟩
    isplitl [Hr]; · iexact Hr
    iexact Hp
  hout c := by
    rw [Pipeline.ownSems0_none]
    refine BI.Entails.trans (hout2 (U3 m) c) ?_
    show (_ : sProp 𝕄) ⊢ _
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (U3 m c) (U4 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as items, and the launch -/

abbrev segs : List (Pipeline.Seg (pcfgs (F := F)) adm (pdats m) () defs₀ 𝒱₀ L lv) :=
  [ .host (hseg0 m), .region (reg0 m), .region (reg1 m), .region (reg2 m) ]

theorem main_run (c : Dev nD) : main (F := F) c = Pipeline.Seg.run (segs m) := (main_chain c).trans (by chain_rfl)

set_option backward.isDefEq.respectTransparency.types false in
/-- From any memory with zero counters every weakly fair execution of the program terminates, nothing faulting, and
    ends with the result array at what the third region's write-backs leave and every argument array as launched. -/
theorem run_main : θ_run defs (onTc (τ := τ) (main (F := F))) ⟨m, fun _ => 0, ρ⟩ (fun r => ∀ c : Dev nD,
      r.2.mem ((c.tc : Thread nD τ).loc main_v10) = o4 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨(h c _ (mem_uc main_v10 (by decide))).trans (W4_v10 m c),
       (h c _ (mem_uc main_arg0 (by decide))).trans (W4_arg m c main_arg0 (by decide) (by decide) (by decide) (by decide)),
       (h c _ (mem_uc main_arg1 (by decide))).trans (W4_arg m c main_arg1 (by decide) (by decide) (by decide) (by decide)),
       (h c _ (mem_uc main_arg2 (by decide))).trans (W4_arg m c main_arg2 (by decide) (by decide) (by decide) (by decide)),
       (h c _ (mem_uc main_arg3 (by decide))).trans (W4_arg m c main_arg3 (by decide) (by decide) (by decide) (by decide)),
       (h c _ (mem_uc main_arg4 (by decide))).trans (W4_arg m c main_arg4 (by decide) (by decide) (by decide) (by decide))⟩)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_main m ρ)

end Cert.KernelIdeal.Hand

end
-- ==== Proof.Spec.lean ====
/-
  The mathematics both programs compute, as one function of the five argument arrays on the extended reals.

  With x of shape [2, 2048, 2048] and four weight matrices stored [out, in]:
  a projection is  proj x w (b, s, e) = Σ_k x (b, s, k) · w (e, k);
  the sixteen heads cut the 2048 channels into consecutive runs of 128; for head h the score of query row s
  against key row r is  (Σ_d q (b, s, 128 h + d) · k (b, r, 128 h + d)) · c  with c one fixed float word;
  a row of scores is turned into weights by subtracting its maximum, exponentiating and dividing by the row's sum;
  the attended value at channel j (of head j / 128) is  Σ_r weight (s, r) · v (b, r, j);
  the result is the projection of the attended values by the fourth matrix.
-/
import Idealize.ShloMosaic.PureOps.Ideal
import Idealize.ShloMosaic.Lib.ValueIdx

noncomputable section

namespace Cert.Spec

open Idealize.ShloMosaic Idealize.ShloMosaic.ValueIdx

/-- An array of shape [2, 2048, 2048] of extended reals. -/
abbrev Act : Type := (⟨3, ![2, 2048, 2048]⟩ : Shape).Idx → EReal
/-- A square matrix of side 2048. -/
abbrev Mat : Type := (⟨2, ![2048, 2048]⟩ : Shape).Idx → EReal

/-- `y = x wᵀ` at batch `b`, row `s`, output channel `e`. -/
def proj (x : Act) (w : Mat) (b : Fin 2) (s : Fin 2048) (e : Fin 2048) : EReal :=
  ∑ k : Fin 2048, x (ix3 b s k) * w (ix2 e k)

/-- Channel `128 h + d`: lane `d` of head `h`. -/
def chan (h : Fin 16) (d : Fin 128) : Fin 2048 := ⟨128 * h.val + d.val, by have := h.isLt; have := d.isLt; omega⟩

/-- The head a channel belongs to. -/
def headOf (j : Fin 2048) : Fin 16 := ⟨j.val / 128, by have := j.isLt; omega⟩

/-- The scale both programs multiply the scores by: one float word, read exactly. -/
def scale : EReal := Ideal.ofBits .f32 0x3DB504F3#32

/-- The scaled score of query row `s` against key row `r` in head `h` of batch `b`. -/
def score (x : Act) (wq wk : Mat) (b : Fin 2) (h : Fin 16) (s r : Fin 2048) : EReal :=
  (∑ d : Fin 128, proj x wq b s (chan h d) * proj x wk b r (chan h d)) * scale

/-- The maximum of a row of scores: the fold of `max` from `-∞`. -/
def rowMax (x : Act) (wq wk : Mat) (b : Fin 2) (h : Fin 16) (s : Fin 2048) : EReal :=
  (Finset.univ : Finset (Fin 2048)).fold max (Ideal.ofBits .f32 0xFF800000#32) (fun r => score x wq wk b h s r)

/-- The exponential of a score less its row's maximum. -/
def expo (x : Act) (wq wk : Mat) (b : Fin 2) (h : Fin 16) (s r : Fin 2048) : EReal :=
  Ideal.exp (score x wq wk b h s r - rowMax x wq wk b h s)

/-- A row's sum of exponentials. -/
def denom (x : Act) (wq wk : Mat) (b : Fin 2) (h : Fin 16) (s : Fin 2048) : EReal :=
  ∑ r : Fin 2048, expo x wq wk b h s r

/-- The attention weight of key row `r` for query row `s`. -/
def weight (x : Act) (wq wk : Mat) (b : Fin 2) (h : Fin 16) (s r : Fin 2048) : EReal :=
  Ideal.div (expo x wq wk b h s r) (denom x wq wk b h s)

/-- The attended value at batch `b`, row `s`, channel `j`. -/
def attn (x : Act) (wq wk wv : Mat) (b : Fin 2) (s : Fin 2048) (j : Fin 2048) : EReal :=
  ∑ r : Fin 2048, weight x wq wk b (headOf j) s r * proj x wv b r j

/-- The result at batch `b`, row `s`, output channel `e`. -/
def out (x : Act) (wq wk wv wo : Mat) (b : Fin 2) (s : Fin 2048) (e : Fin 2048) : EReal :=
  ∑ j : Fin 2048, attn x wq wk wv b s j * wo (ix2 e j)

/-- The whole result array. -/
def G (x : Act) (wq wk wv wo : Mat) : Act := fun i => out x wq wk wv wo (i 0) (i 1) (i 2)

theorem G_apply (x : Act) (wq wk wv wo : Mat) (b : Fin 2) (s e : Fin 2048) :
    G x wq wk wv wo (ix3 b s e) = out x wq wk wv wo b s e := rfl

end Cert.Spec

end
-- ==== Proof.KI.MidSpec.lean ====
/-
  The three kernel regions' result arrays as functions of the arrays each region reads, on the extended reals.

  Region 0: a [2, 2048, 2048] array times a [2048, 6144] matrix, row by row: entry (b, s, j) is Σ_k X (b, s, k) · W (k, j).
  Region 1: attention over the packed array Q of shape [2, 2048, 6144] — per batch and row, 2048 query channels, then
  2048 key channels, then 2048 value channels, each cut into sixteen heads of 128 lanes: entry (b, s, j) is
  Σ_r w (s, r) · Q (b, r, 4096 + j), where for the head of channel j the weights w (s, ·) are the exponentials of the
  scaled scores of row s less their maximum, divided by their sum.
  Region 2: a [2, 2048, 2048] array times a [2048, 2048] matrix, row by row.
-/
import proofs.«178252_j78915729097147_2_alg».proof.KernelIdeal
import proofs.«178252_j78915729097147_2_alg».proof.Proof.Spec
import Idealize.ShloMosaic.Lib.ValueIdx

noncomputable section

namespace Cert.KernelIdeal.Hand

open Cert.KernelIdeal Idealize.ShloMosaic Idealize.ShloMosaic.ValueIdx

/-! ## Region 0 -/

/-- Entry `(b, s, j)` of the product of a [2, 2048, 2048] array with a [2048, 6144] matrix. -/
def mm0 (X : S2x2048x2048.Idx → EReal) (Wm : S2048x6144.Idx → EReal) (b : Fin 2) (s : Fin 2048) (j : Fin 6144) : EReal :=
  ∑ k : Fin 2048, X (ix3 b s k) * Wm (ix2 k j)
/-- The whole product. -/
def G0 (X : S2x2048x2048.Idx → EReal) (Wm : S2048x6144.Idx → EReal) : S2x2048x6144.Idx → EReal :=
  fun i => mm0 X Wm (i 0) (i 1) (i 2)

/-! ## Region 1 -/

/-- Query channel of head `h`, lane `d`. -/
def qcol (h : Fin 16) (d : Fin 128) : Fin 6144 := ⟨128 * h.val + d.val, by have := h.isLt; have := d.isLt; omega⟩
/-- Key channel of head `h`, lane `d`. -/
def kcol (h : Fin 16) (d : Fin 128) : Fin 6144 := ⟨2048 + 128 * h.val + d.val, by have := h.isLt; have := d.isLt; omega⟩
/-- Value channel `j`. -/
def vcol (j : Fin 2048) : Fin 6144 := ⟨4096 + j.val, by have := j.isLt; omega⟩

/-- The scaled score of query row `s` against key row `r` in head `h`. -/
def sc1 (Q : S2x2048x6144.Idx → EReal) (b : Fin 2) (h : Fin 16) (s r : Fin 2048) : EReal :=
  (∑ d : Fin 128, Q (ix3 b s (qcol h d)) * Q (ix3 b r (kcol h d))) * Cert.Spec.scale
/-- A row's largest score. -/
def mx1 (Q : S2x2048x6144.Idx → EReal) (b : Fin 2) (h : Fin 16) (s : Fin 2048) : EReal :=
  (Finset.univ : Finset (Fin 2048)).fold max (Ideal.ofBits .f32 0xFF800000#32) (fun r => sc1 Q b h s r)
/-- The exponential of a score less its row's largest. -/
def ex1 (Q : S2x2048x6144.Idx → EReal) (b : Fin 2) (h : Fin 16) (s r : Fin 2048) : EReal :=
  Ideal.exp (sc1 Q b h s r - mx1 Q b h s)
/-- The attended value at row `s`, channel `j`. -/
def att1 (Q : S2x2048x6144.Idx → EReal) (b : Fin 2) (s : Fin 2048) (j : Fin 2048) : EReal :=
  ∑ r : Fin 2048, Ideal.div (ex1 Q b (Cert.Spec.headOf j) s r) (∑ r' : Fin 2048, ex1 Q b (Cert.Spec.headOf j) s r') * Q (ix3 b r (vcol j))
/-- The whole result array. -/
def G1 (Q : S2x2048x6144.Idx → EReal) : S2x2048x2048.Idx → EReal := fun i => att1 Q (i 0) (i 1) (i 2)

/-! ## Region 2 -/

/-- Entry `(b, s, e)` of the product of a [2, 2048, 2048] array with a [2048, 2048] matrix. -/
def mm2 (X : S2x2048x2048.Idx → EReal) (Wm : S2048x2048.Idx → EReal) (b : Fin 2) (s : Fin 2048) (e : Fin 2048) : EReal :=
  ∑ k : Fin 2048, X (ix3 b s k) * Wm (ix2 k e)
/-- The whole product. -/
def G2 (X : S2x2048x2048.Idx → EReal) (Wm : S2048x2048.Idx → EReal) : S2x2048x2048.Idx → EReal :=
  fun i => mm2 X Wm (i 0) (i 1) (i 2)

end Cert.KernelIdeal.Hand

end
-- ==== Proof.LibMatmulRowCol.lean ====
/-
  A plain matrix product into a zero accumulator, read at an entry, at the ideal values.

  For any dimension numbers over an [M, K] left operand, a [K, N] right operand and an [M, N] result that
  contract the left operand's second axis against the right operand's first (stated as four coordinate facts
  about the dimension numbers' operand indices, which a literal record proves by unfolding), entry (p, c) of
  `matmul D none X W 0` is the sum over k of X p k · W k c. General in M, K, N and in both operand formats;
  nothing in it is specific to one kernel.
-/
import Idealize.ShloMosaic.Lib.ValueIdx
import Idealize.ShloMosaic.PureOps.Ideal.Laws

noncomputable section

namespace Cert.LibMatmul

open Idealize.ShloMosaic Idealize.ShloMosaic.ValueIdx

/-- For dimension numbers contracting the left operand's columns against the right operand's rows
    (the four coordinate facts hl0 … hr1 say so), entry (p, c) of the product into a zero accumulator
    is Σ_k X p k · W k c. -/
theorem matmul_rowcol {M K N : Nat} {φ₁ φ₂ : FTy}
    (D : DotDims ⟨2, ![M, K]⟩ ⟨2, ![K, N]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (X : FVec Ideal ⟨2, ![M, K]⟩ φ₁) (W : FVec Ideal ⟨2, ![K, N]⟩ φ₂) (p : Fin M) (c : Fin N) :
    matmul D none X W (constant ⟨2, ![M, N]⟩ .f32 0x00000000#32) (ix2 p c)
      = ∑ k : Fin K, X (ix2 p k) * W (ix2 k c) := by
  refine (Ideal.matmul_constant_zero_apply D none X W (ix2 p c)).trans ?_
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.LibMatmul

end
-- ==== Proof.LibAxisReads.lean ====
/-
  Reductions of a matrix along one axis, and a product with a transposed right operand, read at an index at the
  ideal values.

  For an `[a, b]` matrix of extended reals: the sum down the rows at column `q` is `∑ k, x (k, q)`, the sum along a row
  `p` is `∑ k, x (p, k)`, and the maximum down the rows at column `q` is the fold of `max` from `-∞` over `k ↦ x (k, q)`.
  For dimension numbers that contract the second axis of an `[M, K]` left operand against the second axis of an
  `[N, K]` right operand (stated as four coordinate facts a literal record proves by unfolding), entry `(p, c)` of the
  product into a zero accumulator is `∑ k, X (p, k) · W (c, k)`. General in every extent; each accumulator
  hypothesis is an equation between two copies of one word (zero for a sum, `-∞` for a maximum).
-/
import Idealize.ShloMosaic.Lib.ValueIdx
import Idealize.ShloMosaic.PureOps.Ideal.Laws

noncomputable section

namespace Cert.Lib.AxisReads

open Idealize.ShloMosaic Idealize.ShloMosaic.ValueIdx

variable {a b : ℕ}

/-- Column `q` with row `k` put back is `(k, q)`. -/
theorem lift_axis0 (h : (⟨2, ![a, b]⟩ : Shape).Reduces [0] ⟨1, ![b]⟩) (q : Fin b)
    (k : Fin ((⟨2, ![a, b]⟩ : Shape).size 0)) : h.lift (ix1 q) k = ix2 (⟨k.val, k.isLt⟩ : Fin a) q := by
  funext c; apply Fin.ext
  fin_cases c <;> rfl

/-- Row `p` with column `k` put back is `(p, k)`. -/
theorem lift_axis1 (h : (⟨2, ![a, b]⟩ : Shape).Reduces [1] ⟨1, ![a]⟩) (p : Fin a)
    (k : Fin ((⟨2, ![a, b]⟩ : Shape).size 1)) : h.lift (ix1 p) k = ix2 p (⟨k.val, k.isLt⟩ : Fin b) := by
  funext c; apply Fin.ext
  fin_cases c <;> rfl

/-- The sum down the rows, at column `q`. -/
theorem sum_axis0 (src : FVec Ideal ⟨2, ![a, b]⟩ .f32) (h : (⟨2, ![a, b]⟩ : Shape).Reduces [0] ⟨1, ![b]⟩)
    (hφ : FKind.Formats .f32) (hacc : (0x00000000#32 : BitVec 32) = 0x00000000#32) (q : Fin b) :
    multiReduction .add [0] ⟨1, ![b]⟩ src 0x00000000#32 h hφ hacc (ix1 q) = ∑ k : Fin a, src (ix2 k q) := by
  refine (Ideal.multiReduction_add_single src 0x00000000#32 h hφ hacc (ix1 q)).trans ?_
  exact Finset.sum_congr rfl fun k _ => congrArg src (lift_axis0 h q k)

/-- The sum along row `p`. -/
theorem sum_axis1 (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_axis1 h p k)

/-- The maximum down the rows, at column `q`: the fold of `max` from `-∞`. -/
theorem max_axis0 (src : FVec Ideal ⟨2, ![a, b]⟩ .f32) (h : (⟨2, ![a, b]⟩ : Shape).Reduces [0] ⟨1, ![b]⟩)
    (hφ : FKind.Formats .f32) (hacc : (0xFF800000#32 : BitVec 32) = 0xFF800000#32) (q : Fin b) :
    multiReduction .maximumf [0] ⟨1, ![b]⟩ src 0xFF800000#32 h hφ hacc (ix1 q)
      = (Finset.univ : Finset (Fin a)).fold max (Ideal.ofBits .f32 0xFF800000#32) (fun k => src (ix2 k q)) := by
  refine (Ideal.multiReduction_maximumf_single src 0xFF800000#32 h hφ hacc (ix1 q)).trans ?_
  exact congrArg (fun f => Finset.fold max (Ideal.ofBits .f32 0xFF800000#32) f (Finset.univ : Finset (Fin a)))
    (funext fun k => congrArg src (lift_axis0 h q k))

/-- For dimension numbers contracting both operands' second axes (the four coordinate facts say so), entry `(p, c)`
    of the product into a zero accumulator is `∑ k, X (p, k) · W (c, k)`. -/
theorem matmul_rowrow {M K N : Nat} {φ₁ φ₂ : FTy}
    (D : DotDims ⟨2, ![M, K]⟩ ⟨2, ![N, K]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (i 1).val)
    (hr1 : ∀ i q, (D.rhsIdx i q 1).val = (q ⟨0, by omega⟩).val)
    (X : FVec Ideal ⟨2, ![M, K]⟩ φ₁) (W : FVec Ideal ⟨2, ![N, K]⟩ φ₂) (p : Fin M) (c : Fin N) :
    matmul D none X W (constant ⟨2, ![M, N]⟩ .f32 0x00000000#32) (ix2 p c)
      = ∑ k : Fin K, X (ix2 p k) * W (ix2 c k) := by
  refine (Ideal.matmul_constant_zero_apply D none X W (ix2 p c)).trans ?_
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 c k := funext fun a => Fin.ext (by
    match a with
    | ⟨0, _⟩ => exact hr0 _ _
    | ⟨1, _⟩ => exact (hr1 _ _).trans hk)
  rw [el, er]

end Cert.Lib.AxisReads

end
-- ==== Proof.LibColumn.lean ====
/-
  Column forms of two layout operations, read at an index.

  A vector of length `a` viewed as an `[a, 1]` column by a shape cast reads, at `(p, 0)`, the vector at `p`, and the column
  viewed back as a vector reads, at `p`, the column at `(p, 0)`; an `[a, 1]` column broadcast along its unit axis to `[a, b]`
  reads, at `(p, q)`, the column at `(p, 0)`. Together they are what a sum along the last axis that keeps the axis (a row
  sum stored as a column, then spread over the row) reads at an index.
-/
import Idealize.ShloMosaic.Lib.Pipeline.Value
import Idealize.ShloMosaic.Lib.ValueIdx

namespace Cert.Lib.Column

open Idealize.ShloMosaic Idealize.ShloMosaic.ValueIdx

variable {α : Type}

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column cast to `[a]` reads, at `p`, the column's entry of row `p`. -/
theorem shapeCast_a1_a_apply {a : ℕ} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

/-- An `[a, 1]` column broadcast to `[a, b]` reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.Lib.Column
-- ==== Proof.Pay.lean ====
/-
  The kernel bodies' arithmetic, read entry by entry on the extended reals.

  The two projection bodies hold three values: the zero block an accumulator starts from; the accumulator plus one
  [512, 512] × [512, 2048] block product, entry (p, q) being a (p, q) + Σ_k x (0, p, k) · w (k, q); and the accumulator
  written out as a [1, 512, 2048] block, entry (0, p, q) being a (p, q). The attention body holds one value: for a query
  block q [1, 512, 128] and key and value blocks k, v [1, 2048, 128], entry (0, p, d) is
  Σ_r (e (p, r) / Σ_r' e (p, r')) · v (0, r, d), where e (p, r) = exp (s (p, r) − max_r' s (p, r')) and
  s (p, r) = (Σ_d q (0, p, d) · k (0, r, d)) · c for the one fixed scale word c.

  Every change of float format is the identity on the extended reals, a product into the zero accumulator is a plain
  sum of products, and the leading unit axis of a block only renames the index.
-/
import proofs.«178252_j78915729097147_2_alg».proof.Proof.Gen.KernelIdeal.Skeleton
import proofs.«178252_j78915729097147_2_alg».proof.Proof.Spec
import proofs.«178252_j78915729097147_2_alg».proof.Proof.LibMatmulRowCol
import proofs.«178252_j78915729097147_2_alg».proof.Proof.LibAxisReads
import proofs.«178252_j78915729097147_2_alg».proof.Proof.LibColumn
import Idealize.ShloMosaic.Lib.ValueLayout

noncomputable section

namespace Cert.Pay

open Idealize.ShloMosaic Idealize.ShloMosaic.ValueIdx Cert.KernelIdeal Cert.KernelIdeal.Gen

/-! ## Two general readings -/

section General
variable {a b : ℕ}

/-- The maximum along row `p` of an `[a, b]` matrix: the fold of `max` from `-∞` over the row's entries. -/
theorem max_axis1 (src : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (p : Fin a) :
    multiReduction .maximumf [1] ⟨1, ![a]⟩ src 0xFF800000#32 h hφ hacc (ix1 p)
      = (Finset.univ : Finset (Fin b)).fold max (Ideal.ofBits .f32 0xFF800000#32) (fun k => src (ix2 p k)) := by
  refine (Ideal.multiReduction_maximumf_single src 0xFF800000#32 h hφ hacc (ix1 p)).trans ?_
  exact congrArg (fun f => Finset.fold max (Ideal.ofBits .f32 0xFF800000#32) f (Finset.univ : Finset (Fin b)))
    (funext fun k => congrArg src (Cert.Lib.AxisReads.lift_axis1 h p k))

end General

/-- A statistic of each of the 512 rows, kept as a [512, 1] column and spread back over the 2048 entries of the row,
    reads at `(p, r)` the statistic of row `p`. -/
theorem column_spread (c : FVec Ideal S512 .f32) (p : Fin 512) (r : Fin 2048) :
    broadcastTo S512x2048 (shapeCast S512x1 c shapeCasts_S512_S512x1) broadcasts_S512x1_S512x2048 (ix2 p r) = c (ix1 p) :=
  (Cert.Lib.Column.broadcastTo_a1_ab_apply _ broadcasts_S512x1_S512x2048 p r).trans
    (Cert.Lib.Column.shapeCast_a_a1_apply c shapeCasts_S512_S512x1 p (0 : Fin 1))

/-! ## The dimension numbers of the three products

Each contracts the left operand's second axis against the right operand's first: the left index of entry `i` at
contraction coordinate `q` is `(i 0, q)`, the right index is `(q, i 1)`. -/

theorem projDims_l0 (i : S512x2048.Idx) (q : dot_S512x512_S512x2048_S512x2048_1_0_0_1_n_n.contr.Idx) :
    (dot_S512x512_S512x2048_S512x2048_1_0_0_1_n_n.lhsIdx i q 0).val = (i 0).val := by
  unfold DotDims.lhsIdx
  rw [dif_neg (show ¬(0 : Fin S512x512.rank) ∈ dot_S512x512_S512x2048_S512x2048_1_0_0_1_n_n.lhsBatch by decide), dif_pos (show (0 : Fin S512x512.rank) ∈ dot_S512x512_S512x2048_S512x2048_1_0_0_1_n_n.lhsNonContracting by decide)]
  rfl

theorem projDims_l1 (i : S512x2048.Idx) (q : dot_S512x512_S512x2048_S512x2048_1_0_0_1_n_n.contr.Idx) :
    (dot_S512x512_S512x2048_S512x2048_1_0_0_1_n_n.lhsIdx i q 1).val = (q ⟨0, by decide⟩).val :=
  dot_S512x512_S512x2048_S512x2048_1_0_0_1_n_n.lhsIdx_val_of_single rfl i q

theorem projDims_r0 (i : S512x2048.Idx) (q : dot_S512x512_S512x2048_S512x2048_1_0_0_1_n_n.contr.Idx) :
    (dot_S512x512_S512x2048_S512x2048_1_0_0_1_n_n.rhsIdx i q 0).val = (q ⟨0, by decide⟩).val :=
  dot_S512x512_S512x2048_S512x2048_1_0_0_1_n_n.rhsIdx_val_of_single rfl i q

theorem projDims_r1 (i : S512x2048.Idx) (q : dot_S512x512_S512x2048_S512x2048_1_0_0_1_n_n.contr.Idx) :
    (dot_S512x512_S512x2048_S512x2048_1_0_0_1_n_n.rhsIdx i q 1).val = (i 1).val := by
  unfold DotDims.rhsIdx
  rw [dif_neg (show ¬(1 : Fin S512x2048.rank) ∈ dot_S512x512_S512x2048_S512x2048_1_0_0_1_n_n.rhsBatch by decide), dif_pos (show (1 : Fin S512x2048.rank) ∈ dot_S512x512_S512x2048_S512x2048_1_0_0_1_n_n.rhsNonContracting by decide)]
  rfl

theorem scoreDims_l0 (i : S512x2048.Idx) (q : dot_S512x128_S128x2048_S512x2048_1_0_0_1_n_n.contr.Idx) :
    (dot_S512x128_S128x2048_S512x2048_1_0_0_1_n_n.lhsIdx i q 0).val = (i 0).val := by
  unfold DotDims.lhsIdx
  rw [dif_neg (show ¬(0 : Fin S512x128.rank) ∈ dot_S512x128_S128x2048_S512x2048_1_0_0_1_n_n.lhsBatch by decide), dif_pos (show (0 : Fin S512x128.rank) ∈ dot_S512x128_S128x2048_S512x2048_1_0_0_1_n_n.lhsNonContracting by decide)]
  rfl

theorem scoreDims_l1 (i : S512x2048.Idx) (q : dot_S512x128_S128x2048_S512x2048_1_0_0_1_n_n.contr.Idx) :
    (dot_S512x128_S128x2048_S512x2048_1_0_0_1_n_n.lhsIdx i q 1).val = (q ⟨0, by decide⟩).val :=
  dot_S512x128_S128x2048_S512x2048_1_0_0_1_n_n.lhsIdx_val_of_single rfl i q

theorem scoreDims_r0 (i : S512x2048.Idx) (q : dot_S512x128_S128x2048_S512x2048_1_0_0_1_n_n.contr.Idx) :
    (dot_S512x128_S128x2048_S512x2048_1_0_0_1_n_n.rhsIdx i q 0).val = (q ⟨0, by decide⟩).val :=
  dot_S512x128_S128x2048_S512x2048_1_0_0_1_n_n.rhsIdx_val_of_single rfl i q

theorem scoreDims_r1 (i : S512x2048.Idx) (q : dot_S512x128_S128x2048_S512x2048_1_0_0_1_n_n.contr.Idx) :
    (dot_S512x128_S128x2048_S512x2048_1_0_0_1_n_n.rhsIdx i q 1).val = (i 1).val := by
  unfold DotDims.rhsIdx
  rw [dif_neg (show ¬(1 : Fin S128x2048.rank) ∈ dot_S512x128_S128x2048_S512x2048_1_0_0_1_n_n.rhsBatch by decide), dif_pos (show (1 : Fin S128x2048.rank) ∈ dot_S512x128_S128x2048_S512x2048_1_0_0_1_n_n.rhsNonContracting by decide)]
  rfl

theorem valueDims_l0 (i : S512x128.Idx) (q : dot_S512x2048_S2048x128_S512x128_1_0_0_1_n_n.contr.Idx) :
    (dot_S512x2048_S2048x128_S512x128_1_0_0_1_n_n.lhsIdx i q 0).val = (i 0).val := by
  unfold DotDims.lhsIdx
  rw [dif_neg (show ¬(0 : Fin S512x2048.rank) ∈ dot_S512x2048_S2048x128_S512x128_1_0_0_1_n_n.lhsBatch by decide), dif_pos (show (0 : Fin S512x2048.rank) ∈ dot_S512x2048_S2048x128_S512x128_1_0_0_1_n_n.lhsNonContracting by decide)]
  rfl

theorem valueDims_l1 (i : S512x128.Idx) (q : dot_S512x2048_S2048x128_S512x128_1_0_0_1_n_n.contr.Idx) :
    (dot_S512x2048_S2048x128_S512x128_1_0_0_1_n_n.lhsIdx i q 1).val = (q ⟨0, by decide⟩).val :=
  dot_S512x2048_S2048x128_S512x128_1_0_0_1_n_n.lhsIdx_val_of_single rfl i q

theorem valueDims_r0 (i : S512x128.Idx) (q : dot_S512x2048_S2048x128_S512x128_1_0_0_1_n_n.contr.Idx) :
    (dot_S512x2048_S2048x128_S512x128_1_0_0_1_n_n.rhsIdx i q 0).val = (q ⟨0, by decide⟩).val :=
  dot_S512x2048_S2048x128_S512x128_1_0_0_1_n_n.rhsIdx_val_of_single rfl i q

theorem valueDims_r1 (i : S512x128.Idx) (q : dot_S512x2048_S2048x128_S512x128_1_0_0_1_n_n.contr.Idx) :
    (dot_S512x2048_S2048x128_S512x128_1_0_0_1_n_n.rhsIdx i q 1).val = (i 1).val := by
  unfold DotDims.rhsIdx
  rw [dif_neg (show ¬(1 : Fin S2048x128.rank) ∈ dot_S512x2048_S2048x128_S512x128_1_0_0_1_n_n.rhsBatch by decide), dif_pos (show (1 : Fin S2048x128.rank) ∈ dot_S512x2048_S2048x128_S512x128_1_0_0_1_n_n.rhsNonContracting by decide)]
  rfl

/-! ## The projection bodies -/

/-- The block an accumulator starts from is zero everywhere (first projection). -/
theorem pay1_apply (i : S512x2048.Idx) : k0_pay1 (F := Ideal) i = 0 := by
  unfold k0_pay1
  exact (congrFun (shapeCast_self _ shapeCasts_S512x2048_S512x2048) i).trans Ideal.ofBits_zero_f32

/-- The block an accumulator starts from is zero everywhere (output projection). -/
theorem pay1_apply₂ (i : S512x2048.Idx) : k2_pay1 (F := Ideal) i = 0 := by
  unfold k2_pay1
  exact (congrFun (shapeCast_self _ shapeCasts_S512x2048_S512x2048) i).trans Ideal.ofBits_zero_f32

/-- One accumulation step of the first projection: the accumulator plus the block product. -/
theorem pay2_apply (x : FVec Ideal S1x512x512 .bf16) (w : FVec Ideal S512x2048 .bf16) (a : FVec Ideal S512x2048 .f32)
    (p : Fin 512) (q : Fin 2048) :
    k0_pay2 (F := Ideal) x w a (ix2 p q) = a (ix2 p q) + ∑ k : Fin 512, x (ix3 (0 : Fin 1) p k) * w (ix2 k q) := by
  unfold k0_pay2
  refine (congrFun (shapeCast_self _ shapeCasts_S512x2048_S512x2048) (ix2 p q)).trans ?_
  refine congrArg (fun t => a (ix2 p q) + t) ?_
  refine (Cert.LibMatmul.matmul_rowcol dot_S512x512_S512x2048_S512x2048_1_0_0_1_n_n rfl rfl
    projDims_l0 projDims_l1 projDims_r0 projDims_r1 _ _ p q).trans ?_
  refine Finset.sum_congr rfl fun k _ => ?_
  exact congrArg₂ (· * ·) (shapeCast_1ab_ab_apply x shapeCasts_S1x512x512_S512x512 p k)
    (congrFun (shapeCast_self w shapeCasts_S512x2048_S512x2048) (ix2 k q))

/-- One accumulation step of the output projection: the accumulator plus the block product. -/
theorem pay2_apply₂ (x : FVec Ideal S1x512x512 .bf16) (w : FVec Ideal S512x2048 .bf16) (a : FVec Ideal S512x2048 .f32)
    (p : Fin 512) (q : Fin 2048) :
    k2_pay2 (F := Ideal) x w a (ix2 p q) = a (ix2 p q) + ∑ k : Fin 512, x (ix3 (0 : Fin 1) p k) * w (ix2 k q) := by
  unfold k2_pay2
  refine (congrFun (shapeCast_self _ shapeCasts_S512x2048_S512x2048) (ix2 p q)).trans ?_
  refine congrArg (fun t => a (ix2 p q) + t) ?_
  refine (Cert.LibMatmul.matmul_rowcol dot_S512x512_S512x2048_S512x2048_1_0_0_1_n_n rfl rfl
    projDims_l0 projDims_l1 projDims_r0 projDims_r1 _ _ p q).trans ?_
  refine Finset.sum_congr rfl fun k _ => ?_
  exact congrArg₂ (· * ·) (shapeCast_1ab_ab_apply x shapeCasts_S1x512x512_S512x512 p k)
    (congrFun (shapeCast_self w shapeCasts_S512x2048_S512x2048) (ix2 k q))

/-- The accumulator written out as a [1, 512, 2048] block (first projection; the change of format is the identity). -/
theorem pay3_apply (a : FVec Ideal S512x2048 .f32) (p : Fin 512) (q : Fin 2048) :
    k0_pay3 (F := Ideal) a (ix3 (0 : Fin 1) p q) = a (ix2 p q) :=
  shapeCast_ab_1ab_apply _ shapeCasts_S512x2048_S1x512x2048 (0 : Fin 1) p q

/-- The accumulator written out as a [1, 512, 2048] block (output projection). -/
theorem pay3_apply₂ (a : FVec Ideal S512x2048 .f32) (p : Fin 512) (q : Fin 2048) :
    k2_pay3 (F := Ideal) a (ix3 (0 : Fin 1) p q) = a (ix2 p q) :=
  shapeCast_ab_1ab_apply _ shapeCasts_S512x2048_S1x512x2048 (0 : Fin 1) p q

/-! ## The attention tile -/

/-- The scaled score of query row `p` against key row `r` within one tile. -/
def tileScore (q : FVec Ideal S1x512x128 .bf16) (k : FVec Ideal S1x2048x128 .bf16) (p : Fin 512) (r : Fin 2048) : EReal :=
  (∑ d : Fin 128, q (ix3 (0 : Fin 1) p d) * k (ix3 (0 : Fin 1) r d)) * Cert.Spec.scale

/-- The maximum of row `p` of scores: the fold of `max` from `-∞`. -/
def tileMax (q : FVec Ideal S1x512x128 .bf16) (k : FVec Ideal S1x2048x128 .bf16) (p : Fin 512) : EReal :=
  (Finset.univ : Finset (Fin 2048)).fold max (Ideal.ofBits .f32 0xFF800000#32) (fun r => tileScore q k p r)

/-- The exponential of a score less its row's maximum. -/
def tileExp (q : FVec Ideal S1x512x128 .bf16) (k : FVec Ideal S1x2048x128 .bf16) (p : Fin 512) (r : Fin 2048) : EReal :=
  Ideal.exp (tileScore q k p r - tileMax q k p)
/-! ## The stages of the attention body, as arrays -/

/-- The scaled scores of a tile: the query block times the transposed key block, times the scale. -/
def scores (q : FVec Ideal S1x512x128 .bf16) (k : FVec Ideal S1x2048x128 .bf16) : FVec Ideal S512x2048 .f32 :=
  mulf (matmul dot_S512x128_S128x2048_S512x2048_1_0_0_1_n_n none
      (shapeCast S512x128 q shapeCasts_S1x512x128_S512x128)
      (transpose S128x2048 [1, 0] (shapeCast S2048x128 k shapeCasts_S1x2048x128_S2048x128) transposes_S2048x128_p1_0_S128x2048)
      (constant (F := Ideal) S512x2048 .f32 0x00000000#32))
    (broadcast S512x2048 (Scalar.ofBits (F := Ideal) .f32 0x3DB504F3#32))

theorem scores_apply (q : FVec Ideal S1x512x128 .bf16) (k : FVec Ideal S1x2048x128 .bf16) (p : Fin 512) (r : Fin 2048) :
    scores q k (ix2 p r) = tileScore q k p r := by
  unfold scores tileScore
  refine congrArg (fun t => t * Cert.Spec.scale) ?_
  refine (Cert.LibMatmul.matmul_rowcol dot_S512x128_S128x2048_S512x2048_1_0_0_1_n_n rfl rfl scoreDims_l0 scoreDims_l1 scoreDims_r0 scoreDims_r1 _ _ p r).trans ?_
  refine Finset.sum_congr rfl fun d _ => ?_
  exact congrArg₂ (· * ·) (shapeCast_1ab_ab_apply q shapeCasts_S1x512x128_S512x128 p d)
    ((transpose_ix2_apply _ transposes_S2048x128_p1_0_S128x2048 d r).trans
      (shapeCast_1ab_ab_apply k shapeCasts_S1x2048x128_S2048x128 r d))

/-- The exponentials of the scores less their row's maximum. -/
def exps (q : FVec Ideal S1x512x128 .bf16) (k : FVec Ideal S1x2048x128 .bf16) : FVec Ideal S512x2048 .f32 :=
  exp (subf (scores q k)
    (broadcastTo S512x2048
      (shapeCast S512x1 (multiReduction .maximumf [1] S512 (scores q k) 0xFF800000#32 reduces_S512x2048_S512 (.inl rfl) rfl)
        shapeCasts_S512_S512x1) broadcasts_S512x1_S512x2048))

theorem exps_apply (q : FVec Ideal S1x512x128 .bf16) (k : FVec Ideal S1x2048x128 .bf16) (p : Fin 512) (r : Fin 2048) :
    exps q k (ix2 p r) = tileExp q k p r := by
  unfold exps tileExp tileMax
  refine congrArg Ideal.exp ?_
  refine congrArg₂ (· - ·) (scores_apply q k p r) ?_
  refine (column_spread _ p r).trans ?_
  refine (max_axis1 (scores q k) reduces_S512x2048_S512 (.inl rfl) rfl p).trans ?_
  exact congrArg (fun f => Finset.fold max (Ideal.ofBits .f32 0xFF800000#32) f (Finset.univ : Finset (Fin 2048)))
    (funext fun r' => scores_apply q k p r')

/-- The attention weights: each exponential over its row's sum. -/
def weights (q : FVec Ideal S1x512x128 .bf16) (k : FVec Ideal S1x2048x128 .bf16) : FVec Ideal S512x2048 .f32 :=
  divf (exps q k)
    (broadcastTo S512x2048
      (shapeCast S512x1 (multiReduction .add [1] S512 (exps q k) 0x00000000#32 reduces_S512x2048_S512 (.inl rfl) rfl)
        shapeCasts_S512_S512x1) broadcasts_S512x1_S512x2048)

theorem weights_apply (q : FVec Ideal S1x512x128 .bf16) (k : FVec Ideal S1x2048x128 .bf16) (p : Fin 512) (r : Fin 2048) :
    weights q k (ix2 p r) = Ideal.div (tileExp q k p r) (∑ r' : Fin 2048, tileExp q k p r') := by
  unfold weights
  refine congrArg₂ Ideal.div (exps_apply q k p r) ?_
  refine (column_spread _ p r).trans ?_
  refine (Cert.Lib.AxisReads.sum_axis1 (exps q k) reduces_S512x2048_S512 (.inl rfl) rfl p).trans ?_
  exact Finset.sum_congr rfl fun r' _ => exps_apply q k p r'

/-- The attention body is the weights times the value block, written out as a [1, 512, 128] block. -/
theorem k1_pay1_eq (q : FVec Ideal S1x512x128 .bf16) (k v : FVec Ideal S1x2048x128 .bf16) :
    k1_pay1 (F := Ideal) q k v
      = shapeCast S1x512x128
          (truncf .bf16
            (matmul dot_S512x2048_S2048x128_S512x128_1_0_0_1_n_n none
              (truncf .bf16 (weights q k) bitsLt_bf16_f32)
              (shapeCast S2048x128 v shapeCasts_S1x2048x128_S2048x128)
              (constant (F := Ideal) S512x128 .f32 0x00000000#32)) bitsLt_bf16_f32)
          shapeCasts_S512x128_S1x512x128 := rfl

/-- The attention body at entry (0, p, d). -/
theorem k1_pay1_apply (q : FVec Ideal S1x512x128 .bf16) (k v : FVec Ideal S1x2048x128 .bf16) (p : Fin 512) (d : Fin 128) :
    k1_pay1 (F := Ideal) q k v (ix3 (0 : Fin 1) p d)
      = ∑ r : Fin 2048, Ideal.div (tileExp q k p r) (∑ r' : Fin 2048, tileExp q k p r') * v (ix3 (0 : Fin 1) r d) := by
  rw [k1_pay1_eq]
  refine (shapeCast_ab_1ab_apply _ shapeCasts_S512x128_S1x512x128 (0 : Fin 1) p d).trans ?_
  refine (Cert.LibMatmul.matmul_rowcol dot_S512x2048_S2048x128_S512x128_1_0_0_1_n_n rfl rfl valueDims_l0 valueDims_l1 valueDims_r0 valueDims_r1 _ _ p d).trans ?_
  refine Finset.sum_congr rfl fun r _ => ?_
  exact congrArg₂ (· * ·) (weights_apply q k p r) (shapeCast_1ab_ab_apply v shapeCasts_S1x2048x128_S2048x128 r d)

end Cert.Pay

end
-- ==== Proof.LibBlockSum.lean ====
/-
  A sum over `B * A` consecutive terms regrouped as `A` consecutive blocks of `B` terms each, in any commutative
  additive monoid: nothing but associativity of the sum is used, so the law holds on the extended reals with
  their infinities. It is what identifies a contraction accumulated block by block along its axis with the
  contraction done at once.
-/
import Mathlib.Algebra.BigOperators.Intervals
import Mathlib.Algebra.BigOperators.Fin

open scoped BigOperators

namespace Cert.BlockSum

/-- The first `B * A` terms of a sequence, summed block by block: block `s` holds the terms `B * s, …, B * s + B - 1`. -/
theorem sum_range_blocks {β : Type*} [AddCommMonoid β] (f : ℕ → β) (B : ℕ) :
    ∀ A : ℕ, ∑ k ∈ Finset.range (B * A), f k = ∑ s ∈ Finset.range A, ∑ r ∈ Finset.range B, f (B * s + r)
  | 0 => by simp
  | A + 1 => by
    rw [Nat.mul_succ, Finset.sum_range_add, sum_range_blocks f B A, Finset.sum_range_succ]

/-- The same with the terms indexed by `Fin n`, `n = B * A`, and each block's terms by `Fin B`. -/
theorem sum_fin_blocks {β : Type*} [AddCommMonoid β] (f : ℕ → β) (A B n : ℕ) (h : n = B * A) :
    ∑ k : Fin n, f k.val = ∑ s ∈ Finset.range A, ∑ r : Fin B, f (B * s + r.val) := by
  subst h
  rw [Fin.sum_univ_eq_sum_range, sum_range_blocks]
  refine Finset.sum_congr rfl fun s _ => ?_
  rw [Fin.sum_univ_eq_sum_range (fun r => f (B * s + r))]

end Cert.BlockSum
-- ==== Proof.KI.Value0.lean ====
/-
  What the result array of the first projection region ends holding.

  The region's grid is (b, s, n, k) with extents (2, 4, 3, 4); the output block (b, s, n), 512 rows by 2048 columns of
  the [2, 2048, 6144] result, is accumulated over the four blocks k of the contracted axis and written back at k = 3.
  Entry (b, s, j) of the result is Σ_k x (b, s, k) · w (k, j) over all 2048 values of k: the four block products, each a
  sum over 512 consecutive k, added in order from zero, regroup to the one sum by associativity alone.
-/
import proofs.«178252_j78915729097147_2_alg».proof.Proof.KI.Region0
import proofs.«178252_j78915729097147_2_alg».proof.Proof.KI.MidSpec
import proofs.«178252_j78915729097147_2_alg».proof.Proof.Pay
import proofs.«178252_j78915729097147_2_alg».proof.Proof.LibBlockSum
import Idealize.ShloMosaic.Lib.Pipeline.Value

noncomputable section

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The grid's points, four at a time -/

/-- Point `kb` of run `u`: the grid is row-major with the contracted axis last, so the four points of one output
    block are consecutive. -/
def pt0 (u : Fin 24) (kb : Fin 4) : Fin cfg0.N :=
  ⟨4 * u.val + kb.val, by
    have hu := u.isLt; have hk := kb.isLt
    show 4 * u.val + kb.val < grid0.N
    rw [N_0]; omega⟩

theorem pt0_val (u : Fin 24) (kb : Fin 4) : (pt0 u kb).val = 4 * u.val + kb.val := rfl

/-- The windows' block indices at the points of run `u`: run `u` is (b, s, n) = (u / 12, u / 3 % 4, u % 3). -/
theorem idx0 : ∀ (u : Fin 24) (kb : Fin 4),
    win0_0.index (pt0 u kb) = ![u.val / 12, u.val / 3 % 4, kb.val]
    ∧ win0_1.index (pt0 u kb) = ![kb.val, u.val % 3]
    ∧ win0_2.index (pt0 u kb) = ![u.val / 12, u.val / 3 % 4, u.val % 3] := by
  decide +kernel

/-! ## The operands and their blocks, as arrays of extended reals -/

/-- The left operand array as the region finds it. -/
abbrev opL0 (c : Dev nD) : S2x2048x2048.Idx → EReal := V c main_v0
/-- The right operand array as the region finds it. -/
abbrev opR0 (c : Dev nD) : S2048x6144.Idx → EReal := V c main_v5
/-- The left operand's block at point `kb` of run `u`. -/
abbrev blkL0 (c : Dev nD) (u : Fin 24) (kb : Fin 4) : S1x512x512.Idx → EReal := iblk0 V c 0 (pt0 u kb)
/-- The right operand's block at point `kb` of run `u`. -/
abbrev blkR0 (c : Dev nD) (u : Fin 24) (kb : Fin 4) : S512x2048.Idx → EReal := iblk0 V c 1 (pt0 u kb)

/-! ## A block's entry is the array's entry at block index × block size + the coordinate inside the block -/

/-- The left operand's block at point `kb` of run `u`. -/
theorem iblk0_0_apply (c : Dev nD) (u : Fin 24) (kb : Fin 4) (p kk : Fin 512)
    (i : S2x2048x2048.Idx) (h0 : (i 0).val = u.val / 12) (h1 : (i 1).val = 512 * (u.val / 3 % 4) + p.val)
    (h2 : (i 2).val = 512 * kb.val + kk.val) :
    iblk0 V c 0 (pt0 u kb) (ix3 (0 : Fin 1) p kk) = V c main_v0 i := by
  obtain ⟨e0, -, -⟩ := idx0 u kb
  unfold iblk0
  rw [View.read_apply]
  show V c main_v0 _ = V c main_v0 i
  refine congrArg (V c main_v0) (funext fun a => Fin.ext ?_)
  match a with
  | ⟨0, _⟩ =>
    show win0_0.index (pt0 u kb) 0 * 1 + 1 * 0 = (i 0).val
    rw [show win0_0.index (pt0 u kb) 0 = u.val / 12 from congrFun e0 0]; omega
  | ⟨1, _⟩ =>
    show win0_0.index (pt0 u kb) 1 * 512 + 1 * p.val = (i 1).val
    rw [show win0_0.index (pt0 u kb) 1 = u.val / 3 % 4 from congrFun e0 1]; omega
  | ⟨2, _⟩ =>
    show win0_0.index (pt0 u kb) 2 * 512 + 1 * kk.val = (i 2).val
    rw [show win0_0.index (pt0 u kb) 2 = kb.val from congrFun e0 2]; omega

/-- The right operand's block at point `kb` of run `u`. -/
theorem iblk0_1_apply (c : Dev nD) (u : Fin 24) (kb : Fin 4) (kk : Fin 512) (q : Fin 2048)
    (i : S2048x6144.Idx) (h0 : (i 0).val = 512 * kb.val + kk.val) (h1 : (i 1).val = 2048 * (u.val % 3) + q.val) :
    iblk0 V c 1 (pt0 u kb) (ix2 kk q) = V c main_v5 i := by
  obtain ⟨-, e1, -⟩ := idx0 u kb
  unfold iblk0
  rw [View.read_apply]
  show V c main_v5 _ = V c main_v5 i
  refine congrArg (V c main_v5) (funext fun a => Fin.ext ?_)
  match a with
  | ⟨0, _⟩ =>
    show win0_1.index (pt0 u kb) 0 * 512 + 1 * kk.val = (i 0).val
    rw [show win0_1.index (pt0 u kb) 0 = kb.val from congrFun e1 0]; omega
  | ⟨1, _⟩ =>
    show win0_1.index (pt0 u kb) 1 * 2048 + 1 * q.val = (i 1).val
    rw [show win0_1.index (pt0 u kb) 1 = u.val % 3 from congrFun e1 1]; omega

/-! ## The accumulator at the last point of a run -/

/-- The accumulator depends on the position only. -/
theorem acc0_congr (c : Dev nD) {n n' : ℕ} (h : n = n') (hn : n < cfg0.N) (hn' : n' < cfg0.N) :
    acc0 V c n hn = acc0 V c n' hn' := by
  subst h; rfl

/-- Entry (p, q) of the product of the two blocks at point `kb` of run `u`. -/
def blkProd0 (c : Dev nD) (u : Fin 24) (kb : Fin 4) (p : Fin 512) (q : Fin 2048) : EReal :=
  ∑ kk : Fin 512, blkL0 V c u kb (ix3 (0 : Fin 1) p kk) * blkR0 V c u kb (ix2 kk q)

/-- At the first point of a run the accumulator is the first block product added to zero. -/
theorem acc0_first (c : Dev nD) (u : Fin 24) (p : Fin 512) (q : Fin 2048) :
    acc0 V c (pt0 u 0).val (pt0 u 0).isLt (ix2 p q) = 0 + blkProd0 V c u 0 p q := by
  rw [acc0_reset V c (pt0 u 0) (by show (4 * u.val + 0) % 4 = 0; omega)]
  refine (Cert.Pay.pay2_apply (iblk0 V c 0 (pt0 u 0)) (iblk0 V c 1 (pt0 u 0)) _ p q).trans ?_
  rw [Cert.Pay.pay1_apply]
  rfl

/-- At a later point it is the point before's plus this point's block product. -/
theorem acc0_next (c : Dev nD) (u : Fin 24) (kb kb' : Fin 4) (h : kb.val = kb'.val + 1) (p : Fin 512) (q : Fin 2048) :
    acc0 V c (pt0 u kb).val (pt0 u kb).isLt (ix2 p q)
      = acc0 V c (pt0 u kb').val (pt0 u kb').isLt (ix2 p q) + blkProd0 V c u kb p q := by
  rw [acc0_step V c (pt0 u kb) (by show (4 * u.val + kb.val) % 4 ≠ 0; omega)]
  refine (Cert.Pay.pay2_apply (iblk0 V c 0 (pt0 u kb)) (iblk0 V c 1 (pt0 u kb)) _ p q).trans ?_
  refine congrArg (fun t => t + blkProd0 V c u kb p q) ?_
  exact congrFun (acc0_congr V c (by show 4 * u.val + kb.val - 1 = 4 * u.val + kb'.val; omega) _ _) (ix2 p q)

/-- At the last point of a run: the four block products added in order from zero. -/
theorem acc0_last (c : Dev nD) (u : Fin 24) (p : Fin 512) (q : Fin 2048) :
    acc0 V c (pt0 u 3).val (pt0 u 3).isLt (ix2 p q)
      = (((0 + blkProd0 V c u 0 p q) + blkProd0 V c u 1 p q) + blkProd0 V c u 2 p q) + blkProd0 V c u 3 p q := by
  rw [acc0_next V c u 3 2 rfl, acc0_next V c u 2 1 rfl, acc0_next V c u 1 0 rfl, acc0_first]

/-- A block product is 512 consecutive terms of the whole contraction. -/
theorem blkProd0_eq (c : Dev nD) (u : Fin 24) (kb : Fin 4) (p : Fin 512) (q : Fin 2048)
    (b : Fin 2) (s : Fin 2048) (j : Fin 6144) (hb : b.val = u.val / 12) (hs : s.val = 512 * (u.val / 3 % 4) + p.val)
    (hj : j.val = 2048 * (u.val % 3) + q.val) (f : ℕ → EReal)
    (hf : ∀ k : Fin 2048, f k.val = opL0 V c (ix3 b s k) * opR0 V c (ix2 k j)) :
    blkProd0 V c u kb p q = ∑ r : Fin 512, f (512 * kb.val + r.val) := by
  unfold blkProd0
  refine Finset.sum_congr rfl fun kk _ => ?_
  have hk : 512 * kb.val + kk.val < 2048 := by have := kb.isLt; have := kk.isLt; omega
  refine Eq.trans ?_ (hf ⟨512 * kb.val + kk.val, hk⟩).symm
  exact congrArg₂ (· * ·) (iblk0_0_apply V c u kb p kk (ix3 b s ⟨_, hk⟩) hb hs rfl)
    (iblk0_1_apply V c u kb kk q (ix2 ⟨_, hk⟩ j) rfl hj)

/-! ## What a run writes back, and the cover -/

/-- What the last point of a run writes back is its block of the whole contraction. -/
theorem flushed0_eq (c : Dev nD) (t : Fin cfg0.N) (hf : (cfg0.win 2).flush t = true) :
    (dat0 V c).flushed 2 t = ((cfg0.win 2).blk t).view.read (Elt Ideal) (G0 (V c main_v0) (V c main_v5)) := by
  have h3 : t.val % 4 = 3 := (flush0_2 t).mp hf
  have hN : t.val < 96 := Nat.lt_of_lt_of_eq t.isLt N_0
  obtain ⟨u, rfl⟩ : ∃ u : Fin 24, t = pt0 u 3 :=
    ⟨⟨t.val / 4, by omega⟩, Fin.ext (by show t.val = 4 * (t.val / 4) + 3; omega)⟩
  obtain ⟨-, -, e2⟩ := idx0 u 3
  have hu := u.isLt
  show (cfg0.win 2).cut (grid0.coords (pt0 u 3)) ((dat0 V c).after 2 (pt0 u 3)) = _
  rw [after0_2]
  funext y
  obtain ⟨z, p, q, rfl⟩ : ∃ (z : Fin 1) (p : Fin 512) (q : Fin 2048), y = ix3 z p q := ⟨y 0, y 1, y 2, eq_ix3 y⟩
  obtain rfl : z = 0 := Subsingleton.elim _ _
  have hp := p.isLt
  have hq := q.isLt
  -- the entry's place in the result array
  obtain ⟨b, hb⟩ : ∃ b : Fin 2, b.val = u.val / 12 := ⟨⟨u.val / 12, by omega⟩, rfl⟩
  obtain ⟨s, hs⟩ : ∃ s : Fin 2048, s.val = 512 * (u.val / 3 % 4) + p.val := ⟨⟨512 * (u.val / 3 % 4) + p.val, by omega⟩, rfl⟩
  obtain ⟨j, hj⟩ : ∃ j : Fin 6144, j.val = 2048 * (u.val % 3) + q.val := ⟨⟨2048 * (u.val % 3) + q.val, by omega⟩, rfl⟩
  rw [View.read_apply]
  have hi : ((cfg0.win 2).blk (pt0 u 3)).view.emb (ix3 (0 : Fin 1) p q) = ix3 b s j := by
    funext a
    apply Fin.ext
    match a with
    | ⟨0, _⟩ =>
      show win0_2.index (pt0 u 3) 0 * 1 + 1 * 0 = b.val
      rw [show win0_2.index (pt0 u 3) 0 = u.val / 12 from congrFun e2 0, hb]; omega
    | ⟨1, _⟩ =>
      show win0_2.index (pt0 u 3) 1 * 512 + 1 * p.val = s.val
      rw [show win0_2.index (pt0 u 3) 1 = u.val / 3 % 4 from congrFun e2 1, hs]; omega
    | ⟨2, _⟩ =>
      show win0_2.index (pt0 u 3) 2 * 2048 + 1 * q.val = j.val
      rw [show win0_2.index (pt0 u 3) 2 = u.val % 3 from congrFun e2 2, hj]; omega
  rw [hi]
  show k0_pay3 (acc0 V c (pt0 u 3).val (pt0 u 3).isLt) (ix3 (0 : Fin 1) p q)
    = ∑ k : Fin 2048, opL0 V c (ix3 b s k) * opR0 V c (ix2 k j)
  rw [Cert.Pay.pay3_apply, acc0_last]
  -- the four block sums are the one sum, regrouped
  let f : ℕ → EReal := fun k => if h : k < 2048 then opL0 V c (ix3 b s ⟨k, h⟩) * opR0 V c (ix2 ⟨k, h⟩ j) else 0
  have hf : ∀ k : Fin 2048, f k.val = opL0 V c (ix3 b s k) * opR0 V c (ix2 k j) := fun k => dif_pos k.isLt
  rw [blkProd0_eq V c u 0 p q b s j hb hs hj f hf, blkProd0_eq V c u 1 p q b s j hb hs hj f hf,
    blkProd0_eq V c u 2 p q b s j hb hs hj f hf, blkProd0_eq V c u 3 p q b s j hb hs hj f hf]
  refine Eq.trans ?_ (Finset.sum_congr rfl fun k _ => hf k)
  refine Eq.trans ?_ (Cert.BlockSum.sum_fin_blocks f 4 512 2048 rfl).symm
  rw [Finset.sum_range_succ, Finset.sum_range_succ, Finset.sum_range_succ, Finset.sum_range_succ, Finset.sum_range_zero]
  rfl

/-- An index of the result array is in a point's block iff each coordinate is in the block's range on its axis. -/
theorem mem_blk0 (t : Fin cfg0.N) (i : S2x2048x6144.Idx) :
    i ∈ ((cfg0.win 2).blk t).view.set ↔ ∀ a : Fin 3, win0_2.index t a * S1x512x2048.size a ≤ (i a).val
      ∧ (i a).val < win0_2.index t a * S1x512x2048.size a + S1x512x2048.size a := by
  show i ∈ ((View.whole main_v8).slice (win0_2.rect t)).set ↔ _
  rw [View.set_slice_whole, Rect.mem_set_unit]
  exact Iff.rfl

/-- Every entry (b, s, j) of the result lies in the block written back by the run (b, s / 512, j / 2048). -/
theorem cover0 (i : S2x2048x6144.Idx) :
    ∃ t : Fin cfg0.N, (cfg0.win 2).flush t = true ∧ i ∈ ((cfg0.win 2).blk t).view.set := by
  have h0 : (i 0).val < 2 := (i 0).isLt
  have h1 : (i 1).val < 2048 := (i 1).isLt
  have h2 : (i 2).val < 6144 := (i 2).isLt
  have hu : ((i 0).val * 4 + (i 1).val / 512) * 3 + (i 2).val / 2048 < 24 := by omega
  obtain ⟨-, -, e2⟩ := idx0 ⟨_, hu⟩ 3
  refine ⟨pt0 ⟨_, hu⟩ 3, (flush0_2 _).mpr (by show (4 * _ + 3) % 4 = 3; omega), ?_⟩
  rw [mem_blk0]
  intro a
  match a with
  | ⟨0, _⟩ =>
    show win0_2.index (pt0 ⟨_, hu⟩ 3) 0 * 1 ≤ (i 0).val ∧ (i 0).val < win0_2.index (pt0 ⟨_, hu⟩ 3) 0 * 1 + 1
    rw [show win0_2.index (pt0 ⟨_, hu⟩ 3) 0 = (((i 0).val * 4 + (i 1).val / 512) * 3 + (i 2).val / 2048) / 12 from congrFun e2 0]
    omega
  | ⟨1, _⟩ =>
    show win0_2.index (pt0 ⟨_, hu⟩ 3) 1 * 512 ≤ (i 1).val ∧ (i 1).val < win0_2.index (pt0 ⟨_, hu⟩ 3) 1 * 512 + 512
    rw [show win0_2.index (pt0 ⟨_, hu⟩ 3) 1 = (((i 0).val * 4 + (i 1).val / 512) * 3 + (i 2).val / 2048) / 3 % 4 from congrFun e2 1]
    omega
  | ⟨2, _⟩ =>
    show win0_2.index (pt0 ⟨_, hu⟩ 3) 2 * 2048 ≤ (i 2).val ∧ (i 2).val < win0_2.index (pt0 ⟨_, hu⟩ 3) 2 * 2048 + 2048
    rw [show win0_2.index (pt0 ⟨_, hu⟩ 3) 2 = (((i 0).val * 4 + (i 1).val / 512) * 3 + (i 2).val / 2048) % 3 from congrFun e2 2]
    omega

/-- After the region the result array holds the contraction of the two operand arrays as the region found them. -/
theorem final0 (c : Dev nD) : (dat0 V c).arrAt 2 cfg0.N = G0 (V c main_v0) (V c main_v5) :=
  (dat0 V c).arrAt_eq_of_cover 2 (G0 (V c main_v0) (V c main_v5)) (flushed0_eq V c) cover0

end Cert.KernelIdeal.Hand
end
-- ==== Proof.KI.Value1.lean ====
/-
  What the attention region leaves in its result array, at the ideal values.

  The region reads one array Q of shape [2, 2048, 6144] — per batch and row, 2048 query channels, then 2048 key
  channels, then 2048 value channels, each cut into sixteen heads of 128 lanes — through three windows. At grid point
  (b, h, i) the body sees the 512 query rows 512 i … 512 i + 511 of head h, and all 2048 key rows and value rows of
  head h; it leaves rows 512 i … of head h of the result: for row s and lane d,
  Σ_r w (s, r) · Q (b, r, 4096 + 128 h + d), where w (s, ·) are the row's weights: the exponentials of the scaled
  scores less their maximum, divided by their sum. Every point writes its block back and the blocks tile the
  result array, so the array ends holding that function of Q at every index.
-/
import proofs.«178252_j78915729097147_2_alg».proof.Proof.KI.Region1
import proofs.«178252_j78915729097147_2_alg».proof.Proof.Pay
import proofs.«178252_j78915729097147_2_alg».proof.Proof.KI.MidSpec
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The printed index maps, decided over the grid -/

theorem idx1 : ∀ t : Fin cfg1.N,
    win1_0.index t (0 : Fin 3) = win1_3.index t (0 : Fin 3) ∧ win1_0.index t (1 : Fin 3) = win1_3.index t (1 : Fin 3)
    ∧ win1_0.index t (2 : Fin 3) = win1_3.index t (2 : Fin 3)
    ∧ win1_1.index t (0 : Fin 3) = win1_3.index t (0 : Fin 3) ∧ win1_1.index t (1 : Fin 3) = 0
    ∧ win1_1.index t (2 : Fin 3) = 16 + win1_3.index t (2 : Fin 3)
    ∧ win1_2.index t (0 : Fin 3) = win1_3.index t (0 : Fin 3) ∧ win1_2.index t (1 : Fin 3) = 0
    ∧ win1_2.index t (2 : Fin 3) = 32 + win1_3.index t (2 : Fin 3)
    ∧ win1_3.index t (0 : Fin 3) ≤ 1 ∧ win1_3.index t (1 : Fin 3) ≤ 3 ∧ win1_3.index t (2 : Fin 3) ≤ 15 :=
  (by decide +kernel : ∀ t : Fin grid1.N, _)

theorem onto1 : ∀ (q0 : Fin 2) (q1 : Fin 4) (q2 : Fin 16), ∃ t : Fin cfg1.N, win1_3.index t = ![q0.val, q1.val, q2.val] :=
  (by decide +kernel : ∀ (q0 : Fin 2) (q1 : Fin 4) (q2 : Fin 16), ∃ t : Fin grid1.N, win1_3.index t = ![q0.val, q1.val, q2.val])

/-! ## The blocks' elements in the packed array -/

/-- A query block's element: row `512 I + p`, query channel of head `H`, lane `d`. -/
theorem qblk (c : Dev nD) (t : Fin cfg1.N) (B : Fin 2) (I : Fin 4) (H : Fin 16)
    (h0 : win1_3.index t (0 : Fin 3) = B.val) (h1 : win1_3.index t (1 : Fin 3) = I.val) (h2 : win1_3.index t (2 : Fin 3) = H.val)
    (p : Fin 512) (d : Fin 128) :
    iblk1 V c 0 t (ix3 (0 : Fin 1) p d)
      = V c main_v8 (ix3 B (⟨512 * I.val + p.val, by have := I.isLt; have := p.isLt; omega⟩ : Fin 2048) (qcol H d)) := by
  obtain ⟨e0, e1, e2, -⟩ := idx1 t
  unfold iblk1
  rw [View.read_apply]
  show V c main_v8 (((cfg1.win 0).blk t).view.emb (ix3 (0 : Fin 1) p d)) = _
  refine congrArg (V c main_v8) (funext fun a => Fin.ext ?_)
  match a with
  | ⟨0, _⟩ => show win1_0.index t (0 : Fin 3) * 1 + 1 * 0 = B.val; omega
  | ⟨1, _⟩ => show win1_0.index t (1 : Fin 3) * 512 + 1 * p.val = 512 * I.val + p.val; omega
  | ⟨2, _⟩ => show win1_0.index t (2 : Fin 3) * 128 + 1 * d.val = 128 * H.val + d.val; omega

/-- A key block's element: row `r`, key channel of head `H`, lane `d`. -/
theorem kblk (c : Dev nD) (t : Fin cfg1.N) (B : Fin 2) (H : Fin 16)
    (h0 : win1_3.index t (0 : Fin 3) = B.val) (h2 : win1_3.index t (2 : Fin 3) = H.val)
    (r : Fin 2048) (d : Fin 128) :
    iblk1 V c 1 t (ix3 (0 : Fin 1) r d) = V c main_v8 (ix3 B r (kcol H d)) := by
  obtain ⟨-, -, -, e3, e4, e5, -⟩ := idx1 t
  unfold iblk1
  rw [View.read_apply]
  show V c main_v8 (((cfg1.win 1).blk t).view.emb (ix3 (0 : Fin 1) r d)) = _
  refine congrArg (V c main_v8) (funext fun a => Fin.ext ?_)
  match a with
  | ⟨0, _⟩ => show win1_1.index t (0 : Fin 3) * 1 + 1 * 0 = B.val; omega
  | ⟨1, _⟩ => show win1_1.index t (1 : Fin 3) * 2048 + 1 * r.val = r.val; omega
  | ⟨2, _⟩ => show win1_1.index t (2 : Fin 3) * 128 + 1 * d.val = 2048 + 128 * H.val + d.val; omega

/-- A value block's element: row `r`, value channel `128 H + d`. -/
theorem vblk (c : Dev nD) (t : Fin cfg1.N) (B : Fin 2) (H : Fin 16)
    (h0 : win1_3.index t (0 : Fin 3) = B.val) (h2 : win1_3.index t (2 : Fin 3) = H.val)
    (r : Fin 2048) (d : Fin 128) :
    iblk1 V c 2 t (ix3 (0 : Fin 1) r d) = V c main_v8 (ix3 B r (vcol (Cert.Spec.chan H d))) := by
  obtain ⟨-, -, -, -, -, -, e6, e7, e8, -⟩ := idx1 t
  unfold iblk1
  rw [View.read_apply]
  show V c main_v8 (((cfg1.win 2).blk t).view.emb (ix3 (0 : Fin 1) r d)) = _
  refine congrArg (V c main_v8) (funext fun a => Fin.ext ?_)
  match a with
  | ⟨0, _⟩ => show win1_2.index t (0 : Fin 3) * 1 + 1 * 0 = B.val; omega
  | ⟨1, _⟩ => show win1_2.index t (1 : Fin 3) * 2048 + 1 * r.val = r.val; omega
  | ⟨2, _⟩ => show win1_2.index t (2 : Fin 3) * 128 + 1 * d.val = 4096 + (128 * H.val + d.val); omega

/-! ## What a point writes back -/

/-- The block point `t` writes back is block `t` of `G1` of the packed array as the region finds it. -/
theorem flushed1_eq (c : Dev nD) (t : Fin cfg1.N) :
    (dat1 V c).flushed 3 t = ((cfg1.win 3).blk t).view.read (Elt Ideal) (G1 (V c main_v8)) := by
  obtain ⟨-, -, -, -, -, -, -, -, -, b0, b1, b2⟩ := idx1 t
  obtain ⟨B, hB⟩ : ∃ B : Fin 2, win1_3.index t (0 : Fin 3) = B.val := ⟨⟨win1_3.index t (0 : Fin 3), by omega⟩, rfl⟩
  obtain ⟨I, hI⟩ : ∃ I : Fin 4, win1_3.index t (1 : Fin 3) = I.val := ⟨⟨win1_3.index t (1 : Fin 3), by omega⟩, rfl⟩
  obtain ⟨H, hH⟩ : ∃ H : Fin 16, win1_3.index t (2 : Fin 3) = H.val := ⟨⟨win1_3.index t (2 : Fin 3), by omega⟩, rfl⟩
  show (cfg1.win 3).cut (grid1.coords t) ((dat1 V c).after 3 t) = _
  rw [after1_3]
  funext (y : S1x512x128.Idx)
  obtain ⟨u, p, d, rfl⟩ : ∃ (u : Fin 1) (p : Fin 512) (d : Fin 128), y = ix3 u p d := ⟨y 0, y 1, y 2, eq_ix3 y⟩
  obtain rfl : u = 0 := Subsingleton.elim _ _
  rw [View.read_apply]
  show k1_pay1 (F := Ideal) (iblk1 V c 0 t) (iblk1 V c 1 t) (iblk1 V c 2 t) (ix3 (0 : Fin 1) p d)
    = G1 (V c main_v8) (((cfg1.win 3).blk t).view.emb (ix3 (0 : Fin 1) p d))
  have hemb : ((cfg1.win 3).blk t).view.emb (ix3 (0 : Fin 1) p d)
      = ix3 B (⟨512 * I.val + p.val, by have := I.isLt; have := p.isLt; omega⟩ : Fin 2048) (Cert.Spec.chan H d) := by
    funext a; apply Fin.ext
    match a with
    | ⟨0, _⟩ => show win1_3.index t (0 : Fin 3) * 1 + 1 * 0 = B.val; omega
    | ⟨1, _⟩ => show win1_3.index t (1 : Fin 3) * 512 + 1 * p.val = 512 * I.val + p.val; omega
    | ⟨2, _⟩ => show win1_3.index t (2 : Fin 3) * 128 + 1 * d.val = 128 * H.val + d.val; omega
  rw [hemb]
  refine (Cert.Pay.k1_pay1_apply _ _ _ p d).trans ?_
  show _ = att1 (V c main_v8) B _ (Cert.Spec.chan H d)
  unfold att1
  have hh : Cert.Spec.headOf (Cert.Spec.chan H d) = H :=
    Fin.ext (by show (128 * H.val + d.val) / 128 = H.val; have := d.isLt; omega)
  rw [hh]
  have hs : ∀ r : Fin 2048, Cert.Pay.tileScore (iblk1 V c 0 t) (iblk1 V c 1 t) p r
      = sc1 (V c main_v8) B H (⟨512 * I.val + p.val, by have := I.isLt; have := p.isLt; omega⟩ : Fin 2048) r := fun r => by
    unfold Cert.Pay.tileScore sc1
    refine congrArg (· * Cert.Spec.scale) (Finset.sum_congr rfl fun d' _ => ?_)
    rw [qblk V c t B I H hB hI hH p d', kblk V c t B H hB hH r d']
  have hm : Cert.Pay.tileMax (iblk1 V c 0 t) (iblk1 V c 1 t) p
      = mx1 (V c main_v8) B H (⟨512 * I.val + p.val, by have := I.isLt; have := p.isLt; omega⟩ : Fin 2048) := by
    unfold Cert.Pay.tileMax mx1
    exact congrArg (fun f => Finset.fold max (Ideal.ofBits .f32 0xFF800000#32) f (Finset.univ : Finset (Fin 2048))) (funext hs)
  have he : ∀ r : Fin 2048, Cert.Pay.tileExp (iblk1 V c 0 t) (iblk1 V c 1 t) p r
      = ex1 (V c main_v8) B H (⟨512 * I.val + p.val, by have := I.isLt; have := p.isLt; omega⟩ : Fin 2048) r := fun r => by
    unfold Cert.Pay.tileExp ex1; rw [hs r, hm]
  refine Finset.sum_congr rfl fun r _ => ?_
  rw [he r, Finset.sum_congr rfl (fun r' _ => he r'), vblk V c t B H hB hH r d]

/-! ## The blocks tile the result array -/

theorem mem_blk1 (t : Fin cfg1.N) (i : S2x2048x2048.Idx) :
    i ∈ ((cfg1.win 3).blk t).view.set ↔ ∀ a : Fin 3, win1_3.index t a * S1x512x128.size a ≤ (i a).val ∧ (i a).val < win1_3.index t a * S1x512x128.size a + S1x512x128.size a := by
  show i ∈ ((View.whole main_v9).slice (win1_3.rect t)).set ↔ _
  rw [View.set_slice_whole, Rect.mem_set_unit]
  exact Iff.rfl

/-- The result array after the region: `G1` of the packed array as the region finds it. -/
theorem final1 (c : Dev nD) : (dat1 V c).arrAt 3 cfg1.N = G1 (V c main_v8) :=
  (dat1 V c).arrAt_eq_of_cover 3 (G1 (V c main_v8)) (fun t _ => flushed1_eq V c t) fun i => by
    have hi0 : (i 0).val < 2 := (i 0).isLt
    have hi1 : (i 1).val < 2048 := (i 1).isLt
    have hi2 : (i 2).val < 2048 := (i 2).isLt
    obtain ⟨t, ht⟩ := onto1 ⟨(i 0).val, hi0⟩ ⟨(i 1).val / 512, by omega⟩ ⟨(i 2).val / 128, by omega⟩
    have q0 : win1_3.index t (0 : Fin 3) = (i 0).val := congrFun ht 0
    have q1 : win1_3.index t (1 : Fin 3) = (i 1).val / 512 := congrFun ht 1
    have q2 : win1_3.index t (2 : Fin 3) = (i 2).val / 128 := congrFun ht 2
    refine ⟨t, flush1_3 t, ?_⟩
    rw [mem_blk1]
    intro a
    match a with
    | ⟨0, _⟩ => show win1_3.index t (0 : Fin 3) * 1 ≤ (i 0).val ∧ (i 0).val < win1_3.index t (0 : Fin 3) * 1 + 1; omega
    | ⟨1, _⟩ => show win1_3.index t (1 : Fin 3) * 512 ≤ (i 1).val ∧ (i 1).val < win1_3.index t (1 : Fin 3) * 512 + 512; omega
    | ⟨2, _⟩ => show win1_3.index t (2 : Fin 3) * 128 ≤ (i 2).val ∧ (i 2).val < win1_3.index t (2 : Fin 3) * 128 + 128; omega

end Cert.KernelIdeal.Hand

end
-- ==== Proof.KI.Value2.lean ====
/-
  What the result array of the output projection region ends holding.

  The region's grid is (b, s, n, k) with extents (2, 4, 1, 4); point number t has b = t / 16, s = t / 4 mod 4 and
  k = t mod 4.  The output block (b, s), 512 rows by all 2048 columns of the [2, 2048, 2048] result, is accumulated
  over the four blocks k of the contracted axis and written back at k = 3 only.  At point (b, s, k) the body sees
  rows 512 s … 512 s + 511 and columns 512 k … 512 k + 511 of the left array, and rows 512 k … 512 k + 511 of the
  right matrix.  So entry (b, r, e) of the result is (((0 + S 0) + S 1) + S 2) + S 3, S k being the sum of
  x (b, r, j) · w (j, e) over the 512 values j = 512 k … 512 k + 511, and that is the sum over all 2048 values of
  j: consecutive blocks of a sum regroup by associativity alone, infinities or not.
-/
import proofs.«178252_j78915729097147_2_alg».proof.Proof.KI.Region2
import proofs.«178252_j78915729097147_2_alg».proof.Proof.KI.MidSpec
import proofs.«178252_j78915729097147_2_alg».proof.Proof.Pay
import proofs.«178252_j78915729097147_2_alg».proof.Proof.LibBlockSum
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-! ## A contraction over 2048 indices as four consecutive slabs of 512 -/

/-- The part of entry (b, s, e) of the product that the contraction indices 512 kb … 512 kb + 511 contribute. -/
def slab2 (X : S2x2048x2048.Idx → EReal) (Wm : S2048x2048.Idx → EReal) (b : Fin 2) (s e : Fin 2048) (kb : ℕ) (hkb : kb < 4) : EReal :=
  ∑ kk : Fin 512, X (ix3 b s (⟨512 * kb + kk.val, by have := kk.isLt; omega⟩ : Fin 2048)) * Wm (ix2 (⟨512 * kb + kk.val, by have := kk.isLt; omega⟩ : Fin 2048) e)

/-- The four slabs added in order from zero are the whole contraction. -/
theorem slab_sum (X : S2x2048x2048.Idx → EReal) (Wm : S2048x2048.Idx → EReal) (b : Fin 2) (s e : Fin 2048) :
    0 + slab2 X Wm b s e 0 (by omega) + slab2 X Wm b s e 1 (by omega) + slab2 X Wm b s e 2 (by omega) + slab2 X Wm b s e 3 (by omega)
      = mm2 X Wm b s e := by
  obtain ⟨f, hfdef⟩ : ∃ f : ℕ → EReal, ∀ (k : ℕ) (h : k < 2048), f k = X (ix3 b s ⟨k, h⟩) * Wm (ix2 ⟨k, h⟩ e) :=
    ⟨fun k => if h : k < 2048 then X (ix3 b s ⟨k, h⟩) * Wm (ix2 ⟨k, h⟩ e) else 0, fun k h => dif_pos h⟩
  have hf : mm2 X Wm b s e = ∑ k : Fin 2048, f k.val := by
    unfold mm2
    exact Finset.sum_congr rfl fun k _ => (hfdef k.val k.isLt).symm
  have hg : ∀ (kb : ℕ) (hkb : kb < 4), (∑ r : Fin 512, f (512 * kb + r.val)) = slab2 X Wm b s e kb hkb := fun kb hkb => by
    unfold slab2
    exact Finset.sum_congr rfl fun kk _ => hfdef _ (by have := kk.isLt; omega)
  rw [hf, Cert.BlockSum.sum_fin_blocks f 4 512 2048 rfl, Finset.sum_range_succ, Finset.sum_range_succ, Finset.sum_range_succ,
    Finset.sum_range_succ, Finset.sum_range_zero, hg 0 (by omega), hg 1 (by omega), hg 2 (by omega), hg 3 (by omega)]

/-- One point's block product is a slab, when the point's blocks are the arrays' entries at rows 512 s' + p and
    contraction indices 512 kb + kk. -/
theorem slab_of_blocks (X : S2x2048x2048.Idx → EReal) (Wm : S2048x2048.Idx → EReal)
    (x0 : FVec Ideal S1x512x512 .bf16) (w0 : FVec Ideal S512x2048 .bf16)
    (b : Fin 2) (s e : Fin 2048) (kb : ℕ) (hkb : kb < 4) (p : Fin 512)
    (hx : ∀ kk : Fin 512, x0 (ix3 (0 : Fin 1) p kk) = X (ix3 b s (⟨512 * kb + kk.val, by have := kk.isLt; omega⟩ : Fin 2048)))
    (hw : ∀ kk : Fin 512, w0 (ix2 kk e) = Wm (ix2 (⟨512 * kb + kk.val, by have := kk.isLt; omega⟩ : Fin 2048) e)) :
    (∑ kk : Fin 512, x0 (ix3 (0 : Fin 1) p kk) * w0 (ix2 kk e)) = slab2 X Wm b s e kb hkb := by
  unfold slab2
  exact Finset.sum_congr rfl fun kk _ => by rw [hx kk, hw kk]

/-- Four accumulation steps from the zero block, read at one entry: the whole contraction, when each step's
    block product is the corresponding slab. -/
theorem four_steps (X : S2x2048x2048.Idx → EReal) (Wm : S2048x2048.Idx → EReal) (b : Fin 2) (s e : Fin 2048) (p : Fin 512)
    (x0 x1 x2 x3 : FVec Ideal S1x512x512 .bf16) (w0 w1 w2 w3 : FVec Ideal S512x2048 .bf16)
    (h0 : (∑ kk : Fin 512, x0 (ix3 (0 : Fin 1) p kk) * w0 (ix2 kk e)) = slab2 X Wm b s e 0 (by omega))
    (h1 : (∑ kk : Fin 512, x1 (ix3 (0 : Fin 1) p kk) * w1 (ix2 kk e)) = slab2 X Wm b s e 1 (by omega))
    (h2 : (∑ kk : Fin 512, x2 (ix3 (0 : Fin 1) p kk) * w2 (ix2 kk e)) = slab2 X Wm b s e 2 (by omega))
    (h3 : (∑ kk : Fin 512, x3 (ix3 (0 : Fin 1) p kk) * w3 (ix2 kk e)) = slab2 X Wm b s e 3 (by omega)) :
    k2_pay2 (F := Ideal) x3 w3 (k2_pay2 (F := Ideal) x2 w2 (k2_pay2 (F := Ideal) x1 w1 (k2_pay2 (F := Ideal) x0 w0 (k2_pay1 (F := Ideal))))) (ix2 p e)
      = mm2 X Wm b s e := by
  rw [Cert.Pay.pay2_apply₂, Cert.Pay.pay2_apply₂, Cert.Pay.pay2_apply₂, Cert.Pay.pay2_apply₂, Cert.Pay.pay1_apply₂, h0, h1, h2, h3]
  exact slab_sum X Wm b s e

variable (V : (c : Dev nD) → (b : Ref sig .tc) → Buf (Elt Ideal) ((c : Thread nD τ).loc b))

/-! ## The printed index maps, decided over the grid -/

theorem idx2 : ∀ t : Fin cfg2.N,
    win2_0.index t (0 : Fin 3) = t.val / 16 ∧ win2_0.index t (1 : Fin 3) = t.val / 4 % 4 ∧ win2_0.index t (2 : Fin 3) = t.val % 4
    ∧ win2_1.index t (0 : Fin 2) = t.val % 4 ∧ win2_1.index t (1 : Fin 2) = 0
    ∧ win2_2.index t (0 : Fin 3) = t.val / 16 ∧ win2_2.index t (1 : Fin 3) = t.val / 4 % 4 ∧ win2_2.index t (2 : Fin 3) = 0 :=
  (by decide +kernel : ∀ t : Fin grid2.N, _)

/-! ## The blocks' elements in the arrays -/

/-- An element of the left window's block: batch B, row 512 I + p, column 512 kb + kk. -/
theorem xblk2 (c : Dev nD) (t : Fin cfg2.N) (B : Fin 2) (I : Fin 4) (kb : ℕ) (hkb : kb < 4)
    (h0 : t.val / 16 = B.val) (h1 : t.val / 4 % 4 = I.val) (h2 : t.val % 4 = kb) (p kk : Fin 512) :
    iblk2 V c 0 t (ix3 (0 : Fin 1) p kk)
      = V c main_v9 (ix3 B (⟨512 * I.val + p.val, by have := I.isLt; have := p.isLt; omega⟩ : Fin 2048)
          (⟨512 * kb + kk.val, by have := kk.isLt; omega⟩ : Fin 2048)) := by
  obtain ⟨e0, e1, e2, -⟩ := idx2 t
  unfold iblk2
  rw [View.read_apply]
  show V c main_v9 (((cfg2.win 0).blk t).view.emb (ix3 (0 : Fin 1) p kk)) = _
  refine congrArg (V c main_v9) (funext fun a => Fin.ext ?_)
  match a with
  | ⟨0, _⟩ => show win2_0.index t (0 : Fin 3) * 1 + 1 * 0 = B.val; omega
  | ⟨1, _⟩ => show win2_0.index t (1 : Fin 3) * 512 + 1 * p.val = 512 * I.val + p.val; omega
  | ⟨2, _⟩ => show win2_0.index t (2 : Fin 3) * 512 + 1 * kk.val = 512 * kb + kk.val; omega

/-- An element of the right window's block: row 512 kb + kk, column q. -/
theorem wblk2 (c : Dev nD) (t : Fin cfg2.N) (kb : ℕ) (hkb : kb < 4) (h2 : t.val % 4 = kb) (kk : Fin 512) (q : Fin 2048) :
    iblk2 V c 1 t (ix2 kk q) = V c main_v7 (ix2 (⟨512 * kb + kk.val, by have := kk.isLt; omega⟩ : Fin 2048) q) := by
  obtain ⟨-, -, -, e3, e4, -⟩ := idx2 t
  unfold iblk2
  rw [View.read_apply]
  show V c main_v7 (((cfg2.win 1).blk t).view.emb (ix2 kk q)) = _
  refine congrArg (V c main_v7) (funext fun a => Fin.ext ?_)
  match a with
  | ⟨0, _⟩ => show win2_1.index t (0 : Fin 2) * 512 + 1 * kk.val = 512 * kb + kk.val; omega
  | ⟨1, _⟩ => show win2_1.index t (1 : Fin 2) * 2048 + 1 * q.val = q.val; omega

/-- The left window's block at a point, as a block of extended reals. -/
abbrev blkL2 (c : Dev nD) (t : Fin cfg2.N) : FVec Ideal S1x512x512 .bf16 := iblk2 V c 0 t
/-- The right window's block at a point. -/
abbrev blkR2 (c : Dev nD) (t : Fin cfg2.N) : FVec Ideal S512x2048 .bf16 := iblk2 V c 1 t

/-- One point's block product, read at row p and column q, is the slab of its k. -/
theorem point_slab (c : Dev nD) (t : Fin cfg2.N) (B : Fin 2) (I : Fin 4) (kb : ℕ) (hkb : kb < 4)
    (h0 : t.val / 16 = B.val) (h1 : t.val / 4 % 4 = I.val) (h2 : t.val % 4 = kb) (p : Fin 512) (q : Fin 2048) :
    (∑ kk : Fin 512, blkL2 V c t (ix3 (0 : Fin 1) p kk) * blkR2 V c t (ix2 kk q))
      = slab2 (V c main_v9) (V c main_v7) B (⟨512 * I.val + p.val, by have := I.isLt; have := p.isLt; omega⟩ : Fin 2048) q kb hkb :=
  slab_of_blocks (V c main_v9) (V c main_v7) (blkL2 V c t) (blkR2 V c t) B _ q kb hkb p
    (fun kk => xblk2 V c t B I kb hkb h0 h1 h2 p kk) (fun kk => wblk2 V c t kb hkb h2 kk q)

/-! ## The accumulator at a point that writes back -/

/-- At a point with k = 3 the accumulator holds four steps from the zero block: those of the points with
    k = 0, 1, 2, 3 of the same output block, in that order. -/
theorem acc2_flush (c : Dev nD) (t : Fin cfg2.N) (h3 : t.val % 4 = 3) :
    acc2 V c t.val t.isLt
      = k2_pay2 (iblk2 V c 0 t) (iblk2 V c 1 t)
          (k2_pay2 (iblk2 V c 0 ⟨t.val - 1, by have := t.isLt; omega⟩) (iblk2 V c 1 ⟨t.val - 1, by have := t.isLt; omega⟩)
            (k2_pay2 (iblk2 V c 0 ⟨t.val - 1 - 1, by have := t.isLt; omega⟩) (iblk2 V c 1 ⟨t.val - 1 - 1, by have := t.isLt; omega⟩)
              (k2_pay2 (iblk2 V c 0 ⟨t.val - 1 - 1 - 1, by have := t.isLt; omega⟩) (iblk2 V c 1 ⟨t.val - 1 - 1 - 1, by have := t.isLt; omega⟩)
                (k2_pay1 (F := Ideal))))) := by
  have e3 := acc2_step V c t (by omega)
  have e2 := acc2_step V c ⟨t.val - 1, by have := t.isLt; omega⟩ (by show (t.val - 1) % 4 ≠ 0; omega)
  have e1 := acc2_step V c ⟨t.val - 1 - 1, by have := t.isLt; omega⟩ (by show (t.val - 1 - 1) % 4 ≠ 0; omega)
  have e0 := acc2_reset V c ⟨t.val - 1 - 1 - 1, by have := t.isLt; omega⟩ (by show (t.val - 1 - 1 - 1) % 4 = 0; omega)
  exact e3.trans (congrArg (k2_pay2 _ _) (e2.trans (congrArg (k2_pay2 _ _) (e1.trans (congrArg (k2_pay2 _ _) e0)))))

/-- The accumulator's entry (p, q) at a point with k = 3 of output block (B, I): the whole contraction at
    row 512 I + p and column q. -/
theorem flush_entry (c : Dev nD) (t : Fin cfg2.N) (h3 : t.val % 4 = 3) (B : Fin 2) (I : Fin 4)
    (hB : t.val / 16 = B.val) (hI : t.val / 4 % 4 = I.val) (p : Fin 512) (q : Fin 2048) :
    (acc2 V c t.val t.isLt : FVec Ideal S512x2048 .f32) (ix2 p q)
      = mm2 (V c main_v9) (V c main_v7) B (⟨512 * I.val + p.val, by have := I.isLt; have := p.isLt; omega⟩ : Fin 2048) q := by
  have hlt := t.isLt
  refine (congrFun (acc2_flush V c t h3) (ix2 p q)).trans ?_
  exact four_steps (V c main_v9) (V c main_v7) B (⟨512 * I.val + p.val, by have := I.isLt; have := p.isLt; omega⟩ : Fin 2048) q p
    (blkL2 V c ⟨t.val - 1 - 1 - 1, by omega⟩) (blkL2 V c ⟨t.val - 1 - 1, by omega⟩) (blkL2 V c ⟨t.val - 1, by omega⟩) (blkL2 V c t)
    (blkR2 V c ⟨t.val - 1 - 1 - 1, by omega⟩) (blkR2 V c ⟨t.val - 1 - 1, by omega⟩) (blkR2 V c ⟨t.val - 1, by omega⟩) (blkR2 V c t)
    (point_slab V c ⟨t.val - 1 - 1 - 1, by omega⟩ B I 0 (by omega) (by show (t.val - 1 - 1 - 1) / 16 = B.val; omega)
      (by show (t.val - 1 - 1 - 1) / 4 % 4 = I.val; omega) (by show (t.val - 1 - 1 - 1) % 4 = 0; omega) p q)
    (point_slab V c ⟨t.val - 1 - 1, by omega⟩ B I 1 (by omega) (by show (t.val - 1 - 1) / 16 = B.val; omega)
      (by show (t.val - 1 - 1) / 4 % 4 = I.val; omega) (by show (t.val - 1 - 1) % 4 = 1; omega) p q)
    (point_slab V c ⟨t.val - 1, by omega⟩ B I 2 (by omega) (by show (t.val - 1) / 16 = B.val; omega)
      (by show (t.val - 1) / 4 % 4 = I.val; omega) (by show (t.val - 1) % 4 = 2; omega) p q)
    (point_slab V c t B I 3 (by omega) hB hI h3 p q)

/-! ## What a point writes back -/

/-- The block a point with k = 3 writes back is its block of the product of the two arrays as the region finds them. -/
theorem flushed2_eq (c : Dev nD) (t : Fin cfg2.N) (hf : (cfg2.win 2).flush t = true) :
    (dat2 V c).flushed 2 t = ((cfg2.win 2).blk t).view.read (Elt Ideal) (G2 (V c main_v9) (V c main_v7)) := by
  have h3 : t.val % 4 = 3 := (flush2_2 t).mp hf
  have hN : t.val < 32 := lt_of_lt_of_eq t.isLt (show cfg2.N = 32 from N_2)
  obtain ⟨-, -, -, -, -, e5, e6, e7⟩ := idx2 t
  obtain ⟨B, hB⟩ : ∃ B : Fin 2, t.val / 16 = B.val := ⟨⟨t.val / 16, by omega⟩, rfl⟩
  obtain ⟨I, hI⟩ : ∃ I : Fin 4, t.val / 4 % 4 = I.val := ⟨⟨t.val / 4 % 4, by omega⟩, rfl⟩
  show (cfg2.win 2).cut (grid2.coords t) ((dat2 V c).after 2 t) = _
  rw [after2_2]
  funext (y : S1x512x2048.Idx)
  obtain ⟨u, p, q, rfl⟩ : ∃ (u : Fin 1) (p : Fin 512) (q : Fin 2048), y = ix3 u p q := ⟨y 0, y 1, y 2, eq_ix3 y⟩
  obtain rfl : u = 0 := Subsingleton.elim _ _
  rw [View.read_apply]
  show k2_pay3 (F := Ideal) (acc2 V c t.val t.isLt) (ix3 (0 : Fin 1) p q)
    = G2 (V c main_v9) (V c main_v7) (((cfg2.win 2).blk t).view.emb (ix3 (0 : Fin 1) p q))
  have hemb : ((cfg2.win 2).blk t).view.emb (ix3 (0 : Fin 1) p q)
      = ix3 B (⟨512 * I.val + p.val, by have := I.isLt; have := p.isLt; omega⟩ : Fin 2048) q := by
    funext a; apply Fin.ext
    match a with
    | ⟨0, _⟩ => show win2_2.index t (0 : Fin 3) * 1 + 1 * 0 = B.val; omega
    | ⟨1, _⟩ => show win2_2.index t (1 : Fin 3) * 512 + 1 * p.val = 512 * I.val + p.val; omega
    | ⟨2, _⟩ => show win2_2.index t (2 : Fin 3) * 2048 + 1 * q.val = q.val; omega
  rw [hemb]
  refine (Cert.Pay.pay3_apply₂ (acc2 V c t.val t.isLt) p q).trans ?_
  exact flush_entry V c t h3 B I hB hI p q

/-! ## The blocks tile the result array -/

theorem mem_blk2 (t : Fin cfg2.N) (i : S2x2048x2048.Idx) :
    i ∈ ((cfg2.win 2).blk t).view.set ↔ ∀ a : Fin 3, win2_2.index t a * S1x512x2048.size a ≤ (i a).val ∧ (i a).val < win2_2.index t a * S1x512x2048.size a + S1x512x2048.size a := by
  show i ∈ ((View.whole main_v10).slice (win2_2.rect t)).set ↔ _
  rw [View.set_slice_whole, Rect.mem_set_unit]
  exact Iff.rfl

/-- The result array after the region: the product of the two arrays as the region finds them. -/
theorem final2 (c : Dev nD) : (dat2 V c).arrAt 2 cfg2.N = G2 (V c main_v9) (V c main_v7) :=
  (dat2 V c).arrAt_eq_of_cover 2 (G2 (V c main_v9) (V c main_v7)) (fun t hf => flushed2_eq V c t hf) fun i => by
    have hi0 : (i 0).val < 2 := (i 0).isLt
    have hi1 : (i 1).val < 2048 := (i 1).isLt
    have hi2 : (i 2).val < 2048 := (i 2).isLt
    obtain ⟨t, ht⟩ : ∃ t : Fin cfg2.N, t.val = 16 * (i 0).val + 4 * ((i 1).val / 512) + 3 :=
      ⟨⟨16 * (i 0).val + 4 * ((i 1).val / 512) + 3, lt_of_lt_of_eq (by omega) (show (32 : ℕ) = cfg2.N from N_2.symm)⟩, rfl⟩
    obtain ⟨-, -, -, -, -, e5, e6, e7⟩ := idx2 t
    refine ⟨t, (flush2_2 t).mpr (by omega), ?_⟩
    rw [mem_blk2]
    intro a
    match a with
    | ⟨0, _⟩ => show win2_2.index t (0 : Fin 3) * 1 ≤ (i 0).val ∧ (i 0).val < win2_2.index t (0 : Fin 3) * 1 + 1; omega
    | ⟨1, _⟩ => show win2_2.index t (1 : Fin 3) * 512 ≤ (i 1).val ∧ (i 1).val < win2_2.index t (1 : Fin 3) * 512 + 512; omega
    | ⟨2, _⟩ => show win2_2.index t (2 : Fin 3) * 2048 ≤ (i 2).val ∧ (i 2).val < win2_2.index t (2 : Fin 3) * 2048 + 2048; omega

end Cert.KernelIdeal.Hand

end
-- ==== Proof.KI.HostReads.lean ====
/-
  The three buffers the kernel regions read, entry by entry, in terms of the five argument arrays.  A change
  of float format is the identity on the extended reals; a transposed matrix at (k, e) is the matrix at
  (e, k); and of three matrices of 2048 columns laid side by side, column j is column j of the first for
  j < 2048, column j - 2048 of the second for j < 4096, and column j - 4096 of the third otherwise.
-/
import proofs.«178252_j78915729097147_2_alg».proof.Proof.KI.Base
import proofs.«178252_j78915729097147_2_alg».proof.Proof.KI.MidSpec

noncomputable section

namespace Cert.KernelIdeal.Hand

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (c : Dev nD)

/-- The activations the first region reads are the first argument's. -/
theorem host_x (b : Fin 2) (s k : Fin 2048) :
    U1 m c main_v0 (ix3 b s k) = m ((c : Thread nD τ).loc main_arg0) (ix3 b s k) := by
  rw [U1_v0]
  exact truncf_apply (φ := .f32) (ψ := .bf16) _ bitsLt_bf16_f32 _

/-- Columns 0 … 2047 of the side-by-side matrix: the first weight matrix transposed. -/
theorem host_wq (k e : Fin 2048) :
    U1 m c main_v5 (ix2 k (⟨e.val, by have := e.isLt; omega⟩ : Fin 6144)) = m ((c : Thread nD τ).loc main_arg1) (ix2 e k) := by
  rw [U1_v5]
  refine (truncf_apply (φ := .f32) (ψ := .bf16) _ bitsLt_bf16_f32 _).trans ?_
  refine (concatenate_apply_piece (α := Ideal .f32) (t := S2048x6144) (1 : Fin 2)
    [⟨S2048x2048, transpose S2048x2048 [1, 0] (m ((c : Thread nD τ).loc main_arg1)) transposes_S2048x2048_S2048x2048_1_0⟩,
     ⟨S2048x2048, transpose S2048x2048 [1, 0] (m ((c : Thread nD τ).loc main_arg2)) transposes_S2048x2048_S2048x2048_1_0⟩,
     ⟨S2048x2048, transpose S2048x2048 [1, 0] (m ((c : Thread nD τ).loc main_arg3)) transposes_S2048x2048_S2048x2048_1_0⟩]
    concatenates_S2048x2048_S2048x2048_S2048x2048_S2048x6144_d1 (ix2 k (⟨e.val, by have := e.isLt; omega⟩ : Fin 6144))
    0 (by show (0 : Nat) < 3; decide) S2048x2048 (transpose S2048x2048 [1, 0] (m ((c : Thread nD τ).loc main_arg1)) transposes_S2048x2048_S2048x2048_1_0) rfl rfl
    0 rfl (ix2 k e)
    (fun b hb => match b with
      | ⟨0, _⟩ => rfl
      | ⟨1, _⟩ => absurd rfl hb)
    (Nat.zero_add _)).trans ?_
  exact transpose_ix2_apply _ _ k e

/-- Columns 2048 … 4095 of the side-by-side matrix: the second weight matrix transposed. -/
theorem host_wk (k e : Fin 2048) :
    U1 m c main_v5 (ix2 k (⟨2048 + e.val, by have := e.isLt; omega⟩ : Fin 6144)) = m ((c : Thread nD τ).loc main_arg2) (ix2 e k) := by
  rw [U1_v5]
  refine (truncf_apply (φ := .f32) (ψ := .bf16) _ bitsLt_bf16_f32 _).trans ?_
  refine (concatenate_apply_piece (α := Ideal .f32) (t := S2048x6144) (1 : Fin 2)
    [⟨S2048x2048, transpose S2048x2048 [1, 0] (m ((c : Thread nD τ).loc main_arg1)) transposes_S2048x2048_S2048x2048_1_0⟩,
     ⟨S2048x2048, transpose S2048x2048 [1, 0] (m ((c : Thread nD τ).loc main_arg2)) transposes_S2048x2048_S2048x2048_1_0⟩,
     ⟨S2048x2048, transpose S2048x2048 [1, 0] (m ((c : Thread nD τ).loc main_arg3)) transposes_S2048x2048_S2048x2048_1_0⟩]
    concatenates_S2048x2048_S2048x2048_S2048x2048_S2048x6144_d1 (ix2 k (⟨2048 + e.val, by have := e.isLt; omega⟩ : Fin 6144))
    1 (by show (1 : Nat) < 3; decide) S2048x2048 (transpose S2048x2048 [1, 0] (m ((c : Thread nD τ).loc main_arg2)) transposes_S2048x2048_S2048x2048_1_0) rfl rfl
    2048 rfl (ix2 k e)
    (fun b hb => match b with
      | ⟨0, _⟩ => rfl
      | ⟨1, _⟩ => absurd rfl hb)
    rfl).trans ?_
  exact transpose_ix2_apply _ _ k e

/-- Columns 4096 … 6143 of the side-by-side matrix: the third weight matrix transposed. -/
theorem host_wv (k e : Fin 2048) :
    U1 m c main_v5 (ix2 k (vcol e)) = m ((c : Thread nD τ).loc main_arg3) (ix2 e k) := by
  rw [U1_v5]
  refine (truncf_apply (φ := .f32) (ψ := .bf16) _ bitsLt_bf16_f32 _).trans ?_
  refine (concatenate_apply_piece (α := Ideal .f32) (t := S2048x6144) (1 : Fin 2)
    [⟨S2048x2048, transpose S2048x2048 [1, 0] (m ((c : Thread nD τ).loc main_arg1)) transposes_S2048x2048_S2048x2048_1_0⟩,
     ⟨S2048x2048, transpose S2048x2048 [1, 0] (m ((c : Thread nD τ).loc main_arg2)) transposes_S2048x2048_S2048x2048_1_0⟩,
     ⟨S2048x2048, transpose S2048x2048 [1, 0] (m ((c : Thread nD τ).loc main_arg3)) transposes_S2048x2048_S2048x2048_1_0⟩]
    concatenates_S2048x2048_S2048x2048_S2048x2048_S2048x6144_d1 (ix2 k (vcol e))
    2 (by show (2 : Nat) < 3; decide) S2048x2048 (transpose S2048x2048 [1, 0] (m ((c : Thread nD τ).loc main_arg3)) transposes_S2048x2048_S2048x2048_1_0) rfl rfl
    4096 rfl (ix2 k e)
    (fun b hb => match b with
      | ⟨0, _⟩ => rfl
      | ⟨1, _⟩ => absurd rfl hb)
    rfl).trans ?_
  exact transpose_ix2_apply _ _ k e

/-- The matrix the last region reads is the fourth weight matrix transposed. -/
theorem host_wo (k e : Fin 2048) :
    U1 m c main_v7 (ix2 k e) = m ((c : Thread nD τ).loc main_arg4) (ix2 e k) := by
  rw [U1_v7]
  refine (truncf_apply (φ := .f32) (ψ := .bf16) _ bitsLt_bf16_f32 _).trans ?_
  exact transpose_ix2_apply _ _ k e

end Cert.KernelIdeal.Hand

end
-- ==== Proof.KI.Compose.lean ====
/-
  The three stages composed are the specification.  Feed the first product the activations and the three
  weight matrices transposed and laid side by side: its columns 0 … 2047 are the query projection, 2048 … 4095
  the key projection, 4096 … 6143 the value projection, each Σ_k x (b, s, k) · w (e, k).  The attention stage
  over that packed array then has exactly the specification's scores (query channel 128 h + d against key
  channel 2048 + 128 h + d), row maxima, exponentials, row sums and weights, so its entry (b, s, j) is the
  specification's attended value; and the last product with the fourth matrix transposed is the result.
  Only the reading of each entry is used: no law of arithmetic beyond rewriting equal terms.
-/
import proofs.«178252_j78915729097147_2_alg».proof.Proof.KI.MidSpec
import proofs.«178252_j78915729097147_2_alg».proof.Proof.Spec

noncomputable section

namespace Cert.KernelIdeal.Hand

open Cert.KernelIdeal Idealize.ShloMosaic Idealize.ShloMosaic.ValueIdx

variable (x : Cert.Spec.Act) (wq wk wv wo : Cert.Spec.Mat)
  (X0 : S2x2048x2048.Idx → EReal) (W5 : S2048x6144.Idx → EReal) (W7 : S2048x2048.Idx → EReal)

/-- The query channel of head h, lane d, is channel 128 h + d of the packed array. -/
theorem qcol_eq (h : Fin 16) (d : Fin 128) :
    qcol h d = (⟨(Cert.Spec.chan h d).val, by have := (Cert.Spec.chan h d).isLt; omega⟩ : Fin 6144) := Fin.ext rfl

/-- The key channel of head h, lane d, is channel 2048 + (128 h + d) of the packed array. -/
theorem kcol_eq (h : Fin 16) (d : Fin 128) :
    kcol h d = (⟨2048 + (Cert.Spec.chan h d).val, by have := (Cert.Spec.chan h d).isLt; omega⟩ : Fin 6144) :=
  Fin.ext (by show 2048 + 128 * h.val + d.val = 2048 + (128 * h.val + d.val); omega)

/-- Columns 0 … 2047 of the first product are the query projection. -/
theorem g0_q (hX : ∀ (b : Fin 2) (s k : Fin 2048), X0 (ix3 b s k) = x (ix3 b s k))
    (hq : ∀ k e : Fin 2048, W5 (ix2 k (⟨e.val, by have := e.isLt; omega⟩ : Fin 6144)) = wq (ix2 e k))
    (b : Fin 2) (s : Fin 2048) (h : Fin 16) (d : Fin 128) :
    G0 X0 W5 (ix3 b s (qcol h d)) = Cert.Spec.proj x wq b s (Cert.Spec.chan h d) := by
  show mm0 X0 W5 b s (qcol h d) = _
  unfold mm0 Cert.Spec.proj
  refine Finset.sum_congr rfl fun k _ => ?_
  rw [hX, qcol_eq, hq]

/-- Columns 2048 … 4095 of the first product are the key projection. -/
theorem g0_k (hX : ∀ (b : Fin 2) (s k : Fin 2048), X0 (ix3 b s k) = x (ix3 b s k))
    (hk : ∀ k e : Fin 2048, W5 (ix2 k (⟨2048 + e.val, by have := e.isLt; omega⟩ : Fin 6144)) = wk (ix2 e k))
    (b : Fin 2) (s : Fin 2048) (h : Fin 16) (d : Fin 128) :
    G0 X0 W5 (ix3 b s (kcol h d)) = Cert.Spec.proj x wk b s (Cert.Spec.chan h d) := by
  show mm0 X0 W5 b s (kcol h d) = _
  unfold mm0 Cert.Spec.proj
  refine Finset.sum_congr rfl fun k _ => ?_
  rw [hX, kcol_eq, hk]

/-- Columns 4096 … 6143 of the first product are the value projection. -/
theorem g0_v (hX : ∀ (b : Fin 2) (s k : Fin 2048), X0 (ix3 b s k) = x (ix3 b s k))
    (hv : ∀ k e : Fin 2048, W5 (ix2 k (vcol e)) = wv (ix2 e k))
    (b : Fin 2) (s : Fin 2048) (j : Fin 2048) :
    G0 X0 W5 (ix3 b s (vcol j)) = Cert.Spec.proj x wv b s j := by
  show mm0 X0 W5 b s (vcol j) = _
  unfold mm0 Cert.Spec.proj
  refine Finset.sum_congr rfl fun k _ => ?_
  rw [hX, hv]

/-- The attention stage's scores over the packed projections are the specification's. -/
theorem sc1_eq (hX : ∀ (b : Fin 2) (s k : Fin 2048), X0 (ix3 b s k) = x (ix3 b s k))
    (hq : ∀ k e : Fin 2048, W5 (ix2 k (⟨e.val, by have := e.isLt; omega⟩ : Fin 6144)) = wq (ix2 e k))
    (hk : ∀ k e : Fin 2048, W5 (ix2 k (⟨2048 + e.val, by have := e.isLt; omega⟩ : Fin 6144)) = wk (ix2 e k))
    (b : Fin 2) (h : Fin 16) (s r : Fin 2048) :
    sc1 (G0 X0 W5) b h s r = Cert.Spec.score x wq wk b h s r := by
  unfold sc1 Cert.Spec.score
  refine congrArg (· * Cert.Spec.scale) (Finset.sum_congr rfl fun d _ => ?_)
  rw [g0_q x wq X0 W5 hX hq, g0_k x wk X0 W5 hX hk]

/-- Its row maxima are the specification's. -/
theorem mx1_eq (hX : ∀ (b : Fin 2) (s k : Fin 2048), X0 (ix3 b s k) = x (ix3 b s k))
    (hq : ∀ k e : Fin 2048, W5 (ix2 k (⟨e.val, by have := e.isLt; omega⟩ : Fin 6144)) = wq (ix2 e k))
    (hk : ∀ k e : Fin 2048, W5 (ix2 k (⟨2048 + e.val, by have := e.isLt; omega⟩ : Fin 6144)) = wk (ix2 e k))
    (b : Fin 2) (h : Fin 16) (s : Fin 2048) :
    mx1 (G0 X0 W5) b h s = Cert.Spec.rowMax x wq wk b h s := by
  unfold mx1 Cert.Spec.rowMax
  exact Finset.fold_congr (fun r _ => sc1_eq x wq wk X0 W5 hX hq hk b h s r)

/-- Its exponentials are the specification's. -/
theorem ex1_eq (hX : ∀ (b : Fin 2) (s k : Fin 2048), X0 (ix3 b s k) = x (ix3 b s k))
    (hq : ∀ k e : Fin 2048, W5 (ix2 k (⟨e.val, by have := e.isLt; omega⟩ : Fin 6144)) = wq (ix2 e k))
    (hk : ∀ k e : Fin 2048, W5 (ix2 k (⟨2048 + e.val, by have := e.isLt; omega⟩ : Fin 6144)) = wk (ix2 e k))
    (b : Fin 2) (h : Fin 16) (s r : Fin 2048) :
    ex1 (G0 X0 W5) b h s r = Cert.Spec.expo x wq wk b h s r := by
  unfold ex1 Cert.Spec.expo
  rw [sc1_eq x wq wk X0 W5 hX hq hk, mx1_eq x wq wk X0 W5 hX hq hk]

/-- Its attended values are the specification's. -/
theorem att1_eq (hX : ∀ (b : Fin 2) (s k : Fin 2048), X0 (ix3 b s k) = x (ix3 b s k))
    (hq : ∀ k e : Fin 2048, W5 (ix2 k (⟨e.val, by have := e.isLt; omega⟩ : Fin 6144)) = wq (ix2 e k))
    (hk : ∀ k e : Fin 2048, W5 (ix2 k (⟨2048 + e.val, by have := e.isLt; omega⟩ : Fin 6144)) = wk (ix2 e k))
    (hv : ∀ k e : Fin 2048, W5 (ix2 k (vcol e)) = wv (ix2 e k))
    (b : Fin 2) (s j : Fin 2048) :
    att1 (G0 X0 W5) b s j = Cert.Spec.attn x wq wk wv b s j := by
  unfold att1 Cert.Spec.attn Cert.Spec.weight Cert.Spec.denom
  have hd : (∑ r' : Fin 2048, ex1 (G0 X0 W5) b (Cert.Spec.headOf j) s r')
      = ∑ r' : Fin 2048, Cert.Spec.expo x wq wk b (Cert.Spec.headOf j) s r' :=
    Finset.sum_congr rfl fun r' _ => ex1_eq x wq wk X0 W5 hX hq hk b (Cert.Spec.headOf j) s r'
  refine Finset.sum_congr rfl fun r _ => ?_
  rw [hd, ex1_eq x wq wk X0 W5 hX hq hk, g0_v x wv X0 W5 hX hv]

/-- The three stages composed, fed the activations, the three transposed weight matrices side by side and the
    fourth transposed, are the specification's array. -/
theorem compose_eq (hX : ∀ (b : Fin 2) (s k : Fin 2048), X0 (ix3 b s k) = x (ix3 b s k))
    (hq : ∀ k e : Fin 2048, W5 (ix2 k (⟨e.val, by have := e.isLt; omega⟩ : Fin 6144)) = wq (ix2 e k))
    (hk : ∀ k e : Fin 2048, W5 (ix2 k (⟨2048 + e.val, by have := e.isLt; omega⟩ : Fin 6144)) = wk (ix2 e k))
    (hv : ∀ k e : Fin 2048, W5 (ix2 k (vcol e)) = wv (ix2 e k))
    (ho : ∀ k e : Fin 2048, W7 (ix2 k e) = wo (ix2 e k)) :
    G2 (G1 (G0 X0 W5)) W7 = Cert.Spec.G x wq wk wv wo := by
  funext i
  obtain ⟨b, s, e, rfl⟩ : ∃ (b : Fin 2) (s e : Fin 2048), i = ix3 b s e := ⟨i 0, i 1, i 2, eq_ix3 i⟩
  show mm2 (G1 (G0 X0 W5)) W7 b s e = Cert.Spec.out x wq wk wv wo b s e
  unfold mm2 Cert.Spec.out
  refine Finset.sum_congr rfl fun k _ => ?_
  rw [ho]
  refine congrArg (· * wo (ix2 e k)) ?_
  show att1 (G0 X0 W5) b s k = _
  exact att1_eq x wq wk wv X0 W5 hX hq hk hv b s k

end Cert.KernelIdeal.Hand

end
-- ==== Proof.KI.Final.lean ====
/-
  The kernel's result array as a function of the launch contents: the three regions' results chained.

  The first region leaves the packed projections of the narrowed activations by the three transposed weight
  matrices laid side by side; the second leaves the attention over that packed array; the third multiplies it by the
  transposed fourth matrix. Read index by index this is the specification's function of the five arguments.
-/
import proofs.«178252_j78915729097147_2_alg».proof.Proof.KI.Assembly
import proofs.«178252_j78915729097147_2_alg».proof.Proof.KI.Value0
import proofs.«178252_j78915729097147_2_alg».proof.Proof.KI.Value1
import proofs.«178252_j78915729097147_2_alg».proof.Proof.KI.Value2
import proofs.«178252_j78915729097147_2_alg».proof.Proof.KI.HostReads
import proofs.«178252_j78915729097147_2_alg».proof.Proof.KI.Compose

noncomputable section

namespace Cert.KernelIdeal.Hand

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

/-- What the third region leaves in the result array is the specification's function of the launch contents of the
    five argument arrays. -/
theorem o4_eq (c : Dev nD) :
    o4 m c = Cert.Spec.G (m ((c : Thread nD τ).loc main_arg0)) (m ((c : Thread nD τ).loc main_arg1))
      (m ((c : Thread nD τ).loc main_arg2)) (m ((c : Thread nD τ).loc main_arg3)) (m ((c : Thread nD τ).loc main_arg4)) := by
  have h8 : U2 m c main_v8 = G0 (U1 m c main_v0) (U1 m c main_v5) := (W2_v8 m c).trans (final0 (U1 m) c)
  have h9 : U3 m c main_v9 = G1 (G0 (U1 m c main_v0) (U1 m c main_v5)) :=
    (W3_v9 m c).trans ((final1 (U2 m) c).trans (congrArg G1 h8))
  have h7 : U3 m c main_v7 = U1 m c main_v7 :=
    (W3_of_ne m c main_v7 (by decide)).trans (W2_of_ne m c main_v7 (by decide))
  refine (final2 (U3 m) c).trans ?_
  rw [h9, h7]
  exact compose_eq _ _ _ _ _ _ _ _ (host_x m c) (host_wq m c) (host_wk m c) (host_wv m c) (host_wo m c)

end Cert.KernelIdeal.Hand

end
-- ==== Proof.Ref.Proj.lean ====
/-
  The three projections as the attention stage reads them.  The reference computes y = x wᵀ as an array
  [2, 2048, 2048], reshapes it to [2, 2048, 16, 128] (channel 128 h + d becomes (h, d): both are row-major
  over the same flat position) and exchanges axes 1 and 2.  So the entry at (b, h, s, d) of the result is
  Σ_k x (b, s, k) · w (128 h + d, k).
-/
import proofs.«178252_j78915729097147_2_alg».proof.Proof.Spec
import proofs.«178252_j78915729097147_2_alg».proof.Proof.Gen.ReferenceIdeal.Read

noncomputable section

namespace Cert.RefValue

open Idealize.ShloMosaic Idealize.ShloMosaic.ValueIdx Cert.ReferenceIdeal Cert.ReferenceIdeal.Gen Cert.ReferenceIdeal.Read Cert.Spec

/-- The flat position of (b, s, h, d) in [2, 2048, 16, 128], read back in [2, 2048, 2048]: batch b, row s,
    channel 128 h + d. -/
theorem split_flat (b : Fin 2) (s : Fin 2048) (h : Fin 16) (d : Fin 128) :
    (((b.val * 2048 + s.val) * 16 + h.val) * 128 + d.val) / 4194304 = b.val
    ∧ (((b.val * 2048 + s.val) * 16 + h.val) * 128 + d.val) / 2048 % 2048 = s.val
    ∧ (((b.val * 2048 + s.val) * 16 + h.val) * 128 + d.val) % 2048 = 128 * h.val + d.val := by
  have := b.isLt; have := s.isLt; have := h.isLt; have := d.isLt
  omega

/-- The proj_q projection after the split of the channel axis into (head, lane) and the exchange of the row and
    head axes: its entry at (b, h, s, d) is the plain projection at row s, channel 128 h + d. -/
theorem proj_q (x : Act) (w : Mat) (b : Fin 2) (h : Fin 16) (s : Fin 2048) (d : Fin 128) :
    val_main_v2 (F := Ideal) x w (ix4 b h s d) = proj x w b s (chan h d) := by
  rw [val_main_v2_apply, val_main_v1_apply, val_main_v0_apply]
  unfold proj
  have hs := split_flat b s h d
  refine Finset.sum_congr rfl fun k _ => ?_
  have el : lidx_main_v0 (idx_main_v1 (idx_main_v2 (ix4 b h s d))) k = ix3 b s k := funext fun a => Fin.ext (by
    match a with
    | ⟨0, _⟩ => exact hs.1
    | ⟨1, _⟩ => exact hs.2.1
    | ⟨2, _⟩ => rfl)
  have er : ridx_main_v0 (idx_main_v1 (idx_main_v2 (ix4 b h s d))) k = ix2 (chan h d) k := funext fun a => Fin.ext (by
    match a with
    | ⟨0, _⟩ => exact hs.2.2
    | ⟨1, _⟩ => rfl)
  rw [el, er]

/-- The proj_k projection after the split of the channel axis into (head, lane) and the exchange of the row and
    head axes: its entry at (b, h, s, d) is the plain projection at row s, channel 128 h + d. -/
theorem proj_k (x : Act) (w : Mat) (b : Fin 2) (h : Fin 16) (s : Fin 2048) (d : Fin 128) :
    val_main_v5 (F := Ideal) x w (ix4 b h s d) = proj x w b s (chan h d) := by
  rw [val_main_v5_apply, val_main_v4_apply, val_main_v3_apply]
  unfold proj
  have hs := split_flat b s h d
  refine Finset.sum_congr rfl fun k _ => ?_
  have el : lidx_main_v3 (idx_main_v4 (idx_main_v5 (ix4 b h s d))) k = ix3 b s k := funext fun a => Fin.ext (by
    match a with
    | ⟨0, _⟩ => exact hs.1
    | ⟨1, _⟩ => exact hs.2.1
    | ⟨2, _⟩ => rfl)
  have er : ridx_main_v3 (idx_main_v4 (idx_main_v5 (ix4 b h s d))) k = ix2 (chan h d) k := funext fun a => Fin.ext (by
    match a with
    | ⟨0, _⟩ => exact hs.2.2
    | ⟨1, _⟩ => rfl)
  rw [el, er]

/-- The proj_v projection after the split of the channel axis into (head, lane) and the exchange of the row and
    head axes: its entry at (b, h, s, d) is the plain projection at row s, channel 128 h + d. -/
theorem proj_v (x : Act) (w : Mat) (b : Fin 2) (h : Fin 16) (s : Fin 2048) (d : Fin 128) :
    val_main_v8 (F := Ideal) x w (ix4 b h s d) = proj x w b s (chan h d) := by
  rw [val_main_v8_apply, val_main_v7_apply, val_main_v6_apply]
  unfold proj
  have hs := split_flat b s h d
  refine Finset.sum_congr rfl fun k _ => ?_
  have el : lidx_main_v6 (idx_main_v7 (idx_main_v8 (ix4 b h s d))) k = ix3 b s k := funext fun a => Fin.ext (by
    match a with
    | ⟨0, _⟩ => exact hs.1
    | ⟨1, _⟩ => exact hs.2.1
    | ⟨2, _⟩ => rfl)
  have er : ridx_main_v6 (idx_main_v7 (idx_main_v8 (ix4 b h s d))) k = ix2 (chan h d) k := funext fun a => Fin.ext (by
    match a with
    | ⟨0, _⟩ => exact hs.2.2
    | ⟨1, _⟩ => rfl)
  rw [el, er]

end Cert.RefValue

end
-- ==== Proof.Ref.Score.lean ====
/-
  The scaled scores.  The reference contracts the lane axis of the query and key projections head by
  head and multiplies every entry by one fixed float word: at (b, h, s, r) that is
  (Σ_d q (b, s, 128 h + d) · k (b, r, 128 h + d)) · c.
-/
import proofs.«178252_j78915729097147_2_alg».proof.Proof.Spec
import proofs.«178252_j78915729097147_2_alg».proof.Proof.Gen.ReferenceIdeal.Read
import proofs.«178252_j78915729097147_2_alg».proof.Proof.Ref.Proj

noncomputable section

namespace Cert.RefValue

open Idealize.ShloMosaic Idealize.ShloMosaic.ValueIdx Cert.ReferenceIdeal Cert.ReferenceIdeal.Gen Cert.ReferenceIdeal.Read Cert.Spec

/-- The scaled score array at (b, h, s, r). -/
theorem score_eq (x : Act) (wq wk : Mat) (b : Fin 2) (h : Fin 16) (s r : Fin 2048) :
    val_main_v11 (F := Ideal) x wq wk (ix4 b h s r) = score x wq wk b h s r := by
  rw [val_main_v11_apply, val_main_v9_apply, val_main_v10_apply, val_main_cst_apply]
  unfold score scale
  rw [Ideal.mulf_def, Ideal.ofBits_def]
  refine congrArg (· * Ideal.ofBits .f32 0x3DB504F3#32) (Finset.sum_congr rfl fun k _ => ?_)
  have el : lidx_main_v9 (ix4 b h s r) k = ix4 b h s k := funext fun a => Fin.ext (by
    match a with
    | ⟨0, _⟩ => rfl
    | ⟨1, _⟩ => rfl
    | ⟨2, _⟩ => rfl
    | ⟨3, _⟩ => rfl)
  have er : ridx_main_v9 (ix4 b h s r) k = ix4 b h r k := funext fun a => Fin.ext (by
    match a with
    | ⟨0, _⟩ => rfl
    | ⟨1, _⟩ => rfl
    | ⟨2, _⟩ => rfl
    | ⟨3, _⟩ => rfl)
  rw [el, er, proj_q, proj_k]

end Cert.RefValue

end
-- ==== Proof.Ref.RowMax.lean ====
/-
  The row maximum the softmax subtracts.  The reference folds the maximum over the key axis of the scaled
  scores, starting from the word of -∞, and then takes the maximum of that with -∞ once more.  A fold of a
  commutative, associative operation over one axis does not depend on the order, so at (b, h, s) it is the
  fold of max over r of the score at (b, h, s, r); and max (c, fold from c) = fold from c because the fold
  is at least its starting value.
-/
import proofs.«178252_j78915729097147_2_alg».proof.Proof.Spec
import proofs.«178252_j78915729097147_2_alg».proof.Proof.Gen.ReferenceIdeal.Read
import proofs.«178252_j78915729097147_2_alg».proof.Proof.Ref.Score

noncomputable section

namespace Cert.RefValue

open Idealize.ShloMosaic Idealize.ShloMosaic.ValueIdx Cert.ReferenceIdeal Cert.ReferenceIdeal.Gen Cert.ReferenceIdeal.Read Cert.Spec

/-- The source index over the result index (b, h, s) of a reduction of the last axis, with coordinate r
    inserted on that axis, is (b, h, s, r). -/
theorem lift_last (hR : S2x16x2048x2048.Reduces [3] S2x16x2048) (b : Fin 2) (h : Fin 16) (s r : Fin 2048) :
    hR.lift (ix3 b h s) r = ix4 b h s r := funext fun a => Fin.ext (by
    match a with
    | ⟨0, _⟩ => rfl
    | ⟨1, _⟩ => rfl
    | ⟨2, _⟩ => rfl
    | ⟨3, _⟩ => rfl)

/-- A maximum-reduction of the last axis of an array [2, 16, 2048, 2048], at (b, h, s): the fold of max over
    the last coordinate, from the initial value's one element. -/
theorem reduce_max_last (y : S2x16x2048x2048.Idx → EReal) (init : S_.Idx → EReal) (b : Fin 2) (h : Fin 16) (s : Fin 2048) :
    Host.reduce (FloatOps.maximumf (F := Ideal) (φ := .f32)) y init reducesTo_S2x16x2048x2048_S2x16x2048_d3 h_S_ (ix3 b h s)
      = (Finset.univ : Finset (Fin 2048)).fold max (init (Shape.Idx.first h_S_)) (fun r => y (ix4 b h s r)) := by
  have hR : S2x16x2048x2048.Reduces [3] S2x16x2048 := by decide
  refine (Host.reduce_eq_fold_single (FloatOps.maximumf (F := Ideal) (φ := .f32)) y init reducesTo_S2x16x2048x2048_S2x16x2048_d3 hR h_S_ (ix3 b h s)).trans ?_
  exact Finset.fold_congr (fun r _ => congrArg y (lift_last hR b h s r))

/-- The maximum the reference subtracts from row (b, h, s) is the specification's row maximum. -/
theorem rowMax_eq (x : Act) (wq wk : Mat) (b : Fin 2) (h : Fin 16) (s : Fin 2048) :
    val_main_v14 (F := Ideal) x wq wk (ix3 b h s) = rowMax x wq wk b h s := by
  rw [val_main_v14_apply, val_main_v13_apply, val_main_cst_1_apply]
  unfold val_main_v12
  rw [reduce_max_last, val_main_cst_0_apply, Ideal.maximumf_def, Ideal.ofBits_def]
  unfold rowMax
  simp only [score_eq]
  exact max_eq_right ((Finset.le_fold_max _).mpr (Or.inl le_rfl))

end Cert.RefValue

end
-- ==== Proof.Ref.Weight.lean ====
/-
  The attention weights.  The reference broadcasts the row maximum back along the key axis, subtracts,
  exponentiates, sums each row starting from the zero word (0 + Σ = Σ), broadcasts the sum back and
  divides: at (b, h, s, r) that is exp (score - rowMax) / Σ_r' exp (score - rowMax).
-/
import proofs.«178252_j78915729097147_2_alg».proof.Proof.Spec
import proofs.«178252_j78915729097147_2_alg».proof.Proof.Gen.ReferenceIdeal.Read
import proofs.«178252_j78915729097147_2_alg».proof.Proof.Ref.RowMax

noncomputable section

namespace Cert.RefValue

open Idealize.ShloMosaic Idealize.ShloMosaic.ValueIdx Cert.ReferenceIdeal Cert.ReferenceIdeal.Gen Cert.ReferenceIdeal.Read Cert.Spec

/-- The exponentials at (b, h, s, r). -/
theorem expo_eq (x : Act) (wq wk : Mat) (b : Fin 2) (h : Fin 16) (s r : Fin 2048) :
    val_main_v18 (F := Ideal) x wq wk (ix4 b h s r) = expo x wq wk b h s r := by
  rw [val_main_v18_apply, val_main_v17_apply, val_main_v16_apply, val_main_v15_apply]
  have e : idx_main_v15 (idx_main_v16 (ix4 b h s r)) = ix3 b h s := funext fun a => Fin.ext (by
    match a with
    | ⟨0, _⟩ => rfl
    | ⟨1, _⟩ => rfl
    | ⟨2, _⟩ => rfl)
  rw [e, rowMax_eq, score_eq, Ideal.hostUnary_exp_def, Ideal.subf_def]
  rfl

/-- A row's sum of exponentials at (b, h, s). -/
theorem denom_eq (x : Act) (wq wk : Mat) (b : Fin 2) (h : Fin 16) (s : Fin 2048) :
    val_main_v19 (F := Ideal) x wq wk (ix3 b h s) = denom x wq wk b h s := by
  rw [val_main_v19_apply, val_main_cst_2_apply, Ideal.ofBits_def, Ideal.ofBits_zero_f32, zero_add]
  unfold denom
  refine Finset.sum_congr rfl fun k _ => ?_
  have e : idx_main_v19 (ix3 b h s) k = ix4 b h s k := funext fun a => Fin.ext (by
    match a with
    | ⟨0, _⟩ => rfl
    | ⟨1, _⟩ => rfl
    | ⟨2, _⟩ => rfl
    | ⟨3, _⟩ => rfl)
  rw [e, expo_eq]

/-- The attention weights at (b, h, s, r). -/
theorem weight_eq (x : Act) (wq wk : Mat) (b : Fin 2) (h : Fin 16) (s r : Fin 2048) :
    val_main_v22 (F := Ideal) x wq wk (ix4 b h s r) = weight x wq wk b h s r := by
  rw [val_main_v22_apply, val_main_v21_apply, val_main_v20_apply]
  have e : idx_main_v20 (idx_main_v21 (ix4 b h s r)) = ix3 b h s := funext fun a => Fin.ext (by
    match a with
    | ⟨0, _⟩ => rfl
    | ⟨1, _⟩ => rfl
    | ⟨2, _⟩ => rfl)
  rw [e, denom_eq, expo_eq, Ideal.hostDivf_def]
  rfl

end Cert.RefValue

end
-- ==== Proof.Ref.Attn.lean ====
/-
  The attended values and the result.  The reference contracts the key axis of the weights with the value
  projection head by head, exchanges the head and row axes back and merges (head, lane) into one channel
  axis: channel j comes from head j / 128, lane j % 128, and 128 (j / 128) + j % 128 = j.  So at (b, s, j)
  the array is Σ_r weight (b, j / 128, s, r) · v (b, r, j).  The last operation contracts the channel axis
  with the fourth matrix.
-/
import proofs.«178252_j78915729097147_2_alg».proof.Proof.Spec
import proofs.«178252_j78915729097147_2_alg».proof.Proof.Gen.ReferenceIdeal.Read
import proofs.«178252_j78915729097147_2_alg».proof.Proof.Ref.Proj
import proofs.«178252_j78915729097147_2_alg».proof.Proof.Ref.Weight

noncomputable section

namespace Cert.RefValue

open Idealize.ShloMosaic Idealize.ShloMosaic.ValueIdx Cert.ReferenceIdeal Cert.ReferenceIdeal.Gen Cert.ReferenceIdeal.Read Cert.Spec

/-- The lane of a channel inside its head. -/
def laneOf (j : Fin 2048) : Fin 128 := ⟨j.val % 128, Nat.mod_lt _ (by decide)⟩

/-- A channel is lane j % 128 of head j / 128. -/
theorem chan_headOf_laneOf (j : Fin 2048) : chan (headOf j) (laneOf j) = j :=
  Fin.ext (by show 128 * (j.val / 128) + j.val % 128 = j.val; omega)

/-- The flat position of (b, s, j) in [2, 2048, 2048], read back in [2, 2048, 16, 128]: batch b, row s, head
    j / 128, lane j % 128. -/
theorem merge_flat (b : Fin 2) (s j : Fin 2048) :
    ((b.val * 2048 + s.val) * 2048 + j.val) / 4194304 = b.val
    ∧ ((b.val * 2048 + s.val) * 2048 + j.val) / 2048 % 2048 = s.val
    ∧ ((b.val * 2048 + s.val) * 2048 + j.val) / 128 % 16 = j.val / 128
    ∧ ((b.val * 2048 + s.val) * 2048 + j.val) % 128 = j.val % 128 := by
  have := b.isLt; have := s.isLt; have := j.isLt
  omega

/-- The attended values at (b, s, j). -/
theorem attn_eq (x : Act) (wq wk wv : Mat) (b : Fin 2) (s j : Fin 2048) :
    val_main_v25 (F := Ideal) x wq wk wv (ix3 b s j) = attn x wq wk wv b s j := by
  rw [val_main_v25_apply, val_main_v24_apply, val_main_v23_apply]
  unfold attn
  have hm := merge_flat b s j
  refine Finset.sum_congr rfl fun k _ => ?_
  have el : lidx_main_v23 (idx_main_v24 (idx_main_v25 (ix3 b s j))) k = ix4 b (headOf j) s k := funext fun a => Fin.ext (by
    match a with
    | ⟨0, _⟩ => exact hm.1
    | ⟨1, _⟩ => exact hm.2.2.1
    | ⟨2, _⟩ => exact hm.2.1
    | ⟨3, _⟩ => rfl)
  have er : ridx_main_v23 (idx_main_v24 (idx_main_v25 (ix3 b s j))) k = ix4 b (headOf j) k (laneOf j) := funext fun a => Fin.ext (by
    match a with
    | ⟨0, _⟩ => exact hm.1
    | ⟨1, _⟩ => exact hm.2.2.1
    | ⟨2, _⟩ => rfl
    | ⟨3, _⟩ => exact hm.2.2.2)
  rw [el, er, weight_eq, proj_v, chan_headOf_laneOf]

/-- The result at (b, s, e). -/
theorem out_eq (x : Act) (wq wk wv wo : Mat) (b : Fin 2) (s e : Fin 2048) :
    val_main_v26 (F := Ideal) x wq wk wv wo (ix3 b s e) = out x wq wk wv wo b s e := by
  rw [val_main_v26_apply]
  unfold out
  refine Finset.sum_congr rfl fun k _ => ?_
  have el : lidx_main_v26 (ix3 b s e) k = ix3 b s k := funext fun a => Fin.ext (by
    match a with
    | ⟨0, _⟩ => rfl
    | ⟨1, _⟩ => rfl
    | ⟨2, _⟩ => rfl)
  have er : ridx_main_v26 (ix3 b s e) k = ix2 e k := funext fun a => Fin.ext (by
    match a with
    | ⟨0, _⟩ => rfl
    | ⟨1, _⟩ => rfl)
  rw [el, er, attn_eq]

end Cert.RefValue

end
-- ==== Proof.RefRun.lean ====
/-
  The reference program's result, as mathematics: the array its run leaves in its last buffer is the
  function Cert.Spec.G of the five argument arrays.  result_eq reads the last operation's value index by
  index, splitting the index into batch, row and output channel (the stages under Ref/ read the operations
  before it: projections, scores, row maximum, weights, attended values); run restates the reference's run
  with that function in place of the operations' composed term.
-/
import proofs.«178252_j78915729097147_2_alg».proof.Proof.Spec
import proofs.«178252_j78915729097147_2_alg».proof.Proof.Gen.ReferenceIdeal.Run
import proofs.«178252_j78915729097147_2_alg».proof.Proof.Gen.ReferenceIdeal.Read
import proofs.«178252_j78915729097147_2_alg».proof.Proof.Ref.Attn

noncomputable section

namespace Cert.RefValue

open Idealize.ShloMosaic Idealize.ShloMosaic.TcCoe Idealize.SL.Sem Idealize.ShloMosaic.ValueIdx

/-- The value of the reference's last operation is the specification's array. -/
theorem result_eq (x : Cert.Spec.Act) (wq wk wv wo : Cert.Spec.Mat) :
    Cert.ReferenceIdeal.Read.val_main_v26 (F := Ideal) x wq wk wv wo = Cert.Spec.G x wq wk wv wo := by
  funext i
  obtain ⟨b, s, e, rfl⟩ : ∃ (b : Fin 2) (s e : Fin 2048), i = ix3 b s e := ⟨i 0, i 1, i 2, eq_ix3 i⟩
  exact (out_eq x wq wk wv wo b s e).trans (Cert.Spec.G_apply x wq wk wv wo b s e).symm

/-- Every execution of the reference ends with its result buffer holding the specification's array of the
    arguments' initial contents, and the arguments unchanged. -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ fun r => ∀ c : Dev Cert.ReferenceIdeal.nD,
      r.2.mem ((c.tc : Thread Cert.ReferenceIdeal.nD Cert.ReferenceIdeal.τ).loc Cert.ReferenceIdeal.main_v26)
        = Cert.Spec.G (m ((c.tc : Thread Cert.ReferenceIdeal.nD Cert.ReferenceIdeal.τ).loc Cert.ReferenceIdeal.main_arg0))
            (m ((c.tc : Thread Cert.ReferenceIdeal.nD Cert.ReferenceIdeal.τ).loc Cert.ReferenceIdeal.main_arg1))
            (m ((c.tc : Thread Cert.ReferenceIdeal.nD Cert.ReferenceIdeal.τ).loc Cert.ReferenceIdeal.main_arg2))
            (m ((c.tc : Thread Cert.ReferenceIdeal.nD Cert.ReferenceIdeal.τ).loc Cert.ReferenceIdeal.main_arg3))
            (m ((c.tc : Thread Cert.ReferenceIdeal.nD Cert.ReferenceIdeal.τ).loc Cert.ReferenceIdeal.main_arg4))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4) :=
  (θ_run (Cert.ReferenceIdeal.defs (F := Ideal)) _ _).mono
    (fun _ h c => ⟨(h c).1.trans ((Cert.ReferenceIdeal.Read.val_main_v26_eq m c).trans (result_eq _ _ _ _ _)), (h c).2⟩)
    (Cert.ReferenceIdeal.Value.run (F := Ideal) m ρ)

end Cert.RefValue

end
-- ==== Proof.lean ====
/-
  The five claims.

  The kernel program is three kernel regions after eight layout operations of the host: a projection of the
  activations by the three weight matrices side by side, accumulated over four blocks of the contracted axis; the
  attention of each head, its scores' row maximum subtracted before exponentiating and each row divided by its sum;
  and the projection by the fourth matrix, accumulated likewise. Its frames — at the word level and at the ideal
  values — come from one proof written for any float instance: each region's proof data state what every staging
  buffer and the carried accumulator hold after every grid point, and between regions every unscoped buffer is held at
  a named valuation, so no argument array is ever written. At the ideal values the third region's result array is the
  specification's function of the arguments; the reference's run ends at the same function (a blocked sum regrouped by
  associativity alone; the format changes are the identity; the reference's extra maximum with -∞ changes nothing).
  The ideal pass rewrote nothing, so the preservation claim is trivial.
-/
import proofs.«178252_j78915729097147_2_alg».proof.Defs
import proofs.«178252_j78915729097147_2_alg».proof.Proof.Gen.Kernel
import proofs.«178252_j78915729097147_2_alg».proof.Proof.Gen.KernelIdeal
import proofs.«178252_j78915729097147_2_alg».proof.Proof.Gen.ReferenceIdeal
import proofs.«178252_j78915729097147_2_alg».proof.Proof.Gen.Pre_finite_inputs
import proofs.«178252_j78915729097147_2_alg».proof.Proof.Gen.ReferenceIdeal.Run
import proofs.«178252_j78915729097147_2_alg».proof.Proof.Gen.ReferenceIdeal.Read
import proofs.«178252_j78915729097147_2_alg».proof.Proof.KB.Assembly
import proofs.«178252_j78915729097147_2_alg».proof.Proof.KI.Final
import proofs.«178252_j78915729097147_2_alg».proof.Proof.RefRun
import Idealize.ShloMosaic.Adequacy
import Idealize.ShloMosaic.Init

noncomputable section

namespace Cert.Proof

open Idealize.ShloMosaic Idealize.ShloMosaic.TcCoe Idealize.SL.Sem

namespace Claims

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- At the ideal values both programs end with the specification's function of arguments that agree. -/
theorem algebraic : Cert.algebraic_KernelIdeal_ReferenceIdeal := by
  intro m ρ m' ρ' _ hagree
  refine ⟨fun c => Cert.Spec.G (m ((c.tc : Thread _ Cert.KernelIdeal.τ).loc Cert.KernelIdeal.main_arg0))
      (m ((c.tc : Thread _ Cert.KernelIdeal.τ).loc Cert.KernelIdeal.main_arg1)) (m ((c.tc : Thread _ Cert.KernelIdeal.τ).loc Cert.KernelIdeal.main_arg2))
      (m ((c.tc : Thread _ Cert.KernelIdeal.τ).loc Cert.KernelIdeal.main_arg3)) (m ((c.tc : Thread _ Cert.KernelIdeal.τ).loc Cert.KernelIdeal.main_arg4)), ?_, ?_⟩
  · exact (θ_run Cert.KernelIdeal.defs _ _).mono
      (fun _ h c => ⟨(h c).1.trans (Cert.KernelIdeal.Hand.o4_eq m c), (h c).2⟩) (Cert.KernelIdeal.Hand.run_main (F := Ideal) m ρ)
  · refine (θ_run Cert.ReferenceIdeal.defs _ _).mono (fun _ h c => ⟨?_, (h c).2⟩) (Cert.RefValue.run m' ρ')
    rw [(h c).1, (hagree c).1, (hagree c).2.1, (hagree c).2.2.1, (hagree c).2.2.2.1, (hagree c).2.2.2.2]

end Claims

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
